-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S128x256 : Shape := ⟨2, ![128, 256]⟩
abbrev S128x1x256 : Shape := ⟨3, ![128, 1, 256]⟩
abbrev S128x256x2048 : Shape := ⟨3, ![128, 256, 2048]⟩
abbrev S1x512 : Shape := ⟨2, ![1, 512]⟩
abbrev S1 : Shape := ⟨1, ![1]⟩
abbrev S256x512 : Shape := ⟨2, ![256, 512]⟩
abbrev S256 : Shape := ⟨1, ![256]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128x1x256 : S_.BroadcastsInDim S128x1x256 (![] : Fin 0 → Fin S128x1x256.rank)
  reducesTo_S128x1x256_S_d0_1_2 : S128x1x256.ReducesTo [0, 1, 2] S_
  bcast_S_S128x256x2048 : S_.BroadcastsInDim S128x256x2048 (![] : Fin 0 → Fin S128x256x2048.rank)
  reducesTo_S128x256x2048_S_d0_1_2 : S128x256x2048.ReducesTo [0, 1, 2] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x512 .f32) (main_arg8 : FVec F S256 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S128x256x2048 .f32) (main_arg5 : FVec F S1x512 .f32) (main_arg6 : FVec F S1 .f32) (main_arg7 : FVec F S256x512 .f32) (main_arg8 : FVec F S256 .f32) (main_v13 : IVec S_ 1) (main_v16 : IVec S128x1x256 1) : IVec S_ 1 :=
  let main_c_5 : IVec S_ 1 := constantI S_ 1 1#1
  let main_v17 : IVec S_ 1 := (fun x v => Host.reduce IntOp.andi x v reducesTo_S128x1x256_S_d0_1_2 h_S_) main_v16 main_c_5
  let main_v18 : IVec S_ 1 := andi main_v13 main_v17
  let main_v19 : FVec F S128x256x2048 .f32 := Host.absf main_arg4
  let main_cst_6 : FVec F S_ .f32 := constant S_ .f32 0x7F800000#32
  let main_v20 : FVec F S128x256x2048 .f32 := broadcastInDim S128x256x2048 ![] bcast_S_S128x256x2048 main_cst_6
  let main_v21 : IVec S128x256x2048 1 := cmpf .olt main_v19 main_v20
  let main_c_7 : IVec S_ 1 := constantI S_ 1 1#1
  let main_v22 : IVec S_ 1 := (fun x v => Host.reduce IntOp.andi x v reducesTo_S128x256x2048_S_d0_1_2 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S128x1024 .f32) (main_arg1 : FVec F S128x256 .f32) (main_arg2 : FVec F S128x256 .f32) (main_arg3 : FVec F S128x1x256 .f32) (main_arg4 : FVec F S128x256x2048 .f32) (main_arg5 : FVec F S1x512 .f32) (main_arg6 : FVec F S1 .f32) (main_arg7 : FVec F S256x512 .f32) (main_arg8 : FVec F S256 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x1x256 .f32 := Host.absf main_arg3
  let main_cst_4 : FVec F S_ .f32 := constant S_ .f32 0x7F800000#32
  let main_v15 : FVec F S128x1x256 .f32 := broadcastInDim S128x1x256 ![] bcast_S_S128x1x256 main_cst_4
  let main_v16 : IVec S128x1x256 1 := cmpf .olt main_v14 main_v15
  fn_part1 (F := F) main_arg4 main_arg5 main_arg6 main_arg7 main_arg8 main_v13 main_v16
-- ==== Kernel.lean ====
abbrev S128x1024 : Shape := ⟨2, ![128, 1024]⟩
abbrev S128x256 : Shape := ⟨2, ![128, 256]⟩
abbrev S128x1x256 : Shape := ⟨3, ![128, 1, 256]⟩
abbrev S128x256x2048 : Shape := ⟨3, ![128, 256, 2048]⟩
abbrev S1x512 : Shape := ⟨2, ![1, 512]⟩
abbrev S1 : Shape := ⟨1, ![1]⟩
abbrev S256x512 : Shape := ⟨2, ![256, 512]⟩
abbrev S256 : Shape := ⟨1, ![256]⟩
abbrev S128x4x256 : Shape := ⟨3, ![128, 4, 256]⟩
abbrev S1x1 : Shape := ⟨2, ![1, 1]⟩
abbrev S1x256 : Shape := ⟨2, ![1, 256]⟩
abbrev S128x4x2048 : Shape := ⟨3, ![128, 4, 2048]⟩
abbrev S1x4x256 : Shape := ⟨3, ![1, 4, 256]⟩
abbrev S1x1x256 : Shape := ⟨3, ![1, 1, 256]⟩
abbrev S1x256x2048 : Shape := ⟨3, ![1, 256, 2048]⟩
abbrev S1x4x2048 : Shape := ⟨3, ![1, 4, 2048]⟩
abbrev S4x256 : Shape := ⟨2, ![4, 256]⟩
abbrev S256x2048 : Shape := ⟨2, ![256, 2048]⟩
abbrev S2048 : Shape := ⟨1, ![2048]⟩
abbrev S1x2048 : Shape := ⟨2, ![1, 2048]⟩
abbrev S4 : Shape := ⟨1, ![4]⟩
abbrev S4x1 : Shape := ⟨2, ![4, 1]⟩
abbrev S4x2048 : Shape := ⟨2, ![4, 2048]⟩

abbrev nBuf : Space → Nat
  | .hbm => 17
  | .vmem => 20
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x256, .f32⟩
  | .hbm, ⟨3, _⟩ => ⟨S128x1x256, .f32⟩
  | .hbm, ⟨4, _⟩ => ⟨S128x256x2048, .f32⟩
  | .hbm, ⟨5, _⟩ => ⟨S1x512, .f32⟩
  | .hbm, ⟨6, _⟩ => ⟨S1, .f32⟩
  | .hbm, ⟨7, _⟩ => ⟨S256x512, .f32⟩
  | .hbm, ⟨8, _⟩ => ⟨S256, .f32⟩
  | .hbm, ⟨9, _⟩ => ⟨S128x4x256, .f32⟩
  | .hbm, ⟨10, _⟩ => ⟨S128x1x256, .f32⟩
  | .hbm, ⟨11, _⟩ => ⟨S128x1x256, .f32⟩
  | .hbm, ⟨12, _⟩ => ⟨S1x1, .f32⟩
  | .hbm, ⟨13, _⟩ => ⟨S1x256, .f32⟩
  | .hbm, ⟨14, _⟩ => ⟨S128x4x256, .f32⟩
  | .hbm, ⟨15, _⟩ => ⟨S128x256x2048, .f32⟩
  | .hbm, ⟨16, _⟩ => ⟨S128x4x2048, .f32⟩
  | .local _ .vmem, ⟨0, _⟩ => ⟨S1x4x256, .f32⟩
  | .local _ .vmem, ⟨1, _⟩ => ⟨S1x4x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x256x2048, .f32⟩
  | .local _ .vmem, ⟨9, _⟩ => ⟨S1x256x2048, .f32⟩
  | .local _ .vmem, ⟨10, _⟩ => ⟨S1x512, .f32⟩
  | .local _ .vmem, ⟨11, _⟩ => ⟨S1x1, .f32⟩
  | .local _ .vmem, ⟨12, _⟩ => ⟨S256x512, .f32⟩
  | .local _ .vmem, ⟨13, _⟩ => ⟨S1x256, .f32⟩
  | .local _ .vmem, ⟨14, _⟩ => ⟨S1x4x256, .f32⟩
  | .local _ .vmem, ⟨15, _⟩ => ⟨S1x4x256, .f32⟩
  | .local _ .vmem, ⟨16, _⟩ => ⟨S1x256x2048, .f32⟩
  | .local _ .vmem, ⟨17, _⟩ => ⟨S1x256x2048, .f32⟩
  | .local _ .vmem, ⟨18, _⟩ => ⟨S1x4x2048, .f32⟩
  | .local _ .vmem, ⟨19, _⟩ => ⟨S1x4x2048, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S128x1024_S128x4x256 : S128x1024.ShapeCasts S128x4x256
  shapeCasts_S128x256_S128x1x256 : S128x256.ShapeCasts S128x1x256
  shapeCasts_S1_S1x1 : S1.ShapeCasts S1x1
  shapeCasts_S256_S1x256 : S256.ShapeCasts S1x256
  inb_S1x4x256_S1x4x256_0_0_0 : ∀ a, (![0, 0, 0] : Fin 3 → Nat) a + S1x4x256.size a ≤ S1x4x256.size a
  h_S1x4x256 : 0 < S1x4x256.numel
  shapeCasts_S1x4x256_S4x256 : S1x4x256.ShapeCasts S4x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x512_S1x512_0_0 : ∀ a, (![0, 0] : Fin 2 → Nat) a + S1x512.size a ≤ S1x512.size a
  h_S1x512 : 0 < S1x512.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1x256_S1 : S1x256.Reduces [1] S1
  broadcasts_S1x1_S1x256 : S1x1.Broadcasts S1x256
  concatenates_S1x256_S1x256_S1x512_d1 : Shape.Concatenates [S1x256, S1x256] S1x512 1
  reduces_S256x2048_S2048 : S256x2048.Reduces [0] S2048
  shapeCasts_S2048_S1x2048 : S2048.ShapeCasts S1x2048
  broadcasts_S1x2048_S256x2048 : S1x2048.Broadcasts S256x2048
  reduces_S1x2048_S1 : S1x2048.Reduces [1] S1
  broadcasts_S1x1_S1x2048 : S1x1.Broadcasts S1x2048
  reduces_S4x256_S4 : S4x256.Reduces [1] S4
  shapeCasts_S4_S4x1 : S4.ShapeCasts S4x1
  broadcasts_S4x1_S4x256 : S4x1.Broadcasts S4x256
  reduces_S4x2048_S4 : S4x2048.Reduces [1] S4
  broadcasts_S4x1_S4x2048 : S4x1.Broadcasts S4x2048
  shapeCasts_S4x256_S1x4x256 : S4x256.ShapeCasts S1x4x256
  shapeCasts_S256x2048_S1x256x2048 : S256x2048.ShapeCasts S1x256x2048
  inb_S1x4x2048_S1x4x2048_0_0_0 : ∀ a, (![0, 0, 0] : Fin 3 → Nat) a + S1x4x2048.size a ≤ S1x4x2048.size a
  h_S1x4x2048 : 0 < S1x4x2048.numel
  shapeCasts_S1x4x2048_S4x2048 : S1x4x2048.ShapeCasts S4x2048
  shapeCasts_S4x2048_S1x4x2048 : S4x2048.ShapeCasts S1x4x2048
  dot_S1x512_S1x512_S1x1_1_1_0_0_n_n_wf : DotDims.WF S1x512 S1x512 S1x1 [1] [1] [0] [0] [] []
  dot_S1x512_S256x512_S1x256_1_1_0_0_n_n_wf : DotDims.WF S1x512 S256x512 S1x256 [1] [1] [0] [0] [] []
  dot_S1x256_S256x2048_S1x2048_1_0_0_1_n_n_wf : DotDims.WF S1x256 S256x2048 S1x2048 [1] [0] [0] [1] [] []
  dot_S1x256_S1x2048_S256x2048_0_0_1_1_n_n_wf : DotDims.WF S1x256 S1x2048 S256x2048 [0] [0] [1] [1] [] []
  dot_S4x256_S256x2048_S4x2048_1_0_0_1_n_n_wf : DotDims.WF S4x256 S256x2048 S4x2048 [1] [0] [0] [1] [] []
  dot_S4x2048_S256x2048_S4x256_1_1_0_0_n_n_wf : DotDims.WF S4x2048 S256x2048 S4x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256.size a ≤ S128x4x256.size a
  hwx0_0 : ∀ i : grid0.Coords, EltTy.bits .f32 = 32 ∨ (Rect.block (s := S128x4x256) S1x4x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S128x1x256.size a
  hwx0_1 : ∀ i : grid0.Coords, EltTy.bits .f32 = 32 ∨ (Rect.block (s := S128x1x256) S1x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S128x1x256.size a
  hwx0_2 : ∀ i : grid0.Coords, EltTy.bits .f32 = 32 ∨ (Rect.block (s := S128x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S128x1x256.size a
  hwx0_3 : ∀ i : grid0.Coords, EltTy.bits .f32 = 32 ∨ (Rect.block (s := S128x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S128x256x2048.size a
  hwx0_4 : ∀ i : grid0.Coords, EltTy.bits .f32 = 32 ∨ (Rect.block (s := S128x256x2048) S1x256x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .f32 = 32 ∨ (Rect.block (s := S256x512) S256x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x4x256.size a ≤ S128x4x256.size a
  hwx0_9 : ∀ i : grid0.Coords, EltTy.bits .f32 = 32 ∨ (Rect.block (s := S128x4x256) S1x4x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x2048.size a ≤ S128x256x2048.size a
  hwx0_10 : ∀ i : grid0.Coords, EltTy.bits .f32 = 32 ∨ (Rect.block (s := S128x256x2048) S1x256x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x4x2048.size a ≤ S128x4x2048.size a
  hwx0_11 : ∀ i : grid0.Coords, EltTy.bits .f32 = 32 ∨ (Rect.block (s := S128x4x2048) S1x4x2048.size (cc0_transform_11 i) (hinb0_11 i)).WholeWords (EltTy.packing .f32)

variable [Facts₀]

def dot_S1x512_S1x512_S1x1_1_1_0_0_n_n : DotDims S1x512 S1x512 S1x1 where
  lhsContracting := [1]
  rhsContracting := [1]
  lhsNonContracting := [0]
  rhsNonContracting := [0]
  lhsBatch := []
  rhsBatch := []
  wf := dot_S1x512_S1x512_S1x1_1_1_0_0_n_n_wf
def dot_S1x512_S256x512_S1x256_1_1_0_0_n_n : DotDims S1x512 S256x512 S1x256 where
  lhsContracting := [1]
  rhsContracting := [1]
  lhsNonContracting := [0]
  rhsNonContracting := [0]
  lhsBatch := []
  rhsBatch := []
  wf := dot_S1x512_S256x512_S1x256_1_1_0_0_n_n_wf
def dot_S1x256_S256x2048_S1x2048_1_0_0_1_n_n : DotDims S1x256 S256x2048 S1x2048 where
  lhsContracting := [1]
  rhsContracting := [0]
  lhsNonContracting := [0]
  rhsNonContracting := [1]
  lhsBatch := []
  rhsBatch := []
  wf := dot_S1x256_S256x2048_S1x2048_1_0_0_1_n_n_wf
def dot_S1x256_S1x2048_S256x2048_0_0_1_1_n_n : DotDims S1x256 S1x2048 S256x2048 where
  lhsContracting := [0]
  rhsContracting := [0]
  lhsNonContracting := [1]
  rhsNonContracting := [1]
  lhsBatch := []
  rhsBatch := []
  wf := dot_S1x256_S1x2048_S256x2048_0_0_1_1_n_n_wf
def dot_S4x256_S256x2048_S4x2048_1_0_0_1_n_n : DotDims S4x256 S256x2048 S4x2048 where
  lhsContracting := [1]
  rhsContracting := [0]
  lhsNonContracting := [0]
  rhsNonContracting := [1]
  lhsBatch := []
  rhsBatch := []
  wf := dot_S4x256_S256x2048_S4x2048_1_0_0_1_n_n_wf
def dot_S4x2048_S256x2048_S4x256_1_1_0_0_n_n : DotDims S4x2048 S256x2048 S4x256 where
  lhsContracting := [1]
  rhsContracting := [1]
  lhsNonContracting := [0]
  rhsNonContracting := [0]
  lhsBatch := []
  rhsBatch := []
  wf := dot_S4x2048_S256x2048_S4x256_1_1_0_0_n_n_wf

abbrev win0_0 : Pipeline.Window sig grid0 :=
  Pipeline.Window.ofSpec (Memref.whole main_v0) S1x4x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S1x4x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S1x256x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_2) S1x4x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S128x1024 : Shape := ⟨2, ![128, 1024]⟩
abbrev S128x256 : Shape := ⟨2, ![128, 256]⟩
abbrev S128x1x256 : Shape := ⟨3, ![128, 1, 256]⟩
abbrev S128x256x2048 : Shape := ⟨3, ![128, 256, 2048]⟩
abbrev S1x512 : Shape := ⟨2, ![1, 512]⟩
abbrev S1 : Shape := ⟨1, ![1]⟩
abbrev S256x512 : Shape := ⟨2, ![256, 512]⟩
abbrev S256 : Shape := ⟨1, ![256]⟩
abbrev S128x4x256 : Shape := ⟨3, ![128, 4, 256]⟩
abbrev S_ : Shape := ⟨0, ![]⟩
abbrev S128x1 : Shape := ⟨2, ![128, 1]⟩
abbrev S128x1x1 : Shape := ⟨3, ![128, 1, 1]⟩
abbrev S128x1x512 : Shape := ⟨3, ![128, 1, 512]⟩
abbrev S1x1x1 : Shape := ⟨3, ![1, 1, 1]⟩
abbrev S1x1x256 : Shape := ⟨3, ![1, 1, 256]⟩
abbrev S128x2048 : Shape := ⟨2, ![128, 2048]⟩
abbrev S128x1x2048 : Shape := ⟨3, ![128, 1, 2048]⟩
abbrev S128x4 : Shape := ⟨2, ![128, 4]⟩
abbrev S128x4x1 : Shape := ⟨3, ![128, 4, 1]⟩
abbrev S128x4x2048 : Shape := ⟨3, ![128, 4, 2048]⟩

abbrev nBuf : Space → Nat
  | .hbm => 135
  | .vmem => 0
  | .smem => 0
  | _ => 0

abbrev hbmTy0_0 (i : Nat) : BufTy := match i % 128 with
  | 0 => ⟨S128x1024, .f32⟩
  | 1 => ⟨S128x256, .f32⟩
  | 2 => ⟨S128x256, .f32⟩
  | 3 => ⟨S128x1x256, .f32⟩
  | 4 => ⟨S128x256x2048, .f32⟩
  | 5 => ⟨S1x512, .f32⟩
  | 6 => ⟨S1, .f32⟩
  | 7 => ⟨S256x512, .f32⟩
  | 8 => ⟨S256, .f32⟩
  | 9 => ⟨S128x4x256, .f32⟩
  | 10 => ⟨S128x4x256, .f32⟩
  | 11 => ⟨S128x1x256, .f32⟩
  | 12 => ⟨S128x1x256, .f32⟩
  | 13 => ⟨S128x1x256, .f32⟩
  | 14 => ⟨S_, .f32⟩
  | 15 => ⟨S128x1, .f32⟩
  | 16 => ⟨S_, .f32⟩
  | 17 => ⟨S128x1, .f32⟩
  | 18 => ⟨S128x1, .f32⟩
  | 19 => ⟨S128x1x1, .f32⟩
  | 20 => ⟨S128x1x256, .f32⟩
  | 21 => ⟨S128x1x256, .f32⟩
  | 22 => ⟨S128x1x256, .f32⟩
  | 23 => ⟨S_, .f32⟩
  | 24 => ⟨S128x1, .f32⟩
  | 25 => ⟨S128x1x1, .f32⟩
  | 26 => ⟨S128x1x256, .f32⟩
  | 27 => ⟨S128x1x256, .f32⟩
  | 28 => ⟨S128x1x512, .f32⟩
  | 29 => ⟨S128x1x1, .f32⟩
  | 30 => ⟨S1x1x1, .f32⟩
  | 31 => ⟨S128x1x1, .f32⟩
  | 32 => ⟨S128x1x1, .f32⟩
  | 33 => ⟨S128x1x1, .f32⟩
  | 34 => ⟨S128x1x1, .f32⟩
  | 35 => ⟨S_, .f32⟩
  | 36 => ⟨S128x1x1, .f32⟩
  | 37 => ⟨S128x1x1, .f32⟩
  | 38 => ⟨S_, .f32⟩
  | 39 => ⟨S128x1x1, .f32⟩
  | 40 => ⟨S128x1x1, .f32⟩
  | 41 => ⟨S128x1x256, .f32⟩
  | 42 => ⟨S128x1x256, .f32⟩
  | 43 => ⟨S_, .f32⟩
  | 44 => ⟨S128x1x1, .f32⟩
  | 45 => ⟨S128x1x1, .f32⟩
  | 46 => ⟨S128x1x256, .f32⟩
  | 47 => ⟨S128x1x256, .f32⟩
  | 48 => ⟨S128x1x512, .f32⟩
  | 49 => ⟨S128x1x256, .f32⟩
  | 50 => ⟨S1x1x256, .f32⟩
  | 51 => ⟨S128x1x256, .f32⟩
  | 52 => ⟨S128x1x256, .f32⟩
  | 53 => ⟨S_, .f32⟩
  | 54 => ⟨S128x1x256, .f32⟩
  | 55 => ⟨S128x1x256, .f32⟩
  | 56 => ⟨S128x1x256, .f32⟩
  | 57 => ⟨S_, .f32⟩
  | 58 => ⟨S128x1, .f32⟩
  | 59 => ⟨S128x1x1, .f32⟩
  | 60 => ⟨S128x1x1, .f32⟩
  | 61 => ⟨S_, .f32⟩
  | 62 => ⟨S128x1x1, .f32⟩
  | 63 => ⟨S128x1x1, .f32⟩
  | 64 => ⟨S128x1x256, .f32⟩
  | 65 => ⟨S128x1x256, .f32⟩
  | 66 => ⟨S128x256x2048, .f32⟩
  | 67 => ⟨S_, .f32⟩
  | 68 => ⟨S128x2048, .f32⟩
  | 69 => ⟨S128x1x2048, .f32⟩
  | 70 => ⟨S128x1x2048, .f32⟩
  | 71 => ⟨S_, .f32⟩
  | 72 => ⟨S128x1x2048, .f32⟩
  | 73 => ⟨S128x1x2048, .f32⟩
  | 74 => ⟨S128x256x2048, .f32⟩
  | 75 => ⟨S128x256x2048, .f32⟩
  | 76 => ⟨S128x1x2048, .f32⟩
  | 77 => ⟨S128x1x2048, .f32⟩
  | 78 => ⟨S_, .f32⟩
  | 79 => ⟨S128x1, .f32⟩
  | 80 => ⟨S_, .f32⟩
  | 81 => ⟨S128x1, .f32⟩
  | 82 => ⟨S128x1, .f32⟩
  | 83 => ⟨S128x1x1, .f32⟩
  | 84 => ⟨S128x1x2048, .f32⟩
  | 85 => ⟨S128x1x2048, .f32⟩
  | 86 => ⟨S128x1x2048, .f32⟩
  | 87 => ⟨S_, .f32⟩
  | 88 => ⟨S128x1, .f32⟩
  | 89 => ⟨S128x1x1, .f32⟩
  | 90 => ⟨S128x1x2048, .f32⟩
  | 91 => ⟨S128x1x2048, .f32⟩
  | 92 => ⟨S128x256x2048, .f32⟩
  | 93 => ⟨S_, .f32⟩
  | 94 => ⟨S128x256x2048, .f32⟩
  | 95 => ⟨S128x256x2048, .f32⟩
  | 96 => ⟨S128x256x2048, .f32⟩
  | 97 => ⟨S128x256x2048, .f32⟩
  | 98 => ⟨S128x256x2048, .f32⟩
  | 99 => ⟨S128x4x256, .f32⟩
  | 100 => ⟨S_, .f32⟩
  | 101 => ⟨S128x4, .f32⟩
  | 102 => ⟨S128x4x1, .f32⟩
  | 103 => ⟨S128x4x1, .f32⟩
  | 104 => ⟨S_, .f32⟩
  | 105 => ⟨S128x4x1, .f32⟩
  | 106 => ⟨S128x4x1, .f32⟩
  | 107 => ⟨S128x4x256, .f32⟩
  | 108 => ⟨S128x4x256, .f32⟩
  | 109 => ⟨S128x256x2048, .f32⟩
  | 110 => ⟨S_, .f32⟩
  | 111 => ⟨S128x2048, .f32⟩
  | 112 => ⟨S128x1x2048, .f32⟩
  | 113 => ⟨S128x1x2048, .f32⟩
  | 114 => ⟨S_, .f32⟩
  | 115 => ⟨S128x1x2048, .f32⟩
  | 116 => ⟨S128x1x2048, .f32⟩
  | 117 => ⟨S128x256x2048, .f32⟩
  | 118 => ⟨S128x256x2048, .f32⟩
  | 119 => ⟨S128x4x2048, .f32⟩
  | 120 => ⟨S_, .f32⟩
  | 121 => ⟨S128x4, .f32⟩
  | 122 => ⟨S_, .f32⟩
  | 123 => ⟨S128x4, .f32⟩
  | 124 => ⟨S128x4, .f32⟩
  | 125 => ⟨S128x4x1, .f32⟩
  | 126 => ⟨S128x4x2048, .f32⟩
  | 127 => ⟨S128x4x2048, .f32⟩
  | _ => ⟨S128x1024, .f32⟩

abbrev hbmTy0_1 (i : Nat) : BufTy := match i % 128 with
  | 0 => ⟨S128x4x2048, .f32⟩
  | 1 => ⟨S_, .f32⟩
  | 2 => ⟨S128x4, .f32⟩
  | 3 => ⟨S128x4x1, .f32⟩
  | 4 => ⟨S128x4x2048, .f32⟩
  | 5 => ⟨S128x4x2048, .f32⟩
  | 6 => ⟨S128x4x256, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩
abbrev main_call1_v0 : Ref sig .tc := ⟨.hbm, 56, rfl⟩
abbrev main_call1_cst : Ref sig .tc := ⟨.hbm, 57, rfl⟩
abbrev main_call1_v1 : Ref sig .tc := ⟨.hbm, 58, rfl⟩
abbrev main_call1_v2 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_call2_v2 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call3_v0 : Ref sig .tc := ⟨.hbm, 99, rfl⟩
abbrev main_call3_cst : Ref sig .tc := ⟨.hbm, 100, rfl⟩
abbrev main_call3_v1 : Ref sig .tc := ⟨.hbm, 101, rfl⟩
abbrev main_call3_v2 : Ref sig .tc := ⟨.hbm, 102, rfl⟩
abbrev main_v68 : Ref sig .tc := ⟨.hbm, 103, rfl⟩
abbrev main_cst_11 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call4_v0 : Ref sig .tc := ⟨.hbm, 109, rfl⟩
abbrev main_call4_cst : Ref sig .tc := ⟨.hbm, 110, rfl⟩
abbrev main_call4_v1 : Ref sig .tc := ⟨.hbm, 111, rfl⟩
abbrev main_call4_v2 : Ref sig .tc := ⟨.hbm, 112, rfl⟩
abbrev main_v73 : Ref sig .tc := ⟨.hbm, 113, rfl⟩
abbrev main_cst_12 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_13 : Ref sig .tc := ⟨.hbm, 120, rfl⟩
abbrev main_v79 : Ref sig .tc := ⟨.hbm, 121, rfl⟩
abbrev main_cst_14 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_15 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩

abbrev nD : Nat := 1
abbrev τ : Topo := Topo.v7x

variable {F : FTy → Type} [FloatOps F]

class Facts₀ : Prop where
  shapeCasts_S128x1024_S128x4x256 : S128x1024.ShapeCasts S128x4x256
  shapeCasts_S128x256_S128x1x256 : S128x256.ShapeCasts S128x1x256
  reducesTo_S128x1x256_S128x1_d2 : S128x1x256.ReducesTo [2] S128x1
  h_S_ : 0 < S_.numel
  bcast_S_S128x1 : S_.BroadcastsInDim S128x1 (![] : Fin 0 → Fin S128x1.rank)
  bcast_S128x1_S128x1x1_0_1 : S128x1.BroadcastsInDim S128x1x1 (![0, 1] : Fin 2 → Fin S128x1x1.rank)
  bcast_S128x1x1_S128x1x256_0_1_2 : S128x1x1.BroadcastsInDim S128x1x256 (![0, 1, 2] : Fin 3 → Fin S128x1x256.rank)
  concatenates_S128x1x256_S128x1x256_S128x1x512_d2 : Shape.Concatenates [S128x1x256, S128x1x256] S128x1x512 2
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  bcast_S_S128x1x1 : S_.BroadcastsInDim S128x1x1 (![] : Fin 0 → Fin S128x1x1.rank)
  bcast_S256_S1x1x256_2 : S256.BroadcastsInDim S1x1x256 (![2] : Fin 1 → Fin S1x1x256.rank)
  bcast_S1x1x256_S128x1x256_0_1_2 : S1x1x256.BroadcastsInDim S128x1x256 (![0, 1, 2] : Fin 3 → Fin S128x1x256.rank)
  bcast_S_S128x1x256 : S_.BroadcastsInDim S128x1x256 (![] : Fin 0 → Fin S128x1x256.rank)
  reducesTo_S128x256x2048_S128x2048_d1 : S128x256x2048.ReducesTo [1] S128x2048
  bcast_S128x2048_S128x1x2048_0_2 : S128x2048.BroadcastsInDim S128x1x2048 (![0, 2] : Fin 2 → Fin S128x1x2048.rank)
  bcast_S_S128x1x2048 : S_.BroadcastsInDim S128x1x2048 (![] : Fin 0 → Fin S128x1x2048.rank)
  bcast_S128x1x2048_S128x256x2048_0_1_2 : S128x1x2048.BroadcastsInDim S128x256x2048 (![0, 1, 2] : Fin 3 → Fin S128x256x2048.rank)
  reducesTo_S128x1x2048_S128x1_d2 : S128x1x2048.ReducesTo [2] S128x1
  bcast_S128x1x1_S128x1x2048_0_1_2 : S128x1x1.BroadcastsInDim S128x1x2048 (![0, 1, 2] : Fin 3 → Fin S128x1x2048.rank)
  bcast_S_S128x256x2048 : S_.BroadcastsInDim S128x256x2048 (![] : Fin 0 → Fin S128x256x2048.rank)
  reducesTo_S128x4x256_S128x4_d2 : S128x4x256.ReducesTo [2] S128x4
  bcast_S128x4_S128x4x1_0_1 : S128x4.BroadcastsInDim S128x4x1 (![0, 1] : Fin 2 → Fin S128x4x1.rank)
  bcast_S_S128x4x1 : S_.BroadcastsInDim S128x4x1 (![] : Fin 0 → Fin S128x4x1.rank)
  bcast_S128x4x1_S128x4x256_0_1_2 : S128x4x1.BroadcastsInDim S128x4x256 (![0, 1, 2] : Fin 3 → Fin S128x4x256.rank)
  reducesTo_S128x4x2048_S128x4_d2 : S128x4x2048.ReducesTo [2] S128x4
  bcast_S_S128x4 : S_.BroadcastsInDim S128x4 (![] : Fin 0 → Fin S128x4.rank)
  bcast_S128x4x1_S128x4x2048_0_1_2 : S128x4x1.BroadcastsInDim S128x4x2048 (![0, 1, 2] : Fin 3 → Fin S128x4x2048.rank)
  dot_S128x1x512_S1x512_S128x1x1_2_1_01_0_n_n_wf : DotDims.WF S128x1x512 S1x512 S128x1x1 [2] [1] [0, 1] [0] [] []
  dot_S128x1x512_S256x512_S128x1x256_2_1_01_0_n_n_wf : DotDims.WF S128x1x512 S256x512 S128x1x256 [2] [1] [0, 1] [0] [] []
  dot_S128x1x256_S128x256x2048_S128x1x2048_2_1_1_2_0_0_wf : DotDims.WF S128x1x256 S128x256x2048 S128x1x2048 [2] [1] [1] [2] [0] [0]
  dot_S128x1x256_S128x1x2048_S128x256x2048_1_1_2_2_0_0_wf : DotDims.WF S128x1x256 S128x1x2048 S128x256x2048 [1] [1] [2] [2] [0] [0]
  dot_S128x4x256_S128x256x2048_S128x4x2048_2_1_1_2_0_0_wf : DotDims.WF S128x4x256 S128x256x2048 S128x4x2048 [2] [1] [1] [2] [0] [0]
  dot_S128x4x2048_S128x256x2048_S128x4x256_2_2_1_1_0_0_wf : DotDims.WF S128x4x2048 S128x256x2048 S128x4x256 [2] [2] [1] [1] [0] [0]

variable [Facts₀]

def dot_S128x1x512_S1x512_S128x1x1_2_1_01_0_n_n : DotDims S128x1x512 S1x512 S128x1x1 where
  lhsContracting := [2]
  rhsContracting := [1]
  lhsNonContracting := [0, 1]
  rhsNonContracting := [0]
  lhsBatch := []
  rhsBatch := []
  wf := dot_S128x1x512_S1x512_S128x1x1_2_1_01_0_n_n_wf
def dot_S128x1x512_S256x512_S128x1x256_2_1_01_0_n_n : DotDims S128x1x512 S256x512 S128x1x256 where
  lhsContracting := [2]
  rhsContracting := [1]
  lhsNonContracting := [0, 1]
  rhsNonContracting := [0]
  lhsBatch := []
  rhsBatch := []
  wf := dot_S128x1x512_S256x512_S128x1x256_2_1_01_0_n_n_wf
def dot_S128x1x256_S128x256x2048_S128x1x2048_2_1_1_2_0_0 : DotDims S128x1x256 S128x256x2048 S128x1x2048 where
  lhsContracting := [2]
  rhsContracting := [1]
  lhsNonContracting := [1]
  rhsNonContracting := [2]
  lhsBatch := [0]
  rhsBatch := [0]
  wf := dot_S128x1x256_S128x256x2048_S128x1x2048_2_1_1_2_0_0_wf
def dot_S128x1x256_S128x1x2048_S128x256x2048_1_1_2_2_0_0 : DotDims S128x1x256 S128x1x2048 S128x256x2048 where
  lhsContracting := [1]
  rhsContracting := [1]
  lhsNonContracting := [2]
  rhsNonContracting := [2]
  lhsBatch := [0]
  rhsBatch := [0]
  wf := dot_S128x1x256_S128x1x2048_S128x256x2048_1_1_2_2_0_0_wf
def dot_S128x4x256_S128x256x2048_S128x4x2048_2_1_1_2_0_0 : DotDims S128x4x256 S128x256x2048 S128x4x2048 where
  lhsContracting := [2]
  rhsContracting := [1]
  lhsNonContracting := [1]
  rhsNonContracting := [2]
  lhsBatch := [0]
  rhsBatch := [0]
  wf := dot_S128x4x256_S128x256x2048_S128x4x2048_2_1_1_2_0_0_wf
def dot_S128x4x2048_S128x256x2048_S128x4x256_2_2_1_1_0_0 : DotDims S128x4x2048 S128x256x2048 S128x4x256 where
  lhsContracting := [2]
  rhsContracting := [2]
  lhsNonContracting := [1]
  rhsNonContracting := [1]
  lhsBatch := [0]
  rhsBatch := [0]
  wf := dot_S128x4x2048_S128x256x2048_S128x4x256_2_2_1_1_0_0_wf

class Facts : Prop extends Facts₀ where

variable [Facts]
-- ==== Proof.Spec.lean ====
/-
  What one batch row of the memory update computes, on the extended reals.

  For a batch row the inputs are four read keys `kr r` (each of 256 entries), a write candidate `mt`, an erase
  logit `et` and an erased memory `me` (256 entries each), the memory `M` (256 features by 2048 slots), and the
  shared gate and output weights `gW`, `gb`, `oW`, `ob`.  The row's results are

    write candidate   wm  = tanh mt
    erase vector      ev  = softmax et
    gate              g   = logistic (⟨wm ‖ me, gW⟩ + gb)
    write key         wk  = max (oW · (g·wm ‖ (1-g)·me) + ob) 0
    write weights     ww  = softmax over slots of MINUS the cosine of wk against M's columns
    new memory        M'  = M · (1 - ev ⊗ ww) + wm ⊗ ww
    read weights      rw  = softmax over slots of the cosine of tanh kr against M''s columns
    read vectors      rd  = rw · M'ᵀ

  where the cosine divides each vector by (its Euclidean length + ε) and a softmax subtracts the row maximum
  (taken from -∞) before exponentiating.  Nothing is simplified: every sum, quotient and maximum stands where
  both programs put it, so that reading either program index by index lands on these terms with no algebra.
-/
import Idealize.ShloMosaic.PureOps.Ideal
import Idealize.ShloMosaic.PureOps.Ideal.Laws

noncomputable section

namespace Cert.Spec

open Idealize.ShloMosaic

/-- The four float words both programs carry: -∞, the ε added to a length, one, and zero. -/
abbrev ninf : EReal := Ideal.ofBits .f32 0xFF800000#32
abbrev eps : EReal := Ideal.ofBits .f32 0x322BCC77#32
abbrev one : EReal := Ideal.ofBits .f32 0x3F800000#32
abbrev zero : EReal := Ideal.ofBits .f32 0x00000000#32

/-- The maximum of a row, folded from -∞ and then taken once more against -∞. -/
def rowMax {n : Nat} (x : Fin n → EReal) : EReal := max ninf (Finset.univ.fold max ninf x)

/-- exp (x j - max x) / ∑ k, exp (x k - max x). -/
def softmax {n : Nat} (x : Fin n → EReal) (j : Fin n) : EReal :=
  Ideal.div (Ideal.exp (x j - rowMax x)) (∑ k : Fin n, Ideal.exp (x k - rowMax x))

/-- The Euclidean length of a vector plus ε. -/
def len {n : Nat} (x : Fin n → EReal) : EReal := Ideal.sqrt (∑ k : Fin n, x k * x k) + eps

/-- A vector over its length-plus-ε. -/
def unitv {n : Nat} (x : Fin n → EReal) (j : Fin n) : EReal := Ideal.div (x j) (len x)

/-- Each column of a 256 × 2048 matrix over that column's length-plus-ε. -/
def colUnit (A : Fin 256 → Fin 2048 → EReal) (w : Fin 256) (n : Fin 2048) : EReal :=
  Ideal.div (A w n) (len fun w' => A w' n)

/-- The cosine of a key against every column. -/
def cosine (key : Fin 256 → EReal) (A : Fin 256 → Fin 2048 → EReal) (n : Fin 2048) : EReal :=
  ∑ w : Fin 256, unitv key w * colUnit A w n

/-- Two 256-vectors end to end. -/
def cat (a b : Fin 256 → EReal) (k : Fin 512) : EReal :=
  if h : k.val < 256 then a ⟨k.val, h⟩ else b ⟨k.val - 256, by have := k.isLt; omega⟩

/-- One batch row's inputs. -/
structure Row where
  kr : Fin 4 → Fin 256 → EReal
  mt : Fin 256 → EReal
  et : Fin 256 → EReal
  me : Fin 256 → EReal
  M : Fin 256 → Fin 2048 → EReal
  gW : Fin 512 → EReal
  gb : EReal
  oW : Fin 256 → Fin 512 → EReal
  ob : Fin 256 → EReal

def wm (I : Row) (w : Fin 256) : EReal := Ideal.tanh (I.mt w)
def ev (I : Row) : Fin 256 → EReal := softmax I.et
def glogit (I : Row) : EReal := (∑ k : Fin 512, cat (wm I) I.me k * I.gW k) + I.gb
def gate (I : Row) : EReal := Ideal.logistic (glogit I)
def gated (I : Row) : Fin 512 → EReal := cat (fun w => gate I * wm I w) (fun w => (one - gate I) * I.me w)
def wkey (I : Row) (o : Fin 256) : EReal := max ((∑ k : Fin 512, gated I k * I.oW o k) + I.ob o) zero
def wwt (I : Row) : Fin 2048 → EReal := softmax fun n => -(cosine (wkey I) I.M n)
def Mnew (I : Row) (w : Fin 256) (n : Fin 2048) : EReal := I.M w n * (one - ev I w * wwt I n) + wm I w * wwt I n
def rkey (I : Row) (r : Fin 4) (w : Fin 256) : EReal := Ideal.tanh (I.kr r w)
def rwt (I : Row) (r : Fin 4) : Fin 2048 → EReal := softmax fun n => cosine (rkey I r) (Mnew I) n
def mread (I : Row) (r : Fin 4) (w : Fin 256) : EReal := ∑ n : Fin 2048, rwt I r n * Mnew I w n

/-- The word 0x3F800000 is the real number one. -/
theorem one_eq : one = 1 := by
  simp [Ideal.ofBits, Ideal.ieee]
  rw [← EReal.coe_mul]
  norm_num

/-- The word 0 is zero. -/
theorem zero_eq : zero = 0 := Ideal.ofBits_zero_f32

end Cert.Spec

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibRowReduce.lean ====
/-
  Reductions down the rows of an `[m, N]` array, read at a column.

  A kernel that keeps the batch on the lanes reduces over the few rows of an `[m, N]` value (axis 0), obtaining a vector of
  length `N`, and views it as the one row of a `[1, N]` array (a sum or a maximum taken with the axis kept).  At the extended
  reals the entry of that row at column `q` is the sum, or the fold of `max` from the accumulator's value, over the `m` entries
  of column `q`.  General in both extents.
-/
import Idealize.ShloMosaic.PureOps.Ideal.Laws
import Idealize.ShloMosaic.Lib.ValueIdx
import Idealize.ShloMosaic.Lib.ValueLayout

noncomputable section

open scoped BigOperators

namespace LibRowReduce

open Idealize.ShloMosaic Idealize.ShloMosaic.ValueIdx

variable {m N : Nat}

/-- The reduced index `q` with row `k` put back is `(k, q)`. -/
theorem lift_rows (h : (⟨2, ![m, N]⟩ : Shape).Reduces [0] (⟨1, ![N]⟩ : Shape)) (q : Fin N)
    (k : Fin ((⟨2, ![m, N]⟩ : Shape).size 0)) : h.lift (ix1 q) k = ix2 (⟨k.val, k.isLt⟩ : Fin m) q := by
  funext c; apply Fin.ext
  fin_cases c <;> rfl

/-- The sum down the rows, kept as one row: at column `q` it is the sum of column `q`'s entries. -/
theorem sumRows_apply (V : FVec Ideal ⟨2, ![m, N]⟩ .f32) (h : (⟨2, ![m, N]⟩ : Shape).Reduces [0] (⟨1, ![N]⟩ : Shape))
    (hφ : FKind.Formats .f32) (hacc : (0x00000000#32 : BitVec 32) = 0x00000000#32)
    (hs : (⟨1, ![N]⟩ : Shape).ShapeCasts ⟨2, ![1, N]⟩) (u : Fin 1) (q : Fin N) :
    shapeCast ⟨2, ![1, N]⟩ (multiReduction .add [0] ⟨1, ![N]⟩ V 0x00000000#32 h hφ hacc) hs (ix2 u q)
      = ∑ a : Fin m, V (ix2 a q) := by
  refine (shapeCast_a_1a_apply _ hs u q).trans ?_
  refine (Ideal.multiReduction_add_single V 0x00000000#32 h hφ hacc (ix1 q)).trans ?_
  exact Finset.sum_congr rfl fun k _ => congrArg V (lift_rows h q k)

/-- The maximum down the rows from the accumulator's value, kept as one row: at column `q` it is the fold of `max` over
    column `q`'s entries. -/
theorem maxRows_apply (V : FVec Ideal ⟨2, ![m, N]⟩ .f32) (acc : BitVec 32) (h : (⟨2, ![m, N]⟩ : Shape).Reduces [0] (⟨1, ![N]⟩ : Shape))
    (hφ : FKind.Formats .f32) (hacc' : acc = FKind.maximumf.neutral .f32 hφ)
    (hs : (⟨1, ![N]⟩ : Shape).ShapeCasts ⟨2, ![1, N]⟩) (u : Fin 1) (q : Fin N) :
    shapeCast ⟨2, ![1, N]⟩ (multiReduction .maximumf [0] ⟨1, ![N]⟩ V acc h hφ hacc') hs (ix2 u q)
      = (Finset.univ : Finset (Fin m)).fold max (Ideal.ofBits .f32 acc) (fun a => V (ix2 a q)) := by
  refine (shapeCast_a_1a_apply _ hs u q).trans ?_
  refine (Ideal.multiReduction_maximumf_single V acc h hφ hacc' (ix1 q)).trans ?_
  exact congrArg (fun f => Finset.fold max (Ideal.ofBits .f32 acc) f (Finset.univ : Finset (Fin m)))
    (funext fun k => congrArg V (lift_rows h q k))

end LibRowReduce

end
-- ==== Proof.KerOps.lean ====
/-
  A block's rows and columns read at an index, on the extended reals.

  The kernel works on `[r, n]` blocks.  A sum or a maximum along the lanes leaves one value per row, kept as an
  `[r, 1]` column and spread back over the lanes; a sum down the rows leaves one value per column, kept as a `[1, n]` row
  and spread back over the rows.  Read at `(p, q)` these are plain sums and folds of `max` over the row `p`, or the
  column `q`, of the block (LibLaneReduce, LibRowReduce).  Here are the three patterns the kernel repeats: the softmax of each row
  (subtract the row maximum taken from -∞, exponentiate, divide by the row's sum), each row over its Euclidean
  length plus ε, and each column over its Euclidean length plus ε.  General in the two extents.
-/
import Idealize.ShloMosaic.PureOps.Ideal.Laws
import Idealize.ShloMosaic.Lib.ValueIdx
import Idealize.ShloMosaic.Lib.ValueLayout
import Idealize.ShloMosaic.Lib.Pipeline.Value
import proofs.«175705_j61950608278069_1_alg».proof.Proof.Spec
import proofs.«175705_j61950608278069_1_alg».proof.Proof.LibColumnLayout
import proofs.«175705_j61950608278069_1_alg».proof.Proof.LibLaneReduce
import proofs.«175705_j61950608278069_1_alg».proof.Proof.LibRowReduce

noncomputable section

open scoped BigOperators

namespace Cert.KerOps
open Idealize.ShloMosaic Idealize.ShloMosaic.ValueIdx LibLaneReduce

variable {r n : Nat}

/-- The softmax of each row of an `[r, n]` block, as the kernel spells it, at `(p, q)`. -/
theorem softmax_apply (V : FVec Ideal ⟨2, ![r, n]⟩ .f32) (h : (⟨2, ![r, n]⟩ : Shape).Reduces [1] (⟨1, ![r]⟩ : Shape))
    (hφ : FKind.Formats .f32) (hmax : (0xFF800000#32 : BitVec 32) = FKind.maximumf.neutral .f32 hφ)
    (hadd : (0x00000000#32 : BitVec 32) = 0x00000000#32)
    (hs : (⟨1, ![r]⟩ : Shape).ShapeCasts ⟨2, ![r, 1]⟩) (hb : (⟨2, ![r, 1]⟩ : Shape).Broadcasts ⟨2, ![r, n]⟩) (p : Fin r) (q : Fin n) :
    divf (exp (subf V (broadcastTo ⟨2, ![r, n]⟩ (shapeCast ⟨2, ![r, 1]⟩ (maximumf (broadcast ⟨1, ![r]⟩ (Scalar.ofBits .f32 0xFF800000#32)) (multiReduction .maximumf [1] ⟨1, ![r]⟩ V 0xFF800000#32 h hφ hmax)) hs) hb)))
      (broadcastTo ⟨2, ![r, n]⟩ (shapeCast ⟨2, ![r, 1]⟩ (multiReduction .add [1] ⟨1, ![r]⟩ (exp (subf V (broadcastTo ⟨2, ![r, n]⟩ (shapeCast ⟨2, ![r, 1]⟩ (maximumf (broadcast ⟨1, ![r]⟩ (Scalar.ofBits .f32 0xFF800000#32)) (multiReduction .maximumf [1] ⟨1, ![r]⟩ V 0xFF800000#32 h hφ hmax)) hs) hb))) 0x00000000#32 h hφ hadd) hs) hb) (ix2 p q)
      = Spec.softmax (fun k => V (ix2 p k)) q := by
  have hm : ∀ k : Fin n, broadcastTo ⟨2, ![r, n]⟩ (shapeCast ⟨2, ![r, 1]⟩ (maximumf (broadcast ⟨1, ![r]⟩ (Scalar.ofBits .f32 0xFF800000#32)) (multiReduction .maximumf [1] ⟨1, ![r]⟩ V 0xFF800000#32 h hφ hmax)) hs) hb (ix2 p k)
      = Spec.rowMax (fun k => V (ix2 p k)) := fun k =>
    (broadcastTo_a1_ab_apply _ hb p k).trans (maxLanes_apply V _ h hφ hmax hs p)
  have he : ∀ k : Fin n, exp (subf V (broadcastTo ⟨2, ![r, n]⟩ (shapeCast ⟨2, ![r, 1]⟩ (maximumf (broadcast ⟨1, ![r]⟩ (Scalar.ofBits .f32 0xFF800000#32)) (multiReduction .maximumf [1] ⟨1, ![r]⟩ V 0xFF800000#32 h hφ hmax)) hs) hb)) (ix2 p k)
      = Ideal.exp (V (ix2 p k) - Spec.rowMax (fun k => V (ix2 p k))) := fun k =>
    congrArg (fun z => Ideal.exp (V (ix2 p k) - z)) (hm k)
  unfold Spec.softmax
  refine (congrArg₂ Ideal.div (he q) ?_)
  refine (broadcastTo_a1_ab_apply _ hb p q).trans ?_
  refine (sumLanes_apply _ h hφ hadd hs p).trans ?_
  exact Finset.sum_congr rfl fun k _ => he k

/-- Each row of an `[r, n]` block over its length-plus-ε, as the kernel spells it, at `(p, q)`. -/
theorem unitRows_apply (V : FVec Ideal ⟨2, ![r, n]⟩ .f32) (h : (⟨2, ![r, n]⟩ : Shape).Reduces [1] (⟨1, ![r]⟩ : Shape))
    (hφ : FKind.Formats .f32) (hadd : (0x00000000#32 : BitVec 32) = 0x00000000#32)
    (hs : (⟨1, ![r]⟩ : Shape).ShapeCasts ⟨2, ![r, 1]⟩) (hb : (⟨2, ![r, 1]⟩ : Shape).Broadcasts ⟨2, ![r, n]⟩) (p : Fin r) (q : Fin n) :
    divf V (broadcastTo ⟨2, ![r, n]⟩ (addf (sqrt (shapeCast ⟨2, ![r, 1]⟩ (multiReduction .add [1] ⟨1, ![r]⟩ (mulf V V) 0x00000000#32 h hφ hadd) hs))
      (broadcast ⟨2, ![r, 1]⟩ (Scalar.ofBits .f32 0x322BCC77#32))) hb) (ix2 p q)
      = Spec.unitv (fun k => V (ix2 p k)) q := by
  unfold Spec.unitv Spec.len
  refine congrArg (Ideal.div (V (ix2 p q))) ?_
  refine (broadcastTo_a1_ab_apply _ hb p q).trans ?_
  refine congrArg (fun z => Ideal.sqrt z + Spec.eps) ?_
  exact sumLanes_apply (mulf V V) h hφ hadd hs p

/-- Each column of an `[m, N]` block over its length-plus-ε, as the kernel spells it, at `(w, q)`. -/
theorem unitCols_apply {m N : Nat} (V : FVec Ideal ⟨2, ![m, N]⟩ .f32) (h : (⟨2, ![m, N]⟩ : Shape).Reduces [0] (⟨1, ![N]⟩ : Shape))
    (hφ : FKind.Formats .f32) (hadd : (0x00000000#32 : BitVec 32) = 0x00000000#32)
    (hs : (⟨1, ![N]⟩ : Shape).ShapeCasts ⟨2, ![1, N]⟩) (hb : (⟨2, ![1, N]⟩ : Shape).Broadcasts ⟨2, ![m, N]⟩) (w : Fin m) (q : Fin N) :
    divf V (broadcastTo ⟨2, ![m, N]⟩ (addf (sqrt (shapeCast ⟨2, ![1, N]⟩ (multiReduction .add [0] ⟨1, ![N]⟩ (mulf V V) 0x00000000#32 h hφ hadd) hs))
      (broadcast ⟨2, ![1, N]⟩ (Scalar.ofBits .f32 0x322BCC77#32))) hb) (ix2 w q)
      = Ideal.div (V (ix2 w q)) (Spec.len fun a : Fin m => V (ix2 a q)) := by
  unfold Spec.len
  refine congrArg (Ideal.div (V (ix2 w q))) ?_
  refine (broadcastTo_1b_ab_apply _ hb w q).trans ?_
  refine congrArg (fun z => Ideal.sqrt z + Spec.eps) ?_
  exact LibRowReduce.sumRows_apply (mulf V V) h hφ hadd hs 0 q

end Cert.KerOps

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.KerRead.lean ====
/-
  The kernel body's values at an index, on the extended reals, as the row functions of `Spec`.

  The body's arithmetic is a chain of pure terms over the nine blocks a grid point loads (the generated payloads):
  the tanh'd write candidate and read keys, the erase vector (a softmax), the gate's logit (the joined candidate and
  erased memory against the gate weights, plus the bias), the write weights (gate, gated pair against the output
  weights, bias, clamp at zero, cosine against the memory's columns, negation, softmax), the two outer products
  with the write weights, the new memory, the read weights (cosine of the read keys against the new memory's
  columns, softmax) and the read vectors (read weights against the new memory's rows).  Each is read at an index
  with every sum, quotient and maximum left where the body puts it; the only arithmetic used is that zero minus
  a number is its negative and that a sum over one term is the term.  Each lemma takes the values it depends on as
  variables with what they are at an index as hypotheses, so that the chain is assembled once, at the end, over
  the row `rowB` of the loaded blocks.
-/
import proofs.«175705_j61950608278069_1_alg».proof.Proof.KerOps
import proofs.«175705_j61950608278069_1_alg».proof.Proof.LibMatmulNN
import proofs.«175705_j61950608278069_1_alg».proof.Proof.LibMatmulNT
import proofs.«175705_j61950608278069_1_alg».proof.Proof.Gen.KernelIdeal.Frame

noncomputable section

open scoped BigOperators

namespace Cert.KerRead
open Cert.KernelIdeal Cert.KernelIdeal.Gen Idealize.ShloMosaic Idealize.ShloMosaic.ValueIdx Cert.KerOps

/-- Two `[1, 256]` rows joined along the lanes, at `(0, k)`. -/
theorem cat_apply (a b : FVec Ideal S1x256 .f32) (k : Fin 512) :
    concatenate S1x512 1 [⟨S1x256, a⟩, ⟨S1x256, b⟩] concatenates_S1x256_S1x256_S1x512_d1 (ix2 (0 : Fin 1) k)
      = Spec.cat (fun w => a (ix2 (0 : Fin 1) w)) (fun w => b (ix2 (0 : Fin 1) w)) k := by
  unfold Spec.cat
  split
  · next hk =>
    exact concatenate_pair_apply_left 1 a b concatenates_S1x256_S1x256_S1x512_d1 (ix2 (0 : Fin 1) k) rfl (ix2 (0 : Fin 1) ⟨k.val, hk⟩)
      (fun c => by fin_cases c <;> rfl)
  · next hk =>
    have hk' : k.val - 256 < 256 := by have := k.isLt; omega
    refine concatenate_pair_apply_right 1 a b concatenates_S1x256_S1x256_S1x512_d1 (ix2 (0 : Fin 1) k) rfl rfl (ix2 (0 : Fin 1) ⟨k.val - 256, hk'⟩)
      (fun c hc => ?_) ?_
    · fin_cases c
      · rfl
      · exact absurd rfl hc
    · show (k.val - 256) + 256 = k.val
      omega

theorem pay2_apply (v6 : Vec Ideal S1x1x256 .f32) (w : Fin 256) : k0_pay2 v6 (ix2 (0 : Fin 1) w) = v6 (ix3 (0 : Fin 1) (0 : Fin 1) w) :=
  shapeCast_1ab_ab_apply v6 shapeCasts_S1x1x256_S1x256 0 w

theorem pay3_apply (v8 : Vec Ideal S1x256x2048 .f32) (w : Fin 256) (n : Fin 2048) : k0_pay3 v8 (ix2 w n) = v8 (ix3 (0 : Fin 1) w n) :=
  shapeCast_1ab_ab_apply v8 shapeCasts_S1x256x2048_S256x2048 w n

theorem pay4_eq (v14 : Vec Ideal S1x256 .f32) : k0_pay4 v14 = v14 := shapeCast_self v14 shapeCasts_S1x256_S1x256

theorem pay5_apply (v0 : Vec Ideal S1x4x256 .f32) (r : Fin 4) (w : Fin 256) : k0_pay5 v0 (ix2 r w) = Ideal.tanh (v0 (ix3 (0 : Fin 1) r w)) :=
  congrArg Ideal.tanh (shapeCast_1ab_ab_apply v0 shapeCasts_S1x4x256_S4x256 r w)

theorem pay6_apply (v2 : Vec Ideal S1x1x256 .f32) (w : Fin 256) : k0_pay6 v2 (ix2 (0 : Fin 1) w) = Ideal.tanh (v2 (ix3 (0 : Fin 1) (0 : Fin 1) w)) :=
  congrArg Ideal.tanh (shapeCast_1ab_ab_apply v2 shapeCasts_S1x1x256_S1x256 0 w)

/-- The erase vector: the softmax of the erase logits. -/
theorem pay7_apply (v4 : Vec Ideal S1x1x256 .f32) (w : Fin 256) :
    k0_pay7 v4 (ix2 (0 : Fin 1) w) = Spec.softmax (fun k => v4 (ix3 (0 : Fin 1) (0 : Fin 1) k)) w := by
  unfold k0_pay7
  refine (softmax_apply (shapeCast S1x256 v4 shapeCasts_S1x1x256_S1x256) reduces_S1x256_S1 (.inl rfl) rfl rfl shapeCasts_S1_S1x1 broadcasts_S1x1_S1x256 0 w).trans ?_
  exact congrArg (fun f => Spec.softmax f w) (funext fun k => shapeCast_1ab_ab_apply v4 shapeCasts_S1x1x256_S1x256 0 k)

/-- The gate's logit: the joined write candidate and erased memory against the gate weights, plus the gate bias. -/
theorem pay8_apply (v2 v6 : Vec Ideal S1x1x256 .f32) (v10 : Vec Ideal S1x512 .f32) (v11 : Vec Ideal S1x1 .f32) :
    k0_pay8 v2 v6 v10 v11 (ix2 (0 : Fin 1) (0 : Fin 1))
      = (∑ k : Fin 512, Spec.cat (fun w => Ideal.tanh (v2 (ix3 (0 : Fin 1) (0 : Fin 1) w))) (fun w => v6 (ix3 (0 : Fin 1) (0 : Fin 1) w)) k * v10 (ix2 (0 : Fin 1) k))
        + v11 (ix2 (0 : Fin 1) (0 : Fin 1)) := by
  unfold k0_pay8
  refine congrArg₂ (· + ·) ?_ (congrFun (shapeCast_self v11 shapeCasts_S1x1_S1x1) _)
  refine (LibMatmulNT.matmul_zero_apply 1 512 1 none _ v10 0 0).trans ?_
  refine Finset.sum_congr rfl fun k _ => congrArg (· * v10 (ix2 (0 : Fin 1) k)) ?_
  refine (cat_apply _ _ k).trans ?_
  exact congrArg₂ (fun f g => Spec.cat f g k) (funext fun w => pay6_apply v2 w) (funext fun w => pay2_apply v6 w)

/-- The gated pair g·wm ‖ (1-g)·me joined along the lanes, at `(0, k)`. -/
theorem gatedCat_apply (g : FVec Ideal S1x1 .f32) (v17 v7 : FVec Ideal S1x256 .f32) (k : Fin 512) :
    concatenate S1x512 1 [⟨S1x256, mulf (broadcastTo S1x256 g broadcasts_S1x1_S1x256) v17⟩,
        ⟨S1x256, mulf (broadcastTo S1x256 (subf (broadcast S1x1 (Scalar.ofBits .f32 0x3F800000#32)) g) broadcasts_S1x1_S1x256) v7⟩]
        concatenates_S1x256_S1x256_S1x512_d1 (ix2 (0 : Fin 1) k)
      = Spec.cat (fun w => g (ix2 (0 : Fin 1) (0 : Fin 1)) * v17 (ix2 (0 : Fin 1) w))
          (fun w => (Spec.one - g (ix2 (0 : Fin 1) (0 : Fin 1))) * v7 (ix2 (0 : Fin 1) w)) k := by
  refine (cat_apply _ _ k).trans ?_
  refine congrArg₂ (fun f h => Spec.cat f h k) (funext fun w => ?_) (funext fun w => ?_)
  · exact congrArg (· * v17 (ix2 (0 : Fin 1) w)) (broadcastTo_a1_ab_apply g broadcasts_S1x1_S1x256 0 w)
  · exact congrArg (· * v7 (ix2 (0 : Fin 1) w)) (broadcastTo_a1_ab_apply _ broadcasts_S1x1_S1x256 0 w)

/-- The write key: the gated pair against the output weights, plus the output bias, clamped below at zero. -/
theorem wkeyBlock_apply (G : FVec Ideal S1x512 .f32) (v13 : FVec Ideal S256x512 .f32) (v15 : FVec Ideal S1x256 .f32) (o : Fin 256) :
    maximumf (addf (matmul dot_S1x512_S256x512_S1x256_1_1_0_0_n_n none G v13 (constant S1x256 .f32 0x00000000#32)) v15)
        (broadcast S1x256 (Scalar.ofBits .f32 0x00000000#32)) (ix2 (0 : Fin 1) o)
      = max ((∑ k : Fin 512, G (ix2 (0 : Fin 1) k) * v13 (ix2 o k)) + v15 (ix2 (0 : Fin 1) o)) Spec.zero :=
  congrArg (fun z => max (z + v15 (ix2 (0 : Fin 1) o)) Spec.zero) (LibMatmulNT.matmul_zero_apply 1 512 256 none G v13 0 o)

/-- The write weights. -/
theorem pay9_apply (I : Spec.Row) (v7 : FVec Ideal S1x256 .f32) (v9 : FVec Ideal S256x2048 .f32) (v13 : Vec Ideal S256x512 .f32)
    (v15 v17 : FVec Ideal S1x256 .f32) (v31 : FVec Ideal S1x1 .f32)
    (h7 : ∀ w, v7 (ix2 (0 : Fin 1) w) = I.me w) (h9 : ∀ w n, v9 (ix2 w n) = I.M w n) (h13 : ∀ o k, v13 (ix2 o k) = I.oW o k)
    (h15 : ∀ o, v15 (ix2 (0 : Fin 1) o) = I.ob o) (h17 : ∀ w, v17 (ix2 (0 : Fin 1) w) = Spec.wm I w)
    (h31 : v31 (ix2 (0 : Fin 1) (0 : Fin 1)) = Spec.glogit I) (n : Fin 2048) :
    k0_pay9 v7 v9 v13 v15 v17 v31 (ix2 (0 : Fin 1) n) = Spec.wwt I n := by
  unfold k0_pay9
  refine (softmax_apply _ reduces_S1x2048_S1 (.inl rfl) rfl rfl shapeCasts_S1_S1x1 broadcasts_S1x1_S1x2048 0 n).trans ?_
  unfold Spec.wwt
  refine congrArg (fun f => Spec.softmax f n) (funext fun q => ?_)
  -- zero minus the cosine is its negative
  refine (congrArg (· - _) Spec.zero_eq).trans ((zero_sub _).trans (congrArg Neg.neg ?_))
  unfold Spec.cosine
  refine (LibMatmulNN.matmul_zero_apply 1 256 2048 none _ _ 0 q).trans ?_
  refine Finset.sum_congr rfl fun w _ => congrArg₂ (· * ·) ?_ ?_
  · -- the write key over its length
    refine (unitRows_apply _ reduces_S1x256_S1 (.inl rfl) rfl shapeCasts_S1_S1x1 broadcasts_S1x1_S1x256 0 w).trans ?_
    refine congrArg (fun f => Spec.unitv f w) (funext fun o => ?_)
    refine (wkeyBlock_apply _ v13 v15 o).trans ?_
    unfold Spec.wkey
    refine congrArg₂ (fun s b => max (s + b) Spec.zero) (Finset.sum_congr rfl fun k _ => congrArg₂ (· * ·) ?_ (h13 o k)) (h15 o)
    refine (gatedCat_apply _ v17 v7 k).trans ?_
    unfold Spec.gated
    have hg : logistic v31 (ix2 (0 : Fin 1) (0 : Fin 1)) = Spec.gate I := congrArg Ideal.logistic h31
    exact congrArg₂ (fun f h => Spec.cat f h k) (funext fun w' => congrArg₂ (· * ·) hg (h17 w'))
      (funext fun w' => congrArg₂ (fun a b => (Spec.one - a) * b) hg (h7 w'))
  · -- the memory's columns over their lengths
    refine (unitCols_apply v9 reduces_S256x2048_S2048 (.inl rfl) rfl shapeCasts_S2048_S1x2048 broadcasts_S1x2048_S256x2048 w q).trans ?_
    unfold Spec.colUnit
    exact congrArg₂ Ideal.div (h9 w q) (congrArg Spec.len (funext fun a => h9 a q))

/-- A product contracting the one row of a `[1, 256]` and a `[1, 2048]` block: the outer product. -/
theorem outer_apply (a : FVec Ideal S1x256 .f32) (b : FVec Ideal S1x2048 .f32) (w : Fin 256) (n : Fin 2048) :
    matmul dot_S1x256_S1x2048_S256x2048_0_0_1_1_n_n none a b (constant S256x2048 .f32 0x00000000#32) (ix2 w n)
      = a (ix2 (0 : Fin 1) w) * b (ix2 (0 : Fin 1) n) := by
  have hl : dot_S1x256_S1x2048_S256x2048_0_0_1_1_n_n.lhsIdx (ix2 w n)
      ((contrEquiv1 dot_S1x256_S1x2048_S256x2048_0_0_1_1_n_n 1 rfl rfl).symm 0) = ix2 (0 : Fin 1) w := by
    have hk := contrEquiv1_symm_val dot_S1x256_S1x2048_S256x2048_0_0_1_1_n_n 1 rfl rfl 0
    funext c; apply Fin.ext
    match c with
    | ⟨0, _⟩ => exact (dot_S1x256_S1x2048_S256x2048_0_0_1_1_n_n.lhsIdx_val_of_single rfl _ _).trans hk
    | ⟨1, _⟩ => rfl
  have hr : dot_S1x256_S1x2048_S256x2048_0_0_1_1_n_n.rhsIdx (ix2 w n)
      ((contrEquiv1 dot_S1x256_S1x2048_S256x2048_0_0_1_1_n_n 1 rfl rfl).symm 0) = ix2 (0 : Fin 1) n := by
    have hk := contrEquiv1_symm_val dot_S1x256_S1x2048_S256x2048_0_0_1_1_n_n 1 rfl rfl 0
    funext c; apply Fin.ext
    match c with
    | ⟨0, _⟩ => exact (dot_S1x256_S1x2048_S256x2048_0_0_1_1_n_n.rhsIdx_val_of_single rfl _ _).trans hk
    | ⟨1, _⟩ => rfl
  refine (Ideal.matmul_constant_zero_apply dot_S1x256_S1x2048_S256x2048_0_0_1_1_n_n none a b (ix2 w n)).trans ?_
  rw [← Equiv.sum_comp (contrEquiv1 dot_S1x256_S1x2048_S256x2048_0_0_1_1_n_n 1 rfl rfl).symm, Fin.sum_univ_one, hl, hr]

/-- The new memory of a batch row, from the row's memory, erase vector, write candidate and write weights. -/
theorem pay13_apply (I : Spec.Row) (v7 : FVec Ideal S1x256 .f32) (v9 : FVec Ideal S256x2048 .f32) (v13 : Vec Ideal S256x512 .f32)
    (v15 v17 v28 : FVec Ideal S1x256 .f32) (v31 : FVec Ideal S1x1 .f32)
    (h7 : ∀ w, v7 (ix2 (0 : Fin 1) w) = I.me w) (h9 : ∀ w n, v9 (ix2 w n) = I.M w n) (h13 : ∀ o k, v13 (ix2 o k) = I.oW o k)
    (h15 : ∀ o, v15 (ix2 (0 : Fin 1) o) = I.ob o) (h17 : ∀ w, v17 (ix2 (0 : Fin 1) w) = Spec.wm I w)
    (h28 : ∀ w, v28 (ix2 (0 : Fin 1) w) = Spec.ev I w)
    (h31 : v31 (ix2 (0 : Fin 1) (0 : Fin 1)) = Spec.glogit I) (w : Fin 256) (n : Fin 2048) :
    k0_pay13 v9 (k0_pay10 v7 v9 v13 v15 v17 v28 v31) (k0_pay11 v7 v9 v13 v15 v17 v31) (k0_pay12 (F := Ideal)) (ix2 w n) = Spec.Mnew I w n := by
  have hw := pay9_apply I v7 v9 v13 v15 v17 v31 h7 h9 h13 h15 h17 h31 n
  have h10 : k0_pay10 v7 v9 v13 v15 v17 v28 v31 (ix2 w n) = Spec.ev I w * Spec.wwt I n := by
    unfold k0_pay10
    exact (outer_apply v28 _ w n).trans (congrArg₂ (· * ·) (h28 w) hw)
  have h11 : k0_pay11 v7 v9 v13 v15 v17 v31 (ix2 w n) = Spec.wm I w * Spec.wwt I n := by
    unfold k0_pay11
    exact (outer_apply v17 _ w n).trans (congrArg₂ (· * ·) (h17 w) hw)
  unfold Spec.Mnew
  show v9 (ix2 w n) * (Spec.one - k0_pay10 v7 v9 v13 v15 v17 v28 v31 (ix2 w n)) + k0_pay11 v7 v9 v13 v15 v17 v31 (ix2 w n) = _
  rw [h10, h11, h9 w n]

/-- The read weights, from a block `Mn` that holds the row's new memory and the tanh'd read keys. -/
theorem pay14_apply (I : Spec.Row) (v9 v74 v75 v76 : FVec Ideal S256x2048 .f32) (v16 : FVec Ideal S4x256 .f32)
    (hM : ∀ w n, k0_pay13 v9 v74 v75 v76 (ix2 w n) = Spec.Mnew I w n) (h16 : ∀ r w, v16 (ix2 r w) = Spec.rkey I r w)
    (r : Fin 4) (n : Fin 2048) : k0_pay14 v9 v16 v74 v75 v76 (ix2 r n) = Spec.rwt I r n := by
  unfold k0_pay14
  refine (softmax_apply _ reduces_S4x2048_S4 (.inl rfl) rfl rfl shapeCasts_S4_S4x1 broadcasts_S4x1_S4x2048 r n).trans ?_
  unfold Spec.rwt
  refine congrArg (fun f => Spec.softmax f n) (funext fun q => ?_)
  unfold Spec.cosine
  refine (LibMatmulNN.matmul_zero_apply 4 256 2048 none _ _ r q).trans ?_
  refine Finset.sum_congr rfl fun w _ => congrArg₂ (· * ·) ?_ ?_
  · refine (unitRows_apply v16 reduces_S4x256_S4 (.inl rfl) rfl shapeCasts_S4_S4x1 broadcasts_S4x1_S4x256 r w).trans ?_
    exact congrArg (fun f => Spec.unitv f w) (funext fun k => h16 r k)
  · refine (unitCols_apply (k0_pay13 v9 v74 v75 v76) reduces_S256x2048_S2048 (.inl rfl) rfl shapeCasts_S2048_S1x2048 broadcasts_S1x2048_S256x2048 w q).trans ?_
    unfold Spec.colUnit
    exact congrArg₂ Ideal.div (hM w q) (congrArg Spec.len (funext fun a => hM a q))

/-- The read vectors: the read weights against the new memory's rows. -/
theorem pay15_apply (I : Spec.Row) (v9 v74 v75 v76 : FVec Ideal S256x2048 .f32) (v16 : FVec Ideal S4x256 .f32)
    (hM : ∀ w n, k0_pay13 v9 v74 v75 v76 (ix2 w n) = Spec.Mnew I w n) (h16 : ∀ r w, v16 (ix2 r w) = Spec.rkey I r w)
    (r : Fin 4) (w : Fin 256) : k0_pay15 v9 v16 v74 v75 v76 (ix3 (0 : Fin 1) r w) = Spec.mread I r w := by
  unfold k0_pay15
  refine (shapeCast_ab_1ab_apply _ shapeCasts_S4x256_S1x4x256 0 r w).trans ?_
  refine (LibMatmulNT.matmul_zero_apply 4 2048 256 none _ _ r w).trans ?_
  unfold Spec.mread
  exact Finset.sum_congr rfl fun n _ => congrArg₂ (· * ·) (pay14_apply I v9 v74 v75 v76 v16 hM h16 r n) (hM w n)

theorem pay16_apply (v9 v74 v75 v76 : FVec Ideal S256x2048 .f32) (w : Fin 256) (n : Fin 2048) :
    k0_pay16 v9 v74 v75 v76 (ix3 (0 : Fin 1) w n) = k0_pay13 v9 v74 v75 v76 (ix2 w n) := by
  unfold k0_pay16
  exact shapeCast_ab_1ab_apply (k0_pay13 v9 v74 v75 v76) shapeCasts_S256x2048_S1x256x2048 0 w n

theorem pay1_apply (v107 : FVec Ideal S4x2048 .f32) (r : Fin 4) (n : Fin 2048) :
    k0_pay1 v107 (ix3 (0 : Fin 1) r n) = v107 (ix2 r n) :=
  shapeCast_ab_1ab_apply _ shapeCasts_S4x2048_S1x4x2048 0 r n

/-- The batch row a grid point sees, from the nine blocks it loads. -/
def rowB (x0 : Vec Ideal S1x4x256 .f32) (x1 x2 x3 : Vec Ideal S1x1x256 .f32) (x4 : Vec Ideal S1x256x2048 .f32)
    (x5 : Vec Ideal S1x512 .f32) (x6 : Vec Ideal S1x1 .f32) (x7 : Vec Ideal S256x512 .f32) (x8 : Vec Ideal S1x256 .f32) : Spec.Row where
  kr r w := x0 (ix3 (0 : Fin 1) r w)
  mt w := x1 (ix3 (0 : Fin 1) (0 : Fin 1) w)
  et w := x2 (ix3 (0 : Fin 1) (0 : Fin 1) w)
  me w := x3 (ix3 (0 : Fin 1) (0 : Fin 1) w)
  M w n := x4 (ix3 (0 : Fin 1) w n)
  gW k := x5 (ix2 (0 : Fin 1) k)
  gb := x6 (ix2 (0 : Fin 1) (0 : Fin 1))
  oW o k := x7 (ix2 o k)
  ob o := x8 (ix2 (0 : Fin 1) o)

theorem hz3 : (![0, 0, 0] : Fin 3 → Nat) = fun _ => 0 := funext fun a => by fin_cases a <;> rfl
theorem hz2 : (![0, 0] : Fin 2 → Nat) = fun _ => 0 := funext fun a => by fin_cases a <;> rfl

variable (x0 : Vec Ideal S1x4x256 .f32) (x1 x2 x3 : Vec Ideal S1x1x256 .f32) (x4 : Vec Ideal S1x256x2048 .f32)
    (x5 : Vec Ideal S1x512 .f32) (x6 : Vec Ideal S1x1 .f32) (x7 : Vec Ideal S256x512 .f32) (x8 : Vec Ideal S1x256 .f32)

/-- The body's new-memory value is the row's new memory. -/
theorem mnewB (w : Fin 256) (n : Fin 2048) :
    k0_pay13 (k0_pay3 x4) (k0_pay10 (k0_pay2 x3) (k0_pay3 x4) x7 (k0_pay4 x8) (k0_pay6 x1) (k0_pay7 x2) (k0_pay8 x1 x3 x5 x6))
      (k0_pay11 (k0_pay2 x3) (k0_pay3 x4) x7 (k0_pay4 x8) (k0_pay6 x1) (k0_pay8 x1 x3 x5 x6)) (k0_pay12 (F := Ideal)) (ix2 w n)
      = Spec.Mnew (rowB x0 x1 x2 x3 x4 x5 x6 x7 x8) w n :=
  pay13_apply (rowB x0 x1 x2 x3 x4 x5 x6 x7 x8) (k0_pay2 x3) (k0_pay3 x4) x7 (k0_pay4 x8) (k0_pay6 x1) (k0_pay7 x2) (k0_pay8 x1 x3 x5 x6)
    (fun w => pay2_apply x3 w) (fun w n => pay3_apply x4 w n) (fun _ _ => rfl) (fun o => congrFun (pay4_eq x8) _)
    (fun w => pay6_apply x1 w) (fun w => pay7_apply x2 w) (pay8_apply x1 x3 x5 x6) w n

/-- What the body leaves in the read-vector window's buffer. -/
theorem out9_apply (r : Fin 4) (w : Fin 256) :
    out0_9 x0 x1 x2 x3 x4 x5 x6 x7 x8 (ix3 (0 : Fin 1) r w) = Spec.mread (rowB x0 x1 x2 x3 x4 x5 x6 x7 x8) r w := by
  unfold out0_9
  rw [View.canon_unit_zero hz3]
  simp only [View.ld_unit_zero (S := S1x4x256) hz3, View.ld_unit_zero (S := S1x1x256) hz3, View.ld_unit_zero (S := S1x256x2048) hz3,
    View.ld_unit_zero (S := S1x512) hz2, View.ld_unit_zero (S := S1x1) hz2, View.ld_unit_zero (S := S256x512) hz2,
    View.ld_unit_zero (S := S1x256) hz2]
  exact pay15_apply (rowB x0 x1 x2 x3 x4 x5 x6 x7 x8) _ _ _ _ (k0_pay5 x0) (mnewB x0 x1 x2 x3 x4 x5 x6 x7 x8) (fun r w => pay5_apply x0 r w) r w

/-- What the body leaves in the new-memory window's buffer. -/
theorem out10_apply (w : Fin 256) (n : Fin 2048) :
    out0_10 x0 x1 x2 x3 x4 x5 x6 x7 x8 (ix3 (0 : Fin 1) w n) = Spec.Mnew (rowB x0 x1 x2 x3 x4 x5 x6 x7 x8) w n := by
  unfold out0_10
  rw [View.canon_unit_zero hz3]
  simp only [View.ld_unit_zero (S := S1x4x256) hz3, View.ld_unit_zero (S := S1x1x256) hz3, View.ld_unit_zero (S := S1x256x2048) hz3,
    View.ld_unit_zero (S := S1x512) hz2, View.ld_unit_zero (S := S1x1) hz2, View.ld_unit_zero (S := S256x512) hz2,
    View.ld_unit_zero (S := S1x256) hz2]
  exact (pay16_apply _ _ _ _ w n).trans (mnewB x0 x1 x2 x3 x4 x5 x6 x7 x8 w n)

/-- What the body leaves in the read-weight window's buffer. -/
theorem out11_apply (r : Fin 4) (n : Fin 2048) :
    out0_11 x0 x1 x2 x3 x4 x5 x6 x7 x8 (ix3 (0 : Fin 1) r n) = Spec.rwt (rowB x0 x1 x2 x3 x4 x5 x6 x7 x8) r n := by
  unfold out0_11
  rw [View.canon_unit_zero hz3]
  simp only [View.ld_unit_zero (S := S1x4x256) hz3, View.ld_unit_zero (S := S1x1x256) hz3, View.ld_unit_zero (S := S1x256x2048) hz3,
    View.ld_unit_zero (S := S1x512) hz2, View.ld_unit_zero (S := S1x1) hz2, View.ld_unit_zero (S := S256x512) hz2,
    View.ld_unit_zero (S := S1x256) hz2]
  exact (pay1_apply _ r n).trans
    (pay14_apply (rowB x0 x1 x2 x3 x4 x5 x6 x7 x8) _ _ _ _ (k0_pay5 x0) (mnewB x0 x1 x2 x3 x4 x5 x6 x7 x8) (fun r w => pay5_apply x0 r w) r n)

end Cert.KerRead

end
-- ==== Proof.Rows.lean ====
/-
  The nine argument arrays as one record, the batch row of them that one grid point (one leading index of the
  reference's arrays) sees, and the three result arrays as functions of the arguments: entry (b, ·, ·) of each
  result is the row function of `Spec` at batch row `b`.
-/
import proofs.«175705_j61950608278069_1_alg».proof.Proof.Spec
import Idealize.ShloMosaic.Lib.ValueIdx

noncomputable section

namespace Cert.Rows

open Idealize.ShloMosaic Idealize.ShloMosaic.ValueIdx

/-- The argument arrays: k_r [128,1024], m_t and e_t [128,256], m_erased [128,1,256], memory [128,256,2048],
    gW [1,512], gb [1], oW [256,512], ob [256]. -/
structure Args where
  a0 : FVec Ideal ⟨2, ![128, 1024]⟩ .f32
  a1 : FVec Ideal ⟨2, ![128, 256]⟩ .f32
  a2 : FVec Ideal ⟨2, ![128, 256]⟩ .f32
  a3 : FVec Ideal ⟨3, ![128, 1, 256]⟩ .f32
  a4 : FVec Ideal ⟨3, ![128, 256, 2048]⟩ .f32
  a5 : FVec Ideal ⟨2, ![1, 512]⟩ .f32
  a6 : FVec Ideal ⟨1, ![1]⟩ .f32
  a7 : FVec Ideal ⟨2, ![256, 512]⟩ .f32
  a8 : FVec Ideal ⟨1, ![256]⟩ .f32

/-- Batch row `b`: read key `r` is entries r·256 … r·256+255 of row `b` of k_r. -/
def rowOf (A : Args) (b : Fin 128) : Spec.Row where
  kr r w := A.a0 (ix2 b ⟨r.val * 256 + w.val, by have := r.isLt; have := w.isLt; omega⟩)
  mt w := A.a1 (ix2 b w)
  et w := A.a2 (ix2 b w)
  me w := A.a3 (ix3 b 0 w)
  M w n := A.a4 (ix3 b w n)
  gW k := A.a5 (ix2 0 k)
  gb := A.a6 (ix1 0)
  oW o k := A.a7 (ix2 o k)
  ob o := A.a8 (ix1 o)

/-- The read vectors [128,4,256], the new memory [128,256,2048] and the read weights [128,4,2048]. -/
def readOut (A : Args) : FVec Ideal ⟨3, ![128, 4, 256]⟩ .f32 := fun i => Spec.mread (rowOf A (i 0)) (i 1) (i 2)
def memOut (A : Args) : FVec Ideal ⟨3, ![128, 256, 2048]⟩ .f32 := fun i => Spec.Mnew (rowOf A (i 0)) (i 1) (i 2)
def wtOut (A : Args) : FVec Ideal ⟨3, ![128, 4, 2048]⟩ .f32 := fun i => Spec.rwt (rowOf A (i 0)) (i 1) (i 2)

end Cert.Rows

end
-- ==== Proof.KerBlocks.lean ====
/-
  What a grid point loads, read off the argument arrays.

  Grid point `t` (one of 128) handles batch row `t`.  Five of the nine window arrays are host reshapes of the
  arguments made before the region — k_r [128,1024] as [128,4,256], m_t and e_t [128,256] as [128,1,256], gb [1] as
  [1,1], ob [256] as [1,256] — and four are arguments as they are.  The index maps are decided over the grid: the
  five batched windows sit at block (t, 0, 0), the four shared ones at block (0, 0).  A block's coordinate is
  always index × size + the coordinate inside the block, and a reshape keeps row-major positions, so each loaded
  block at an index is the argument array at an index of batch row `t`.
-/
import proofs.«175705_j61950608278069_1_alg».proof.Proof.Gen.KernelIdeal.Frame
import proofs.«175705_j61950608278069_1_alg».proof.Proof.Rows
import Idealize.ShloMosaic.Lib.StableHlo.Run
import Idealize.ShloMosaic.Lib.ValueLayout
import Idealize.ShloMosaic.Lib.Pipeline.Value

noncomputable section

namespace Cert.KerBlocks
open Cert.KernelIdeal Cert.KernelIdeal.Gen Idealize.ShloMosaic Idealize.ShloMosaic.TcCoe Idealize.ShloMosaic.ValueIdx Idealize.SL.Sem Cert.Rows

variable (m : (ℓ : Loc nD τ sig) → Buf (Elt Ideal) ℓ)

/-- Core `c`'s nine argument arrays as launched. -/
def argsOf (c : Dev nD) : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

/-! ## The arrays the region finds: the five reshaped by the host, the four passed as they are -/

theorem V_v0 (c : Dev nD) : (V m c main_v0 : S128x4x256.Idx → EReal) = shapeCast S128x4x256 (argsOf m c).a0 shapeCasts_S128x1024_S128x4x256 := by
  dsimp only [Gen.V, Gen.hostOps0]; after_results; rfl
theorem V_v1 (c : Dev nD) : (V m c main_v1 : S128x1x256.Idx → EReal) = shapeCast S128x1x256 (argsOf m c).a1 shapeCasts_S128x256_S128x1x256 := by
  dsimp only [Gen.V, Gen.hostOps0]; after_results; rfl
theorem V_v2 (c : Dev nD) : (V m c main_v2 : S128x1x256.Idx → EReal) = shapeCast S128x1x256 (argsOf m c).a2 shapeCasts_S128x256_S128x1x256 := by
  dsimp only [Gen.V, Gen.hostOps0]; after_results; rfl
theorem V_v3 (c : Dev nD) : (V m c main_v3 : S1x1.Idx → EReal) = shapeCast S1x1 (argsOf m c).a6 shapeCasts_S1_S1x1 := by
  dsimp only [Gen.V, Gen.hostOps0]; after_results; rfl
theorem V_v4 (c : Dev nD) : (V m c main_v4 : S1x256.Idx → EReal) = shapeCast S1x256 (argsOf m c).a8 shapeCasts_S256_S1x256 := by
  dsimp only [Gen.V, Gen.hostOps0]; after_results; rfl

/-! ## The index maps, decided over the 128 grid points -/

/-- Point `t` as a batch row. -/
abbrev tb (t : Fin cfg0.N) : Fin 128 := ⟨t.val, t.isLt⟩

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0)
    ∧ (win0_11.index t (0 : Fin 3) = t.val ∧ win0_11.index t (1 : Fin 3) = 0 ∧ win0_11.index t (2 : Fin 3) = 0) :=
  (by decide +kernel : ∀ t : Fin grid0.N, _)

/-! ## Each input window's block at point `t`, read off the arguments -/

theorem blk0 (c : Dev nD) (t : Fin cfg0.N) (r : Fin 4) (w : Fin 256) :
    iblk m c 0 t (ix3 (0 : Fin 1) r w)
      = (argsOf m c).a0 (ix2 (tb t) ⟨r.val * 256 + w.val, by have := r.isLt; have := w.isLt; omega⟩) := by
  have hemb : (((cfg0.win 0).blk t).view.emb (ix3 (0 : Fin 1) r w) : S128x4x256.Idx) = ix3 (tb t) r w := by
    obtain ⟨⟨e0, e1, e2⟩, -⟩ := idx_facts t
    funext a; apply Fin.ext
    match a with
    | ⟨0, _⟩ => show win0_0.index t (0 : Fin 3) * 1 + 1 * 0 = t.val; omega
    | ⟨1, _⟩ => show win0_0.index t (1 : Fin 3) * 4 + 1 * r.val = r.val; omega
    | ⟨2, _⟩ => show win0_0.index t (2 : Fin 3) * 256 + 1 * w.val = w.val; omega
  show V m c main_v0 (((cfg0.win 0).blk t).view.emb (ix3 (0 : Fin 1) r w)) = _
  refine (congrArg (V m c main_v0) hemb).trans ((congrFun (V_v0 m c) _).trans ?_)
  refine shapeCast_apply _ _ _ _ (by
    rw [Shape.rowMajor_val_two, Shape.rowMajor_val_three]
    show t.val * 1024 + (r.val * 256 + w.val) = (t.val * 4 + r.val) * 256 + w.val
    omega)

theorem blk1 (c : Dev nD) (t : Fin cfg0.N) (w : Fin 256) :
    iblk m c 1 t (ix3 (0 : Fin 1) (0 : Fin 1) w) = (argsOf m c).a1 (ix2 (tb t) w) := by
  have hemb : (((cfg0.win 1).blk t).view.emb (ix3 (0 : Fin 1) (0 : Fin 1) w) : S128x1x256.Idx) = ix3 (tb t) (0 : Fin 1) w := by
    obtain ⟨-, ⟨e0, e1, e2⟩, -⟩ := idx_facts t
    funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 256 + 1 * w.val = w.val; omega
  show V m c main_v1 (((cfg0.win 1).blk t).view.emb (ix3 (0 : Fin 1) (0 : Fin 1) w)) = _
  refine (congrArg (V m c main_v1) hemb).trans ((congrFun (V_v1 m c) _).trans ?_)
  refine shapeCast_apply _ _ _ _ (by
    rw [Shape.rowMajor_val_two, Shape.rowMajor_val_three]
    show t.val * 256 + w.val = (t.val * 1 + 0) * 256 + w.val
    omega)

theorem blk2 (c : Dev nD) (t : Fin cfg0.N) (w : Fin 256) :
    iblk m c 2 t (ix3 (0 : Fin 1) (0 : Fin 1) w) = (argsOf m c).a2 (ix2 (tb t) w) := by
  have hemb : (((cfg0.win 2).blk t).view.emb (ix3 (0 : Fin 1) (0 : Fin 1) w) : S128x1x256.Idx) = ix3 (tb t) (0 : Fin 1) w := by
    obtain ⟨-, -, ⟨e0, e1, e2⟩, -⟩ := idx_facts t
    funext a; apply Fin.ext
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 256 + 1 * w.val = w.val; omega
  show V m c main_v2 (((cfg0.win 2).blk t).view.emb (ix3 (0 : Fin 1) (0 : Fin 1) w)) = _
  refine (congrArg (V m c main_v2) hemb).trans ((congrFun (V_v2 m c) _).trans ?_)
  refine shapeCast_apply _ _ _ _ (by
    rw [Shape.rowMajor_val_two, Shape.rowMajor_val_three]
    show t.val * 256 + w.val = (t.val * 1 + 0) * 256 + w.val
    omega)

theorem blk3 (c : Dev nD) (t : Fin cfg0.N) (w : Fin 256) :
    iblk m c 3 t (ix3 (0 : Fin 1) (0 : Fin 1) w) = (argsOf m c).a3 (ix3 (tb t) (0 : Fin 1) w) := by
  have hemb : (((cfg0.win 3).blk t).view.emb (ix3 (0 : Fin 1) (0 : Fin 1) w) : S128x1x256.Idx) = ix3 (tb t) (0 : Fin 1) w := by
    obtain ⟨-, -, -, ⟨e0, e1, e2⟩, -⟩ := idx_facts t
    funext a; apply Fin.ext
    match a with
    | ⟨0, _⟩ => show win0_3.index t (0 : Fin 3) * 1 + 1 * 0 = t.val; omega
    | ⟨1, _⟩ => show win0_3.index t (1 : Fin 3) * 1 + 1 * 0 = 0; omega
    | ⟨2, _⟩ => show win0_3.index t (2 : Fin 3) * 256 + 1 * w.val = w.val; omega
  show V m c main_arg3 (((cfg0.win 3).blk t).view.emb (ix3 (0 : Fin 1) (0 : Fin 1) w)) = _
  exact (congrArg (V m c main_arg3) hemb).trans (congrFun (V_main_arg3 m c) _)

theorem blk4 (c : Dev nD) (t : Fin cfg0.N) (w : Fin 256) (n : Fin 2048) :
    iblk m c 4 t (ix3 (0 : Fin 1) w n) = (argsOf m c).a4 (ix3 (tb t) w n) := by
  have hemb : (((cfg0.win 4).blk t).view.emb (ix3 (0 : Fin 1) w n) : S128x256x2048.Idx) = ix3 (tb t) w n := by
    obtain ⟨-, -, -, -, ⟨e0, e1, e2⟩, -⟩ := idx_facts t
    funext a; apply Fin.ext
    match a with
    | ⟨0, _⟩ => show win0_4.index t (0 : Fin 3) * 1 + 1 * 0 = t.val; omega
    | ⟨1, _⟩ => show win0_4.index t (1 : Fin 3) * 256 + 1 * w.val = w.val; omega
    | ⟨2, _⟩ => show win0_4.index t (2 : Fin 3) * 2048 + 1 * n.val = n.val; omega
  show V m c main_arg4 (((cfg0.win 4).blk t).view.emb (ix3 (0 : Fin 1) w n)) = _
  exact (congrArg (V m c main_arg4) hemb).trans (congrFun (V_main_arg4 m c) _)

theorem blk5 (c : Dev nD) (t : Fin cfg0.N) (k : Fin 512) :
    iblk m c 5 t (ix2 (0 : Fin 1) k) = (argsOf m c).a5 (ix2 (0 : Fin 1) k) := by
  have hemb : (((cfg0.win 5).blk t).view.emb (ix2 (0 : Fin 1) k) : S1x512.Idx) = ix2 (0 : Fin 1) k := by
    obtain ⟨-, -, -, -, -, ⟨e0, e1⟩, -⟩ := idx_facts t
    funext a; apply Fin.ext
    match a with
    | ⟨0, _⟩ => show win0_5.index t (0 : Fin 2) * 1 + 1 * 0 = 0; omega
    | ⟨1, _⟩ => show win0_5.index t (1 : Fin 2) * 512 + 1 * k.val = k.val; omega
  show V m c main_arg5 (((cfg0.win 5).blk t).view.emb (ix2 (0 : Fin 1) k)) = _
  exact (congrArg (V m c main_arg5) hemb).trans (congrFun (V_main_arg5 m c) _)

theorem blk6 (c : Dev nD) (t : Fin cfg0.N) :
    iblk m c 6 t (ix2 (0 : Fin 1) (0 : Fin 1)) = (argsOf m c).a6 (ix1 (0 : Fin 1)) := by
  have hemb : (((cfg0.win 6).blk t).view.emb (ix2 (0 : Fin 1) (0 : Fin 1)) : S1x1.Idx) = ix2 (0 : Fin 1) (0 : Fin 1) := by
    obtain ⟨-, -, -, -, -, -, ⟨e0, e1⟩, -⟩ := idx_facts t
    funext a; apply Fin.ext
    match a with
    | ⟨0, _⟩ => show win0_6.index t (0 : Fin 2) * 1 + 1 * 0 = 0; omega
    | ⟨1, _⟩ => show win0_6.index t (1 : Fin 2) * 1 + 1 * 0 = 0; omega
  show V m c main_v3 (((cfg0.win 6).blk t).view.emb (ix2 (0 : Fin 1) (0 : Fin 1))) = _
  exact (congrArg (V m c main_v3) hemb).trans ((congrFun (V_v3 m c) _).trans (shapeCast_a_1a_apply _ shapeCasts_S1_S1x1 0 0))

theorem blk7 (c : Dev nD) (t : Fin cfg0.N) (o : Fin 256) (k : Fin 512) :
    iblk m c 7 t (ix2 o k) = (argsOf m c).a7 (ix2 o k) := by
  have hemb : (((cfg0.win 7).blk t).view.emb (ix2 o k) : S256x512.Idx) = ix2 o k := by
    obtain ⟨-, -, -, -, -, -, -, ⟨e0, e1⟩, -⟩ := idx_facts t
    funext a; apply Fin.ext
    match a with
    | ⟨0, _⟩ => show win0_7.index t (0 : Fin 2) * 256 + 1 * o.val = o.val; omega
    | ⟨1, _⟩ => show win0_7.index t (1 : Fin 2) * 512 + 1 * k.val = k.val; omega
  show V m c main_arg7 (((cfg0.win 7).blk t).view.emb (ix2 o k)) = _
  exact (congrArg (V m c main_arg7) hemb).trans (congrFun (V_main_arg7 m c) _)

theorem blk8 (c : Dev nD) (t : Fin cfg0.N) (o : Fin 256) :
    iblk m c 8 t (ix2 (0 : Fin 1) o) = (argsOf m c).a8 (ix1 o) := by
  have hemb : (((cfg0.win 8).blk t).view.emb (ix2 (0 : Fin 1) o) : S1x256.Idx) = ix2 (0 : Fin 1) o := by
    obtain ⟨-, -, -, -, -, -, -, -, ⟨e0, e1⟩, -⟩ := idx_facts t
    funext a; apply Fin.ext
    match a with
    | ⟨0, _⟩ => show win0_8.index t (0 : Fin 2) * 1 + 1 * 0 = 0; omega
    | ⟨1, _⟩ => show win0_8.index t (1 : Fin 2) * 256 + 1 * o.val = o.val; omega
  show V m c main_v4 (((cfg0.win 8).blk t).view.emb (ix2 (0 : Fin 1) o)) = _
  exact (congrArg (V m c main_v4) hemb).trans ((congrFun (V_v4 m c) _).trans (shapeCast_a_1a_apply _ shapeCasts_S256_S1x256 0 o))

end Cert.KerBlocks

end
-- ==== Proof.KerValue.lean ====
/-
  The kernel's three result arrays after its run, as whole-array functions of the arguments.

  At grid point `t` the row of loaded blocks is batch row `t` of the arguments, so what the point writes back to each
  output window is block `t` of the corresponding whole-array function (`readOut`, `memOut`, `wtOut`): entry
  (b, ·, ·) is the row function at batch row b.  The 128 blocks of each output tile its array — index `i` lies in the
  block of point `i 0` — so after the run each array is that function everywhere.
-/
import proofs.«175705_j61950608278069_1_alg».proof.Proof.KerRead
import proofs.«175705_j61950608278069_1_alg».proof.Proof.KerBlocks
import proofs.«175705_j61950608278069_1_alg».proof.Proof.Gen.KernelIdeal.Value

noncomputable section

namespace Cert.KerValue
open Cert.KernelIdeal Cert.KernelIdeal.Gen Idealize.ShloMosaic Idealize.ShloMosaic.TcCoe Idealize.ShloMosaic.ValueIdx Idealize.SL.Sem Cert.Rows Cert.KerBlocks
open Idealize.ShloMosaic.Pipeline (Dat)

variable (m : (ℓ : Loc nD τ sig) → Buf (Elt Ideal) ℓ) (ρ : Dev nD → PrngReg)

/-- The row of blocks point `t` loads is batch row `t` of the arguments. -/
theorem rowB_eq (c : Dev nD) (t : Fin cfg0.N) :
    KerRead.rowB (iblk m c 0 t) (iblk m c 1 t) (iblk m c 2 t) (iblk m c 3 t) (iblk m c 4 t) (iblk m c 5 t) (iblk m c 6 t) (iblk m c 7 t) (iblk m c 8 t)
      = rowOf (argsOf m c) (tb t) := by
  unfold KerRead.rowB rowOf
  rw [Spec.Row.mk.injEq]
  exact ⟨funext fun r => funext fun w => blk0 m c t r w, funext fun w => blk1 m c t w, funext fun w => blk2 m c t w,
    funext fun w => blk3 m c t w, funext fun w => funext fun n => blk4 m c t w n, funext fun k => blk5 m c t k, blk6 m c t,
    funext fun o => funext fun k => blk7 m c t o k, funext fun o => blk8 m c t o⟩

/-! ## Output window 9: the read vectors -/

theorem point9 (c : Dev nD) (t : Fin cfg0.N) (r : Fin 4) (w : Fin 256) :
    out0_9 (iblk m c 0 t) (iblk m c 1 t) (iblk m c 2 t) (iblk m c 3 t) (iblk m c 4 t) (iblk m c 5 t) (iblk m c 6 t) (iblk m c 7 t) (iblk m c 8 t) (ix3 (0 : Fin 1) r w)
      = readOut (argsOf m c) (ix3 (tb t) r w) :=
  (KerRead.out9_apply _ _ _ _ _ _ _ _ _ r w).trans (congrArg (fun I => Spec.mread I r w) (rowB_eq m c t))

/-- What point `t` writes back is block `t` of the read vectors. -/
theorem flushed9_eq (c : Dev nD) (t : Fin cfg0.N) :
    (dats m 0 c).flushed 9 t = ((cfg0.win 9).blk t).view.read (Elt Ideal) (readOut (argsOf m c)) := by
  rw [Cert.KernelIdeal.Value.flushed9]
  funext j
  have h0 : (j 0).val < 1 := (j 0).isLt
  have h1 : (j 1).val < 4 := (j 1).isLt
  have h2 : (j 2).val < 256 := (j 2).isLt
  have hj : (j : S1x4x256.Idx) = ix3 (0 : Fin 1) ⟨(j 1).val, h1⟩ ⟨(j 2).val, h2⟩ := by
    funext a; apply Fin.ext
    match a with
    | ⟨0, _⟩ => show (j 0).val = 0; omega
    | ⟨1, _⟩ => rfl
    | ⟨2, _⟩ => rfl
  have hemb : (((cfg0.win 9).blk t).view.emb j : S128x4x256.Idx) = ix3 (tb t) ⟨(j 1).val, h1⟩ ⟨(j 2).val, h2⟩ := by
    obtain ⟨-, -, -, -, -, -, -, -, -, ⟨e0, e1, e2⟩, -⟩ := idx_facts t
    funext a; apply Fin.ext
    match a with
    | ⟨0, _⟩ => show win0_9.index t (0 : Fin 3) * 1 + 1 * (j 0).val = t.val; omega
    | ⟨1, _⟩ => show win0_9.index t (1 : Fin 3) * 4 + 1 * (j 1).val = (j 1).val; omega
    | ⟨2, _⟩ => show win0_9.index t (2 : Fin 3) * 256 + 1 * (j 2).val = (j 2).val; omega
  show out0_9 (iblk m c 0 t) (iblk m c 1 t) (iblk m c 2 t) (iblk m c 3 t) (iblk m c 4 t) (iblk m c 5 t) (iblk m c 6 t) (iblk m c 7 t) (iblk m c 8 t) j
    = readOut (argsOf m c) (((cfg0.win 9).blk t).view.emb j)
  exact (congrArg (out0_9 (iblk m c 0 t) (iblk m c 1 t) (iblk m c 2 t) (iblk m c 3 t) (iblk m c 4 t) (iblk m c 5 t) (iblk m c 6 t) (iblk m c 7 t) (iblk m c 8 t)) hj).trans
    ((point9 m c t _ _).trans (congrArg (readOut (argsOf m c)) hemb.symm))

/-- An index of the array is in point `t`'s block iff each coordinate is in the block's range on its axis. -/
theorem mem_blk9 (t : Fin cfg0.N) (i : S128x4x256.Idx) :
    i ∈ ((cfg0.win 9).blk t).view.set ↔ ∀ a : Fin 3, win0_9.index t a * S1x4x256.size a ≤ (i a).val ∧ (i a).val < win0_9.index t a * S1x4x256.size a + S1x4x256.size a := by
  show i ∈ ((View.whole main_v5_0).slice (win0_9.rect t)).set ↔ _
  rw [View.set_slice_whole, Rect.mem_set_unit]
  exact Iff.rfl

/-- Every index of the array is in the block of the point its batch coordinate names. -/
theorem cover9 (i : S128x4x256.Idx) : ∃ t : Fin cfg0.N, (cfg0.win 9).flush t = true ∧ i ∈ ((cfg0.win 9).blk t).view.set := by
  have hi0 : (i 0).val < 128 := (i 0).isLt
  have hi1 : (i 1).val < 4 := (i 1).isLt
  have hi2 : (i 2).val < 256 := (i 2).isLt
  refine ⟨⟨(i 0).val, hi0⟩, flush0_9 _, ?_⟩
  rw [mem_blk9]
  obtain ⟨-, -, -, -, -, -, -, -, -, ⟨e0', e1, e2⟩, -⟩ := idx_facts ⟨(i 0).val, hi0⟩
  have e0 : win0_9.index ⟨(i 0).val, hi0⟩ (0 : Fin 3) = (i 0).val := e0'
  intro a
  match a with
  | ⟨0, _⟩ => show win0_9.index ⟨(i 0).val, hi0⟩ (0 : Fin 3) * 1 ≤ (i 0).val ∧ (i 0).val < win0_9.index ⟨(i 0).val, hi0⟩ (0 : Fin 3) * 1 + 1; omega
  | ⟨1, _⟩ => show win0_9.index ⟨(i 0).val, hi0⟩ (1 : Fin 3) * 4 ≤ (i 1).val ∧ (i 1).val < win0_9.index ⟨(i 0).val, hi0⟩ (1 : Fin 3) * 4 + 4; omega
  | ⟨2, _⟩ => show win0_9.index ⟨(i 0).val, hi0⟩ (2 : Fin 3) * 256 ≤ (i 2).val ∧ (i 2).val < win0_9.index ⟨(i 0).val, hi0⟩ (2 : Fin 3) * 256 + 256; omega

/-- The read-vector array after the run. -/
theorem final9 (c : Dev nD) : (dats m 0 c).arrAt 9 cfg0.N = readOut (argsOf m c) :=
  (dats m 0 c).arrAt_eq_of_cover 9 (readOut (argsOf m c)) (fun t _ => flushed9_eq m c t) cover9

/-! ## Output window 10: the new memory -/

theorem point10 (c : Dev nD) (t : Fin cfg0.N) (w : Fin 256) (n : Fin 2048) :
    out0_10 (iblk m c 0 t) (iblk m c 1 t) (iblk m c 2 t) (iblk m c 3 t) (iblk m c 4 t) (iblk m c 5 t) (iblk m c 6 t) (iblk m c 7 t) (iblk m c 8 t) (ix3 (0 : Fin 1) w n)
      = memOut (argsOf m c) (ix3 (tb t) w n) :=
  (KerRead.out10_apply _ _ _ _ _ _ _ _ _ w n).trans (congrArg (fun I => Spec.Mnew I w n) (rowB_eq m c t))

/-- What point `t` writes back is block `t` of the new memory. -/
theorem flushed10_eq (c : Dev nD) (t : Fin cfg0.N) :
    (dats m 0 c).flushed 10 t = ((cfg0.win 10).blk t).view.read (Elt Ideal) (memOut (argsOf m c)) := by
  rw [Cert.KernelIdeal.Value.flushed10]
  funext j
  have h0 : (j 0).val < 1 := (j 0).isLt
  have h1 : (j 1).val < 256 := (j 1).isLt
  have h2 : (j 2).val < 2048 := (j 2).isLt
  have hj : (j : S1x256x2048.Idx) = ix3 (0 : Fin 1) ⟨(j 1).val, h1⟩ ⟨(j 2).val, h2⟩ := by
    funext a; apply Fin.ext
    match a with
    | ⟨0, _⟩ => show (j 0).val = 0; omega
    | ⟨1, _⟩ => rfl
    | ⟨2, _⟩ => rfl
  have hemb : (((cfg0.win 10).blk t).view.emb j : S128x256x2048.Idx) = ix3 (tb t) ⟨(j 1).val, h1⟩ ⟨(j 2).val, h2⟩ := by
    obtain ⟨-, -, -, -, -, -, -, -, -, -, ⟨e0, e1, e2⟩, -⟩ := idx_facts t
    funext a; apply Fin.ext
    match a with
    | ⟨0, _⟩ => show win0_10.index t (0 : Fin 3) * 1 + 1 * (j 0).val = t.val; omega
    | ⟨1, _⟩ => show win0_10.index t (1 : Fin 3) * 256 + 1 * (j 1).val = (j 1).val; omega
    | ⟨2, _⟩ => show win0_10.index t (2 : Fin 3) * 2048 + 1 * (j 2).val = (j 2).val; omega
  show out0_10 (iblk m c 0 t) (iblk m c 1 t) (iblk m c 2 t) (iblk m c 3 t) (iblk m c 4 t) (iblk m c 5 t) (iblk m c 6 t) (iblk m c 7 t) (iblk m c 8 t) j
    = memOut (argsOf m c) (((cfg0.win 10).blk t).view.emb j)
  exact (congrArg (out0_10 (iblk m c 0 t) (iblk m c 1 t) (iblk m c 2 t) (iblk m c 3 t) (iblk m c 4 t) (iblk m c 5 t) (iblk m c 6 t) (iblk m c 7 t) (iblk m c 8 t)) hj).trans
    ((point10 m c t _ _).trans (congrArg (memOut (argsOf m c)) hemb.symm))

/-- An index of the array is in point `t`'s block iff each coordinate is in the block's range on its axis. -/
theorem mem_blk10 (t : Fin cfg0.N) (i : S128x256x2048.Idx) :
    i ∈ ((cfg0.win 10).blk t).view.set ↔ ∀ a : Fin 3, win0_10.index t a * S1x256x2048.size a ≤ (i a).val ∧ (i a).val < win0_10.index t a * S1x256x2048.size a + S1x256x2048.size a := by
  show i ∈ ((View.whole main_v5_1).slice (win0_10.rect t)).set ↔ _
  rw [View.set_slice_whole, Rect.mem_set_unit]
  exact Iff.rfl

/-- Every index of the array is in the block of the point its batch coordinate names. -/
theorem cover10 (i : S128x256x2048.Idx) : ∃ t : Fin cfg0.N, (cfg0.win 10).flush t = true ∧ i ∈ ((cfg0.win 10).blk t).view.set := by
  have hi0 : (i 0).val < 128 := (i 0).isLt
  have hi1 : (i 1).val < 256 := (i 1).isLt
  have hi2 : (i 2).val < 2048 := (i 2).isLt
  refine ⟨⟨(i 0).val, hi0⟩, flush0_10 _, ?_⟩
  rw [mem_blk10]
  obtain ⟨-, -, -, -, -, -, -, -, -, -, ⟨e0', e1, e2⟩, -⟩ := idx_facts ⟨(i 0).val, hi0⟩
  have e0 : win0_10.index ⟨(i 0).val, hi0⟩ (0 : Fin 3) = (i 0).val := e0'
  intro a
  match a with
  | ⟨0, _⟩ => show win0_10.index ⟨(i 0).val, hi0⟩ (0 : Fin 3) * 1 ≤ (i 0).val ∧ (i 0).val < win0_10.index ⟨(i 0).val, hi0⟩ (0 : Fin 3) * 1 + 1; omega
  | ⟨1, _⟩ => show win0_10.index ⟨(i 0).val, hi0⟩ (1 : Fin 3) * 256 ≤ (i 1).val ∧ (i 1).val < win0_10.index ⟨(i 0).val, hi0⟩ (1 : Fin 3) * 256 + 256; omega
  | ⟨2, _⟩ => show win0_10.index ⟨(i 0).val, hi0⟩ (2 : Fin 3) * 2048 ≤ (i 2).val ∧ (i 2).val < win0_10.index ⟨(i 0).val, hi0⟩ (2 : Fin 3) * 2048 + 2048; omega

/-- The new-memory array after the run. -/
theorem final10 (c : Dev nD) : (dats m 0 c).arrAt 10 cfg0.N = memOut (argsOf m c) :=
  (dats m 0 c).arrAt_eq_of_cover 10 (memOut (argsOf m c)) (fun t _ => flushed10_eq m c t) cover10

/-! ## Output window 11: the read weights -/

theorem point11 (c : Dev nD) (t : Fin cfg0.N) (r : Fin 4) (n : Fin 2048) :
    out0_11 (iblk m c 0 t) (iblk m c 1 t) (iblk m c 2 t) (iblk m c 3 t) (iblk m c 4 t) (iblk m c 5 t) (iblk m c 6 t) (iblk m c 7 t) (iblk m c 8 t) (ix3 (0 : Fin 1) r n)
      = wtOut (argsOf m c) (ix3 (tb t) r n) :=
  (KerRead.out11_apply _ _ _ _ _ _ _ _ _ r n).trans (congrArg (fun I => Spec.rwt I r n) (rowB_eq m c t))

/-- What point `t` writes back is block `t` of the read weights. -/
theorem flushed11_eq (c : Dev nD) (t : Fin cfg0.N) :
    (dats m 0 c).flushed 11 t = ((cfg0.win 11).blk t).view.read (Elt Ideal) (wtOut (argsOf m c)) := by
  rw [Cert.KernelIdeal.Value.flushed11]
  funext j
  have h0 : (j 0).val < 1 := (j 0).isLt
  have h1 : (j 1).val < 4 := (j 1).isLt
  have h2 : (j 2).val < 2048 := (j 2).isLt
  have hj : (j : S1x4x2048.Idx) = ix3 (0 : Fin 1) ⟨(j 1).val, h1⟩ ⟨(j 2).val, h2⟩ := by
    funext a; apply Fin.ext
    match a with
    | ⟨0, _⟩ => show (j 0).val = 0; omega
    | ⟨1, _⟩ => rfl
    | ⟨2, _⟩ => rfl
  have hemb : (((cfg0.win 11).blk t).view.emb j : S128x4x2048.Idx) = ix3 (tb t) ⟨(j 1).val, h1⟩ ⟨(j 2).val, h2⟩ := by
    obtain ⟨-, -, -, -, -, -, -, -, -, -, -, ⟨e0, e1, e2⟩⟩ := idx_facts t
    funext a; apply Fin.ext
    match a with
    | ⟨0, _⟩ => show win0_11.index t (0 : Fin 3) * 1 + 1 * (j 0).val = t.val; omega
    | ⟨1, _⟩ => show win0_11.index t (1 : Fin 3) * 4 + 1 * (j 1).val = (j 1).val; omega
    | ⟨2, _⟩ => show win0_11.index t (2 : Fin 3) * 2048 + 1 * (j 2).val = (j 2).val; omega
  show out0_11 (iblk m c 0 t) (iblk m c 1 t) (iblk m c 2 t) (iblk m c 3 t) (iblk m c 4 t) (iblk m c 5 t) (iblk m c 6 t) (iblk m c 7 t) (iblk m c 8 t) j
    = wtOut (argsOf m c) (((cfg0.win 11).blk t).view.emb j)
  exact (congrArg (out0_11 (iblk m c 0 t) (iblk m c 1 t) (iblk m c 2 t) (iblk m c 3 t) (iblk m c 4 t) (iblk m c 5 t) (iblk m c 6 t) (iblk m c 7 t) (iblk m c 8 t)) hj).trans
    ((point11 m c t _ _).trans (congrArg (wtOut (argsOf m c)) hemb.symm))

/-- An index of the array is in point `t`'s block iff each coordinate is in the block's range on its axis. -/
theorem mem_blk11 (t : Fin cfg0.N) (i : S128x4x2048.Idx) :
    i ∈ ((cfg0.win 11).blk t).view.set ↔ ∀ a : Fin 3, win0_11.index t a * S1x4x2048.size a ≤ (i a).val ∧ (i a).val < win0_11.index t a * S1x4x2048.size a + S1x4x2048.size a := by
  show i ∈ ((View.whole main_v5_2).slice (win0_11.rect t)).set ↔ _
  rw [View.set_slice_whole, Rect.mem_set_unit]
  exact Iff.rfl

/-- Every index of the array is in the block of the point its batch coordinate names. -/
theorem cover11 (i : S128x4x2048.Idx) : ∃ t : Fin cfg0.N, (cfg0.win 11).flush t = true ∧ i ∈ ((cfg0.win 11).blk t).view.set := by
  have hi0 : (i 0).val < 128 := (i 0).isLt
  have hi1 : (i 1).val < 4 := (i 1).isLt
  have hi2 : (i 2).val < 2048 := (i 2).isLt
  refine ⟨⟨(i 0).val, hi0⟩, flush0_11 _, ?_⟩
  rw [mem_blk11]
  obtain ⟨-, -, -, -, -, -, -, -, -, -, -, ⟨e0', e1, e2⟩⟩ := idx_facts ⟨(i 0).val, hi0⟩
  have e0 : win0_11.index ⟨(i 0).val, hi0⟩ (0 : Fin 3) = (i 0).val := e0'
  intro a
  match a with
  | ⟨0, _⟩ => show win0_11.index ⟨(i 0).val, hi0⟩ (0 : Fin 3) * 1 ≤ (i 0).val ∧ (i 0).val < win0_11.index ⟨(i 0).val, hi0⟩ (0 : Fin 3) * 1 + 1; omega
  | ⟨1, _⟩ => show win0_11.index ⟨(i 0).val, hi0⟩ (1 : Fin 3) * 4 ≤ (i 1).val ∧ (i 1).val < win0_11.index ⟨(i 0).val, hi0⟩ (1 : Fin 3) * 4 + 4; omega
  | ⟨2, _⟩ => show win0_11.index ⟨(i 0).val, hi0⟩ (2 : Fin 3) * 2048 ≤ (i 2).val ∧ (i 2).val < win0_11.index ⟨(i 0).val, hi0⟩ (2 : Fin 3) * 2048 + 2048; omega

/-- The read-weight array after the run. -/
theorem final11 (c : Dev nD) : (dats m 0 c).arrAt 11 cfg0.N = wtOut (argsOf m c) :=
  (dats m 0 c).arrAt_eq_of_cover 11 (wtOut (argsOf m c)) (fun t _ => flushed11_eq m c t) cover11

/-! ## The kernel's run -/

/-- Every weakly fair execution of the kernel ends with the three result arrays at the read vectors, the new memory
    and the read weights of the arguments, batch row by batch row, and the arguments unchanged. -/
theorem run : θ_run defs (onTc (τ := τ) (main (F := Ideal))) ⟨m, fun _ => 0, ρ⟩ fun r => ∀ c : Dev nD,
      r.2.mem ((c : Thread nD τ).loc main_v5_0) = readOut (argsOf m c)
      ∧ r.2.mem ((c : Thread nD τ).loc main_v5_1) = memOut (argsOf m c)
      ∧ r.2.mem ((c : Thread nD τ).loc main_v5_2) = wtOut (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2.1.trans (final11 m c), (h c).2.2.2⟩)
    (Cert.KernelIdeal.Value.run_blocks m ρ)

end Cert.KerValue

end
-- ==== Proof.RefStages.lean ====
/- The reference program, one value at a time: each host operation of its @main (the operations of an outlined
  function standing where it is called) as a definition over the argument arrays and the values before it, in
  program order; each definition's comment is the operation it transcribes.  `v90`, `v67` and `v89` are the three
  results: the read vectors, the new memory and the read weights.  Nothing is proved here; the run of the program
  ends with its results at these terms, and they are read index by index against these names.
-/
import proofs.«175705_j61950608278069_1_alg».proof.Proof.Gen.ReferenceIdeal
import proofs.«175705_j61950608278069_1_alg».proof.Proof.Rows

noncomputable section

namespace Cert.RefValue

open Cert.ReferenceIdeal Cert.ReferenceIdeal.Gen Idealize.ShloMosaic Cert.Rows

/-- %0 = stablehlo.reshape %arg0 : (tensor<128x1024xf32>) -> tensor<128x4x256xf32> -/
def v0 (A : Args) := shapeCast _ A.a0 shapeCasts_S128x1024_S128x4x256
/-- %1 = stablehlo.tanh %0 : tensor<128x4x256xf32> -/
def v1 (A : Args) := Host.tanh (v0 A)
/-- %2 = stablehlo.reshape %arg1 : (tensor<128x256xf32>) -> tensor<128x1x256xf32> -/
def v2 (A : Args) := shapeCast _ A.a1 shapeCasts_S128x256_S128x1x256
/-- %3 = stablehlo.tanh %2 : tensor<128x1x256xf32> -/
def v3 (A : Args) := Host.tanh (v2 A)
/-- %4 = stablehlo.reshape %arg2 : (tensor<128x256xf32>) -> tensor<128x1x256xf32> -/
def v4 (A : Args) := shapeCast _ A.a2 shapeCasts_S128x256_S128x1x256
/-- %cst = stablehlo.constant dense<0xFF800000> : tensor<f32> -/
def cst (A : Args) := constant (F := Ideal) S_ .f32 0xFF800000#32
/-- %5 = stablehlo.reduce(%4 init: %cst) applies stablehlo.maximum across dimensions = [2] : (tensor<128x1x256xf32>, tensor<f32>) -> tensor<128x1xf32> { -/
def v5 (A : Args) := Host.reduce FloatOps.maximumf (v4 A) (cst A) reducesTo_S128x1x256_S128x1_d2 h_S_
/-- %cst_0 = stablehlo.constant dense<0xFF800000> : tensor<f32> -/
def cst_0 (A : Args) := constant (F := Ideal) S_ .f32 0xFF800000#32
/-- %6 = stablehlo.broadcast_in_dim %cst_0, dims = [] : (tensor<f32>) -> tensor<128x1xf32> -/
def v6 (A : Args) := broadcastInDim S128x1 ![] bcast_S_S128x1 (cst_0 A)
/-- %7 = stablehlo.maximum %6, %5 : tensor<128x1xf32> -/
def v7 (A : Args) := maximumf (v6 A) (v5 A)
/-- %8 = stablehlo.broadcast_in_dim %7, dims = [0, 1] : (tensor<128x1xf32>) -> tensor<128x1x1xf32> -/
def v8 (A : Args) := broadcastInDim S128x1x1 ![0, 1] bcast_S128x1_S128x1x1_0_1 (v7 A)
/-- %9 = stablehlo.broadcast_in_dim %8, dims = [0, 1, 2] : (tensor<128x1x1xf32>) -> tensor<128x1x256xf32> -/
def v9 (A : Args) := broadcastInDim S128x1x256 ![0, 1, 2] bcast_S128x1x1_S128x1x256_0_1_2 (v8 A)
/-- %10 = stablehlo.subtract %4, %9 : tensor<128x1x256xf32> -/
def v10 (A : Args) := subf (v4 A) (v9 A)
/-- %11 = stablehlo.exponential %10 : tensor<128x1x256xf32> -/
def v11 (A : Args) := Host.exp (v10 A)
/-- %cst_1 = stablehlo.constant dense<0.000000e+00> : tensor<f32> -/
def cst_1 (A : Args) := constant (F := Ideal) S_ .f32 0x00000000#32
/-- %12 = stablehlo.reduce(%11 init: %cst_1) applies stablehlo.add across dimensions = [2] : (tensor<128x1x256xf32>, tensor<f32>) -> tensor<128x1xf32> { -/
def v12 (A : Args) := Host.reduceAdd (v11 A) (cst_1 A) reducesTo_S128x1x256_S128x1_d2 h_S_
/-- %13 = stablehlo.broadcast_in_dim %12, dims = [0, 1] : (tensor<128x1xf32>) -> tensor<128x1x1xf32> -/
def v13 (A : Args) := broadcastInDim S128x1x1 ![0, 1] bcast_S128x1_S128x1x1_0_1 (v12 A)
/-- %14 = stablehlo.broadcast_in_dim %13, dims = [0, 1, 2] : (tensor<128x1x1xf32>) -> tensor<128x1x256xf32> -/
def v14 (A : Args) := broadcastInDim S128x1x256 ![0, 1, 2] bcast_S128x1x1_S128x1x256_0_1_2 (v13 A)
/-- %15 = stablehlo.divide %11, %14 : tensor<128x1x256xf32> -/
def v15 (A : Args) := Host.divf (v11 A) (v14 A)
/-- %16 = stablehlo.concatenate %3, %arg3, dim = 2 : (tensor<128x1x256xf32>, tensor<128x1x256xf32>) -> tensor<128x1x512xf32> -/
def v16 (A : Args) := concatenate S128x1x512 2 [⟨S128x1x256, (v3 A)⟩, ⟨S128x1x256, A.a3⟩] concatenates_S128x1x256_S128x1x256_S128x1x512_d2
/-- %17 = stablehlo.dot_general %16, %arg5, contracting_dims = [2] x [1], precision = [DEFAULT, DEFAULT] : (tensor<128x1x512xf32>, tensor<1x512xf32>) -> tensor<128x1x1xf32> -/
def v17 (A : Args) := Host.dotGeneral dot_S128x1x512_S1x512_S128x1x1_2_1_01_0_n_n none (v16 A) A.a5
/-- %18 = stablehlo.broadcast_in_dim %arg6, dims = [2] : (tensor<1xf32>) -> tensor<1x1x1xf32> -/
def v18 (A : Args) := broadcastInDim S1x1x1 ![2] bcast_S1_S1x1x1_2 A.a6
/-- %19 = stablehlo.broadcast_in_dim %18, dims = [0, 1, 2] : (tensor<1x1x1xf32>) -> tensor<128x1x1xf32> -/
def v19 (A : Args) := broadcastInDim S128x1x1 ![0, 1, 2] bcast_S1x1x1_S128x1x1_0_1_2 (v18 A)
/-- %20 = stablehlo.add %17, %19 : tensor<128x1x1xf32> -/
def v20 (A : Args) := addf (v17 A) (v19 A)
/-- %21 = stablehlo.negate %20 : tensor<128x1x1xf32> -/
def v21 (A : Args) := Host.negf (v20 A)
/-- %22 = stablehlo.exponential %21 : tensor<128x1x1xf32> -/
def v22 (A : Args) := Host.exp (v21 A)
/-- %cst_2 = stablehlo.constant dense<1.000000e+00> : tensor<f32> -/
def cst_2 (A : Args) := constant (F := Ideal) S_ .f32 0x3F800000#32
/-- %23 = stablehlo.broadcast_in_dim %cst_2, dims = [] : (tensor<f32>) -> tensor<128x1x1xf32> -/
def v23 (A : Args) := broadcastInDim S128x1x1 ![] bcast_S_S128x1x1 (cst_2 A)
/-- %24 = stablehlo.add %23, %22 : tensor<128x1x1xf32> -/
def v24 (A : Args) := addf (v23 A) (v22 A)
/-- %cst_3 = stablehlo.constant dense<1.000000e+00> : tensor<f32> -/
def cst_3 (A : Args) := constant (F := Ideal) S_ .f32 0x3F800000#32
/-- %25 = stablehlo.broadcast_in_dim %cst_3, dims = [] : (tensor<f32>) -> tensor<128x1x1xf32> -/
def v25 (A : Args) := broadcastInDim S128x1x1 ![] bcast_S_S128x1x1 (cst_3 A)
/-- %26 = stablehlo.divide %25, %24 : tensor<128x1x1xf32> -/
def v26 (A : Args) := Host.divf (v25 A) (v24 A)
/-- %27 = stablehlo.broadcast_in_dim %26, dims = [0, 1, 2] : (tensor<128x1x1xf32>) -> tensor<128x1x256xf32> -/
def v27 (A : Args) := broadcastInDim S128x1x256 ![0, 1, 2] bcast_S128x1x1_S128x1x256_0_1_2 (v26 A)
/-- %28 = stablehlo.multiply %27, %3 : tensor<128x1x256xf32> -/
def v28 (A : Args) := mulf (v27 A) (v3 A)
/-- %cst_4 = stablehlo.constant dense<1.000000e+00> : tensor<f32> -/
def cst_4 (A : Args) := constant (F := Ideal) S_ .f32 0x3F800000#32
/-- %29 = stablehlo.broadcast_in_dim %cst_4, dims = [] : (tensor<f32>) -> tensor<128x1x1xf32> -/
def v29 (A : Args) := broadcastInDim S128x1x1 ![] bcast_S_S128x1x1 (cst_4 A)
/-- %30 = stablehlo.subtract %29, %26 : tensor<128x1x1xf32> -/
def v30 (A : Args) := subf (v29 A) (v26 A)
/-- %31 = stablehlo.broadcast_in_dim %30, dims = [0, 1, 2] : (tensor<128x1x1xf32>) -> tensor<128x1x256xf32> -/
def v31 (A : Args) := broadcastInDim S128x1x256 ![0, 1, 2] bcast_S128x1x1_S128x1x256_0_1_2 (v30 A)
/-- %32 = stablehlo.multiply %31, %arg3 : tensor<128x1x256xf32> -/
def v32 (A : Args) := mulf (v31 A) A.a3
/-- %33 = stablehlo.concatenate %28, %32, dim = 2 : (tensor<128x1x256xf32>, tensor<128x1x256xf32>) -> tensor<128x1x512xf32> -/
def v33 (A : Args) := concatenate S128x1x512 2 [⟨S128x1x256, (v28 A)⟩, ⟨S128x1x256, (v32 A)⟩] concatenates_S128x1x256_S128x1x256_S128x1x512_d2
/-- %34 = stablehlo.dot_general %33, %arg7, contracting_dims = [2] x [1], precision = [DEFAULT, DEFAULT] : (tensor<128x1x512xf32>, tensor<256x512xf32>) -> tensor<128x1x256xf32> -/
def v34 (A : Args) := Host.dotGeneral dot_S128x1x512_S256x512_S128x1x256_2_1_01_0_n_n none (v33 A) A.a7
/-- %35 = stablehlo.broadcast_in_dim %arg8, dims = [2] : (tensor<256xf32>) -> tensor<1x1x256xf32> -/
def v35 (A : Args) := broadcastInDim S1x1x256 ![2] bcast_S256_S1x1x256_2 A.a8
/-- %36 = stablehlo.broadcast_in_dim %35, dims = [0, 1, 2] : (tensor<1x1x256xf32>) -> tensor<128x1x256xf32> -/
def v36 (A : Args) := broadcastInDim S128x1x256 ![0, 1, 2] bcast_S1x1x256_S128x1x256_0_1_2 (v35 A)
/-- %37 = stablehlo.add %34, %36 : tensor<128x1x256xf32> -/
def v37 (A : Args) := addf (v34 A) (v36 A)
/-- 0 -/
def call0_cst (A : Args) := constant (F := Ideal) S_ .f32 0x00000000#32
/-- zeros -/
def call0_v0 (A : Args) := broadcastInDim S128x1x256 ![] bcast_S_S128x1x256 (call0_cst A)
/-- relu -/
def v38 (A : Args) := maximumf (v37 A) (call0_v0 A)
/-- x·x -/
def call1_v0 (A : Args) := mulf (v38 A) (v38 A)
/-- 0 -/
def call1_cst (A : Args) := constant (F := Ideal) S_ .f32 0x00000000#32
/-- sum of squares -/
def call1_v1 (A : Args) := Host.reduceAdd (call1_v0 A) (call1_cst A) reducesTo_S128x1x256_S128x1_d2 h_S_
/-- keepdims -/
def call1_v2 (A : Args) := broadcastInDim S128x1x1 ![0, 1] bcast_S128x1_S128x1x1_0_1 (call1_v1 A)
/-- length -/
def v39 (A : Args) := Host.sqrt (call1_v2 A)
/-- %cst_5 = stablehlo.constant dense<9.99999993E-9> : tensor<f32> -/
def cst_5 (A : Args) := constant (F := Ideal) S_ .f32 0x322BCC77#32
/-- %40 = stablehlo.broadcast_in_dim %cst_5, dims = [] : (tensor<f32>) -> tensor<128x1x1xf32> -/
def v40 (A : Args) := broadcastInDim S128x1x1 ![] bcast_S_S128x1x1 (cst_5 A)
/-- %41 = stablehlo.add %39, %40 : tensor<128x1x1xf32> -/
def v41 (A : Args) := addf (v39 A) (v40 A)
/-- %42 = stablehlo.broadcast_in_dim %41, dims = [0, 1, 2] : (tensor<128x1x1xf32>) -> tensor<128x1x256xf32> -/
def v42 (A : Args) := broadcastInDim S128x1x256 ![0, 1, 2] bcast_S128x1x1_S128x1x256_0_1_2 (v41 A)
/-- %43 = stablehlo.divide %38, %42 : tensor<128x1x256xf32> -/
def v43 (A : Args) := Host.divf (v38 A) (v42 A)
/-- x·x -/
def call2_v0 (A : Args) := mulf A.a4 A.a4
/-- 0 -/
def call2_cst (A : Args) := constant (F := Ideal) S_ .f32 0x00000000#32
/-- sum of squares -/
def call2_v1 (A : Args) := Host.reduceAdd (call2_v0 A) (call2_cst A) reducesTo_S128x256x2048_S128x2048_d1 h_S_
/-- keepdims -/
def call2_v2 (A : Args) := broadcastInDim S128x1x2048 ![0, 2] bcast_S128x2048_S128x1x2048_0_2 (call2_v1 A)
/-- length -/
def v44 (A : Args) := Host.sqrt (call2_v2 A)
/-- %cst_6 = stablehlo.constant dense<9.99999993E-9> : tensor<f32> -/
def cst_6 (A : Args) := constant (F := Ideal) S_ .f32 0x322BCC77#32
/-- %45 = stablehlo.broadcast_in_dim %cst_6, dims = [] : (tensor<f32>) -> tensor<128x1x2048xf32> -/
def v45 (A : Args) := broadcastInDim S128x1x2048 ![] bcast_S_S128x1x2048 (cst_6 A)
/-- %46 = stablehlo.add %44, %45 : tensor<128x1x2048xf32> -/
def v46 (A : Args) := addf (v44 A) (v45 A)
/-- %47 = stablehlo.broadcast_in_dim %46, dims = [0, 1, 2] : (tensor<128x1x2048xf32>) -> tensor<128x256x2048xf32> -/
def v47 (A : Args) := broadcastInDim S128x256x2048 ![0, 1, 2] bcast_S128x1x2048_S128x256x2048_0_1_2 (v46 A)
/-- %48 = stablehlo.divide %arg4, %47 : tensor<128x256x2048xf32> -/
def v48 (A : Args) := Host.divf A.a4 (v47 A)
/-- %49 = stablehlo.dot_general %43, %48, batching_dims = [0] x [0], contracting_dims = [2] x [1], precision = [DEFAULT, DEFAULT] : (tensor<128x1x256xf32>, tensor<128x256x2048xf32>) -> tensor<128x1x2048xf32> -/
def v49 (A : Args) := Host.dotGeneral dot_S128x1x256_S128x256x2048_S128x1x2048_2_1_1_2_0_0 none (v43 A) (v48 A)
/-- %50 = stablehlo.negate %49 : tensor<128x1x2048xf32> -/
def v50 (A : Args) := Host.negf (v49 A)
/-- %cst_7 = stablehlo.constant dense<0xFF800000> : tensor<f32> -/
def cst_7 (A : Args) := constant (F := Ideal) S_ .f32 0xFF800000#32
/-- %51 = stablehlo.reduce(%50 init: %cst_7) applies stablehlo.maximum across dimensions = [2] : (tensor<128x1x2048xf32>, tensor<f32>) -> tensor<128x1xf32> { -/
def v51 (A : Args) := Host.reduce FloatOps.maximumf (v50 A) (cst_7 A) reducesTo_S128x1x2048_S128x1_d2 h_S_
/-- %cst_8 = stablehlo.constant dense<0xFF800000> : tensor<f32> -/
def cst_8 (A : Args) := constant (F := Ideal) S_ .f32 0xFF800000#32
/-- %52 = stablehlo.broadcast_in_dim %cst_8, dims = [] : (tensor<f32>) -> tensor<128x1xf32> -/
def v52 (A : Args) := broadcastInDim S128x1 ![] bcast_S_S128x1 (cst_8 A)
/-- %53 = stablehlo.maximum %52, %51 : tensor<128x1xf32> -/
def v53 (A : Args) := maximumf (v52 A) (v51 A)
/-- %54 = stablehlo.broadcast_in_dim %53, dims = [0, 1] : (tensor<128x1xf32>) -> tensor<128x1x1xf32> -/
def v54 (A : Args) := broadcastInDim S128x1x1 ![0, 1] bcast_S128x1_S128x1x1_0_1 (v53 A)
/-- %55 = stablehlo.broadcast_in_dim %54, dims = [0, 1, 2] : (tensor<128x1x1xf32>) -> tensor<128x1x2048xf32> -/
def v55 (A : Args) := broadcastInDim S128x1x2048 ![0, 1, 2] bcast_S128x1x1_S128x1x2048_0_1_2 (v54 A)
/-- %56 = stablehlo.subtract %50, %55 : tensor<128x1x2048xf32> -/
def v56 (A : Args) := subf (v50 A) (v55 A)
/-- %57 = stablehlo.exponential %56 : tensor<128x1x2048xf32> -/
def v57 (A : Args) := Host.exp (v56 A)
/-- %cst_9 = stablehlo.constant dense<0.000000e+00> : tensor<f32> -/
def cst_9 (A : Args) := constant (F := Ideal) S_ .f32 0x00000000#32
/-- %58 = stablehlo.reduce(%57 init: %cst_9) applies stablehlo.add across dimensions = [2] : (tensor<128x1x2048xf32>, tensor<f32>) -> tensor<128x1xf32> { -/
def v58 (A : Args) := Host.reduceAdd (v57 A) (cst_9 A) reducesTo_S128x1x2048_S128x1_d2 h_S_
/-- %59 = stablehlo.broadcast_in_dim %58, dims = [0, 1] : (tensor<128x1xf32>) -> tensor<128x1x1xf32> -/
def v59 (A : Args) := broadcastInDim S128x1x1 ![0, 1] bcast_S128x1_S128x1x1_0_1 (v58 A)
/-- %60 = stablehlo.broadcast_in_dim %59, dims = [0, 1, 2] : (tensor<128x1x1xf32>) -> tensor<128x1x2048xf32> -/
def v60 (A : Args) := broadcastInDim S128x1x2048 ![0, 1, 2] bcast_S128x1x1_S128x1x2048_0_1_2 (v59 A)
/-- %61 = stablehlo.divide %57, %60 : tensor<128x1x2048xf32> -/
def v61 (A : Args) := Host.divf (v57 A) (v60 A)
/-- %62 = stablehlo.dot_general %15, %61, batching_dims = [0] x [0], contracting_dims = [1] x [1], precision = [DEFAULT, DEFAULT] : (tensor<128x1x256xf32>, tensor<128x1x2048xf32>) -> tensor<128x256x2048xf32> -/
def v62 (A : Args) := Host.dotGeneral dot_S128x1x256_S128x1x2048_S128x256x2048_1_1_2_2_0_0 none (v15 A) (v61 A)
/-- %cst_10 = stablehlo.constant dense<1.000000e+00> : tensor<f32> -/
def cst_10 (A : Args) := constant (F := Ideal) S_ .f32 0x3F800000#32
/-- %63 = stablehlo.broadcast_in_dim %cst_10, dims = [] : (tensor<f32>) -> tensor<128x256x2048xf32> -/
def v63 (A : Args) := broadcastInDim S128x256x2048 ![] bcast_S_S128x256x2048 (cst_10 A)
/-- %64 = stablehlo.subtract %63, %62 : tensor<128x256x2048xf32> -/
def v64 (A : Args) := subf (v63 A) (v62 A)
/-- %65 = stablehlo.multiply %arg4, %64 : tensor<128x256x2048xf32> -/
def v65 (A : Args) := mulf A.a4 (v64 A)
/-- %66 = stablehlo.dot_general %3, %61, batching_dims = [0] x [0], contracting_dims = [1] x [1], precision = [DEFAULT, DEFAULT] : (tensor<128x1x256xf32>, tensor<128x1x2048xf32>) -> tensor<128x256x2048xf32> -/
def v66 (A : Args) := Host.dotGeneral dot_S128x1x256_S128x1x2048_S128x256x2048_1_1_2_2_0_0 none (v3 A) (v61 A)
/-- %67 = stablehlo.add %65, %66 : tensor<128x256x2048xf32> -/
def v67 (A : Args) := addf (v65 A) (v66 A)
/-- x·x -/
def call3_v0 (A : Args) := mulf (v1 A) (v1 A)
/-- 0 -/
def call3_cst (A : Args) := constant (F := Ideal) S_ .f32 0x00000000#32
/-- sum of squares -/
def call3_v1 (A : Args) := Host.reduceAdd (call3_v0 A) (call3_cst A) reducesTo_S128x4x256_S128x4_d2 h_S_
/-- keepdims -/
def call3_v2 (A : Args) := broadcastInDim S128x4x1 ![0, 1] bcast_S128x4_S128x4x1_0_1 (call3_v1 A)
/-- length -/
def v68 (A : Args) := Host.sqrt (call3_v2 A)
/-- %cst_11 = stablehlo.constant dense<9.99999993E-9> : tensor<f32> -/
def cst_11 (A : Args) := constant (F := Ideal) S_ .f32 0x322BCC77#32
/-- %69 = stablehlo.broadcast_in_dim %cst_11, dims = [] : (tensor<f32>) -> tensor<128x4x1xf32> -/
def v69 (A : Args) := broadcastInDim S128x4x1 ![] bcast_S_S128x4x1 (cst_11 A)
/-- %70 = stablehlo.add %68, %69 : tensor<128x4x1xf32> -/
def v70 (A : Args) := addf (v68 A) (v69 A)
/-- %71 = stablehlo.broadcast_in_dim %70, dims = [0, 1, 2] : (tensor<128x4x1xf32>) -> tensor<128x4x256xf32> -/
def v71 (A : Args) := broadcastInDim S128x4x256 ![0, 1, 2] bcast_S128x4x1_S128x4x256_0_1_2 (v70 A)
/-- %72 = stablehlo.divide %1, %71 : tensor<128x4x256xf32> -/
def v72 (A : Args) := Host.divf (v1 A) (v71 A)
/-- x·x -/
def call4_v0 (A : Args) := mulf (v67 A) (v67 A)
/-- 0 -/
def call4_cst (A : Args) := constant (F := Ideal) S_ .f32 0x00000000#32
/-- sum of squares -/
def call4_v1 (A : Args) := Host.reduceAdd (call4_v0 A) (call4_cst A) reducesTo_S128x256x2048_S128x2048_d1 h_S_
/-- keepdims -/
def call4_v2 (A : Args) := broadcastInDim S128x1x2048 ![0, 2] bcast_S128x2048_S128x1x2048_0_2 (call4_v1 A)
/-- length -/
def v73 (A : Args) := Host.sqrt (call4_v2 A)
/-- %cst_12 = stablehlo.constant dense<9.99999993E-9> : tensor<f32> -/
def cst_12 (A : Args) := constant (F := Ideal) S_ .f32 0x322BCC77#32
/-- %74 = stablehlo.broadcast_in_dim %cst_12, dims = [] : (tensor<f32>) -> tensor<128x1x2048xf32> -/
def v74 (A : Args) := broadcastInDim S128x1x2048 ![] bcast_S_S128x1x2048 (cst_12 A)
/-- %75 = stablehlo.add %73, %74 : tensor<128x1x2048xf32> -/
def v75 (A : Args) := addf (v73 A) (v74 A)
/-- %76 = stablehlo.broadcast_in_dim %75, dims = [0, 1, 2] : (tensor<128x1x2048xf32>) -> tensor<128x256x2048xf32> -/
def v76 (A : Args) := broadcastInDim S128x256x2048 ![0, 1, 2] bcast_S128x1x2048_S128x256x2048_0_1_2 (v75 A)
/-- %77 = stablehlo.divide %67, %76 : tensor<128x256x2048xf32> -/
def v77 (A : Args) := Host.divf (v67 A) (v76 A)
/-- %78 = stablehlo.dot_general %72, %77, batching_dims = [0] x [0], contracting_dims = [2] x [1], precision = [DEFAULT, DEFAULT] : (tensor<128x4x256xf32>, tensor<128x256x2048xf32>) -> tensor<128x4x2048xf32> -/
def v78 (A : Args) := Host.dotGeneral dot_S128x4x256_S128x256x2048_S128x4x2048_2_1_1_2_0_0 none (v72 A) (v77 A)
/-- %cst_13 = stablehlo.constant dense<0xFF800000> : tensor<f32> -/
def cst_13 (A : Args) := constant (F := Ideal) S_ .f32 0xFF800000#32
/-- %79 = stablehlo.reduce(%78 init: %cst_13) applies stablehlo.maximum across dimensions = [2] : (tensor<128x4x2048xf32>, tensor<f32>) -> tensor<128x4xf32> { -/
def v79 (A : Args) := Host.reduce FloatOps.maximumf (v78 A) (cst_13 A) reducesTo_S128x4x2048_S128x4_d2 h_S_
/-- %cst_14 = stablehlo.constant dense<0xFF800000> : tensor<f32> -/
def cst_14 (A : Args) := constant (F := Ideal) S_ .f32 0xFF800000#32
/-- %80 = stablehlo.broadcast_in_dim %cst_14, dims = [] : (tensor<f32>) -> tensor<128x4xf32> -/
def v80 (A : Args) := broadcastInDim S128x4 ![] bcast_S_S128x4 (cst_14 A)
/-- %81 = stablehlo.maximum %80, %79 : tensor<128x4xf32> -/
def v81 (A : Args) := maximumf (v80 A) (v79 A)
/-- %82 = stablehlo.broadcast_in_dim %81, dims = [0, 1] : (tensor<128x4xf32>) -> tensor<128x4x1xf32> -/
def v82 (A : Args) := broadcastInDim S128x4x1 ![0, 1] bcast_S128x4_S128x4x1_0_1 (v81 A)
/-- %83 = stablehlo.broadcast_in_dim %82, dims = [0, 1, 2] : (tensor<128x4x1xf32>) -> tensor<128x4x2048xf32> -/
def v83 (A : Args) := broadcastInDim S128x4x2048 ![0, 1, 2] bcast_S128x4x1_S128x4x2048_0_1_2 (v82 A)
/-- %84 = stablehlo.subtract %78, %83 : tensor<128x4x2048xf32> -/
def v84 (A : Args) := subf (v78 A) (v83 A)
/-- %85 = stablehlo.exponential %84 : tensor<128x4x2048xf32> -/
def v85 (A : Args) := Host.exp (v84 A)
/-- %cst_15 = stablehlo.constant dense<0.000000e+00> : tensor<f32> -/
def cst_15 (A : Args) := constant (F := Ideal) S_ .f32 0x00000000#32
/-- %86 = stablehlo.reduce(%85 init: %cst_15) applies stablehlo.add across dimensions = [2] : (tensor<128x4x2048xf32>, tensor<f32>) -> tensor<128x4xf32> { -/
def v86 (A : Args) := Host.reduceAdd (v85 A) (cst_15 A) reducesTo_S128x4x2048_S128x4_d2 h_S_
/-- %87 = stablehlo.broadcast_in_dim %86, dims = [0, 1] : (tensor<128x4xf32>) -> tensor<128x4x1xf32> -/
def v87 (A : Args) := broadcastInDim S128x4x1 ![0, 1] bcast_S128x4_S128x4x1_0_1 (v86 A)
/-- %88 = stablehlo.broadcast_in_dim %87, dims = [0, 1, 2] : (tensor<128x4x1xf32>) -> tensor<128x4x2048xf32> -/
def v88 (A : Args) := broadcastInDim S128x4x2048 ![0, 1, 2] bcast_S128x4x1_S128x4x2048_0_1_2 (v87 A)
/-- %89 = stablehlo.divide %85, %88 : tensor<128x4x2048xf32> -/
def v89 (A : Args) := Host.divf (v85 A) (v88 A)
/-- %90 = stablehlo.dot_general %89, %67, batching_dims = [0] x [0], contracting_dims = [2] x [2], precision = [DEFAULT, DEFAULT] : (tensor<128x4x2048xf32>, tensor<128x256x2048xf32>) -> tensor<128x4x256xf32> -/
def v90 (A : Args) := Host.dotGeneral dot_S128x4x2048_S128x256x2048_S128x4x256_2_2_1_1_0_0 none (v89 A) (v67 A)

end Cert.RefValue

end
-- ==== Proof.RefLink.lean ====
/-
  The two namings of the reference's values agree: the stage `vN` of the argument record (RefStages) and the stage
  `val_main_vN` of the argument arrays it depends on (the read lemmas' naming) are the same composition of the
  same host operations, so each pair unfolds to one term.
-/
import proofs.«175705_j61950608278069_1_alg».proof.Proof.RefStages
import proofs.«175705_j61950608278069_1_alg».proof.Proof.RefReadPatched

noncomputable section

namespace Cert.RefLink

open Idealize.ShloMosaic Cert.ReferenceIdeal Cert.ReferenceIdeal.Read Cert.Rows

theorem v67_eq (A : Args) : Cert.RefValue.v67 A = val_main_v67 (F := Ideal) A.a1 A.a2 A.a3 A.a4 A.a5 A.a6 A.a7 A.a8 := rfl

theorem v89_eq (A : Args) : Cert.RefValue.v89 A = val_main_v89 (F := Ideal) A.a0 A.a1 A.a2 A.a3 A.a4 A.a5 A.a6 A.a7 A.a8 := rfl

theorem v90_eq (A : Args) : Cert.RefValue.v90 A = val_main_v90 (F := Ideal) A.a0 A.a1 A.a2 A.a3 A.a4 A.a5 A.a6 A.a7 A.a8 := rfl

end Cert.RefLink

end
-- ==== Proof.RefBridgeLib.lean ====
/-
  Reading aids for the reference program's arrays at an index.

  Three kinds of statement.  (1) Where an element of a reduced or joined array comes from: the maximum over the
  last axis of a rank-3 array at (p, q) is the fold of max over the entries (p, q, k); two arrays of 256 entries
  joined end to end read the first below 256 and the second from 256 on.  (2) The row functions of `Spec` from
  their parts: a quotient of exponentials over their sum is the softmax once the subtracted number is the row
  maximum, and the square root of a sum of squares plus ε is the length, the sums starting from the word 0.
  (3) Nothing else: no distributivity, no reassociation.
-/
import proofs.«175705_j61950608278069_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.RefBridge

open Idealize.ShloMosaic Idealize.ShloMosaic.ValueIdx

/-- Two indices are equal when their coordinates are: the coordinates of an index written by cases on the axis
    compute. -/
macro "idx_eq" : tactic => `(tactic| (funext a; apply Fin.ext; fin_cases a <;> rfl))

/-- The reduced index (p, q) of a rank-3 array with the coordinate k put back on the last axis is (p, q, k). -/
theorem lift_last3 {a b n : ℕ} (h : (⟨3, ![a, b, n]⟩ : Shape).Reduces [2] ⟨2, ![a, b]⟩) (p : Fin a) (q : Fin b)
    (k : Fin ((⟨3, ![a, b, n]⟩ : Shape).size 2)) : h.lift (ix2 p q) k = ix3 p q (⟨k.val, k.isLt⟩ : Fin n) := by
  funext c; apply Fin.ext
  fin_cases c <;> rfl

/-- A maximum taken over the last axis of a rank-3 array, at (p, q): the fold of max, from the initial value, over
    the entries (p, q, k). -/
theorem hostMax_last3 {a b n : ℕ} (x : FVec Ideal ⟨3, ![a, b, n]⟩ .f32) (init : FVec Ideal ⟨0, ![]⟩ .f32)
    (h' : (⟨3, ![a, b, n]⟩ : Shape).ReducesTo [2] ⟨2, ![a, b]⟩) (h : (⟨3, ![a, b, n]⟩ : Shape).Reduces [2] ⟨2, ![a, b]⟩)
    (hu : 0 < (⟨0, ![]⟩ : Shape).numel) (p : Fin a) (q : Fin b) :
    Host.reduce FloatOps.maximumf x init h' hu (ix2 p q)
      = (Finset.univ : Finset (Fin n)).fold max (init (Shape.Idx.first hu)) (fun k => x (ix3 p q k)) := by
  rw [Host.reduce_eq_fold_single FloatOps.maximumf x _ h' h hu]
  have hf : (x ∘ h.lift (ix2 p q)) = fun k : Fin n => x (ix3 p q k) :=
    funext fun k => congrArg x (lift_last3 h p q k)
  exact congrArg (fun f => Finset.fold max (init (Shape.Idx.first hu)) f (Finset.univ : Finset (Fin n))) hf

/-- Two [128, 1, 256] arrays joined along the last axis, at (b, 0, k): the first at k below 256, the second at
    k - 256 from 256 on. -/
theorem concat_apply (x y : FVec Ideal ⟨3, ![128, 1, 256]⟩ .f32)
    (h : Shape.Concatenates [(⟨3, ![128, 1, 256]⟩ : Shape), ⟨3, ![128, 1, 256]⟩] ⟨3, ![128, 1, 512]⟩ 2)
    (b : Fin 128) (k : Fin 512) :
    concatenate ⟨3, ![128, 1, 512]⟩ 2 [⟨⟨3, ![128, 1, 256]⟩, x⟩, ⟨⟨3, ![128, 1, 256]⟩, y⟩] h (ix3 b (0 : Fin 1) k)
      = Spec.cat (fun w => x (ix3 b (0 : Fin 1) w)) (fun w => y (ix3 b (0 : Fin 1) w)) k := by
  unfold Spec.cat
  split
  · next hk =>
    exact concatenate_pair_apply_left 2 x y h (ix3 b (0 : Fin 1) k) rfl (ix3 b (0 : Fin 1) ⟨k.val, hk⟩)
      (fun c => by fin_cases c <;> rfl)
  · next hk =>
    exact concatenate_pair_apply_right 2 x y h (ix3 b (0 : Fin 1) k) rfl rfl
      (ix3 b (0 : Fin 1) ⟨k.val - 256, by have := k.isLt; omega⟩)
      (fun c hc => by fin_cases c <;> first | rfl | exact absurd rfl hc)
      (by show (k.val - 256) + 256 = k.val; omega)

/-- Exponentials of a row less a number m, over their sum taken from the word 0: the softmax of the row, once m is
    the row's maximum. -/
theorem softmax_of_parts {n : ℕ} (x e : Fin n → EReal) (m s : EReal) (hm : m = Spec.rowMax x)
    (he : ∀ k, e k = Ideal.exp (x k - m)) (hs : s = Spec.zero + ∑ k : Fin n, e k) (j : Fin n) :
    Ideal.div (e j) s = Spec.softmax x j := by
  have he' : e = fun k => Ideal.exp (x k - Spec.rowMax x) := funext fun k => by rw [he k, hm]
  rw [hs, he', Spec.zero_eq, zero_add]
  rfl

/-- The square root of a sum of squares taken from the word 0, plus ε: the length-plus-ε of the vector. -/
theorem len_of_parts {n : ℕ} (x : Fin n → EReal) :
    Ideal.sqrt (Spec.zero + ∑ k : Fin n, x k * x k) + Spec.eps = Spec.len x := by
  rw [Spec.zero_eq, zero_add]
  rfl

end Cert.RefBridge

end
-- ==== Proof.RefBridgeA.lean ====
/-
  The reference program read at an index, first part: the write candidate tanh m_t, the erase vector softmax e_t,
  the gate logit ⟨wm ‖ m_erased, gW⟩ + gb and the gate 1 / (1 + exp (-logit)), each at batch row b, as the row
  functions of `Spec` at `rowOf A b`.  Every statement reads one array of the program at one index from the arrays
  before it; the only arithmetic is 0 + s = s under a sum and the word 0x3F800000 being 1 in the logistic.
-/
import proofs.«175705_j61950608278069_1_alg».proof.Proof.RefReadPatched
import proofs.«175705_j61950608278069_1_alg».proof.Proof.Rows
import proofs.«175705_j61950608278069_1_alg».proof.Proof.RefBridgeLib

noncomputable section

open scoped BigOperators

namespace Cert.RefBridge

open Idealize.ShloMosaic Idealize.ShloMosaic.ValueIdx Cert.ReferenceIdeal Cert.ReferenceIdeal.Read Cert.Rows

/-- Row b, entry w of the [128, 256] array is entry (b, 0, w) of its [128, 1, 256] reshape. -/
theorem idx_v2_at (b : Fin 128) (w : Fin 256) : idx_main_v2 (ix3 b (0 : Fin 1) w) = ix2 b w := by
  have hb := b.isLt; have hw := w.isLt
  funext a; apply Fin.ext
  match a with
  | ⟨0, _⟩ => show ((b.val * 1 + 0) * 256 + w.val) / 256 = b.val; omega
  | ⟨1, _⟩ => show ((b.val * 1 + 0) * 256 + w.val) % 256 = w.val; omega

/-- Row b, entry w of the [128, 256] array is entry (b, 0, w) of its [128, 1, 256] reshape. -/
theorem idx_v4_at (b : Fin 128) (w : Fin 256) : idx_main_v4 (ix3 b (0 : Fin 1) w) = ix2 b w := by
  have hb := b.isLt; have hw := w.isLt
  funext a; apply Fin.ext
  match a with
  | ⟨0, _⟩ => show ((b.val * 1 + 0) * 256 + w.val) / 256 = b.val; omega
  | ⟨1, _⟩ => show ((b.val * 1 + 0) * 256 + w.val) % 256 = w.val; omega

/-- The write candidate: tanh of m_t. -/
theorem v3_at (A : Args) (b : Fin 128) (w : Fin 256) :
    val_main_v3 (F := Ideal) A.a1 (ix3 b (0 : Fin 1) w)
      = Spec.wm (rowOf A b) w := by
  rw [val_main_v3_apply, val_main_v2_apply]
  exact congrArg (fun i => Ideal.tanh (A.a1 i)) (idx_v2_at b w)

/-- The erase logits. -/
theorem v4_at (A : Args) (b : Fin 128) (w : Fin 256) :
    val_main_v4 (F := Ideal) A.a2 (ix3 b (0 : Fin 1) w)
      = (rowOf A b).et w := by
  rw [val_main_v4_apply]
  exact congrArg A.a2 (idx_v4_at b w)

/-! The erase vector: the softmax of the erase logits, stage by stage. -/

theorem v5_at (A : Args) (b : Fin 128) :
    val_main_v5 (F := Ideal) A.a2 (ix2 b (0 : Fin 1))
      = (Finset.univ : Finset (Fin 256)).fold max Spec.ninf (rowOf A b).et := by
  unfold val_main_v5
  refine (hostMax_last3 (a := 128) (b := 1) (n := 256) _ _ _ (by decide) _ b (0 : Fin 1)).trans ?_
  have hf : (fun k : Fin 256 => val_main_v4 (F := Ideal) A.a2 (ix3 b (0 : Fin 1) k)) = (rowOf A b).et := funext fun k => v4_at A b k
  exact congrArg (fun f => Finset.fold max Spec.ninf f (Finset.univ : Finset (Fin 256))) hf

theorem v7_at (A : Args) (b : Fin 128) :
    val_main_v7 (F := Ideal) A.a2 (ix2 b (0 : Fin 1))
      = Spec.rowMax (rowOf A b).et := by
  rw [val_main_v7_apply, val_main_v6_apply, v5_at]
  rfl

theorem v9_at (A : Args) (b : Fin 128) (k : Fin 256) :
    val_main_v9 (F := Ideal) A.a2 (ix3 b (0 : Fin 1) k)
      = Spec.rowMax (rowOf A b).et := by
  rw [val_main_v9_apply, val_main_v8_apply]
  exact (congrArg (val_main_v7 (F := Ideal) A.a2) (show idx_main_v8 (idx_main_v9 (ix3 b (0 : Fin 1) k)) = ix2 b (0 : Fin 1) by idx_eq)).trans (v7_at A b)

theorem v10_at (A : Args) (b : Fin 128) (k : Fin 256) :
    val_main_v10 (F := Ideal) A.a2 (ix3 b (0 : Fin 1) k)
      = (rowOf A b).et k - Spec.rowMax (rowOf A b).et := by
  rw [val_main_v10_apply, v4_at, v9_at]
  rfl

theorem v11_at (A : Args) (b : Fin 128) (k : Fin 256) :
    val_main_v11 (F := Ideal) A.a2 (ix3 b (0 : Fin 1) k)
      = Ideal.exp ((rowOf A b).et k - Spec.rowMax (rowOf A b).et) := by
  rw [val_main_v11_apply, v10_at]
  rfl

theorem v12_at (A : Args) (b : Fin 128) :
    val_main_v12 (F := Ideal) A.a2 (ix2 b (0 : Fin 1))
      = Spec.zero + ∑ k : Fin 256, Ideal.exp ((rowOf A b).et k - Spec.rowMax (rowOf A b).et) := by
  rw [val_main_v12_apply]
  refine congrArg₂ (· + ·) rfl (Finset.sum_congr rfl fun k _ => ?_)
  exact (congrArg (val_main_v11 (F := Ideal) A.a2) (show idx_main_v12 (ix2 b (0 : Fin 1)) k = ix3 b (0 : Fin 1) k by idx_eq)).trans (v11_at A b k)

theorem v14_at (A : Args) (b : Fin 128) (k : Fin 256) :
    val_main_v14 (F := Ideal) A.a2 (ix3 b (0 : Fin 1) k)
      = Spec.zero + ∑ k : Fin 256, Ideal.exp ((rowOf A b).et k - Spec.rowMax (rowOf A b).et) := by
  rw [val_main_v14_apply, val_main_v13_apply]
  exact (congrArg (val_main_v12 (F := Ideal) A.a2) (show idx_main_v13 (idx_main_v14 (ix3 b (0 : Fin 1) k)) = ix2 b (0 : Fin 1) by idx_eq)).trans (v12_at A b)

theorem v15_at (A : Args) (b : Fin 128) (k : Fin 256) :
    val_main_v15 (F := Ideal) A.a2 (ix3 b (0 : Fin 1) k)
      = Spec.softmax (rowOf A b).et k := by
  rw [val_main_v15_apply, v11_at, v14_at]
  exact softmax_of_parts (rowOf A b).et (fun k => Ideal.exp ((rowOf A b).et k - Spec.rowMax (rowOf A b).et)) (Spec.rowMax (rowOf A b).et) _ rfl (fun _ => rfl) rfl k

/-- The write candidate and the erased memory end to end. -/
theorem v16_at (A : Args) (b : Fin 128) (k : Fin 512) :
    val_main_v16 (F := Ideal) A.a1 A.a3 (ix3 b (0 : Fin 1) k)
      = Spec.cat (Spec.wm (rowOf A b)) (rowOf A b).me k := by
  unfold val_main_v16
  refine (concat_apply (val_main_v3 (F := Ideal) A.a1) A.a3 _ b k).trans ?_
  have h1 : (fun w : Fin 256 => val_main_v3 (F := Ideal) A.a1 (ix3 b (0 : Fin 1) w)) = Spec.wm (rowOf A b) := funext fun w => v3_at A b w
  rw [h1]
  rfl

/-- Its inner product with the gate weights. -/
theorem v17_at (A : Args) (b : Fin 128) :
    val_main_v17 (F := Ideal) A.a1 A.a3 A.a5 (ix3 b (0 : Fin 1) (0 : Fin 1))
      = ∑ k : Fin 512, Spec.cat (Spec.wm (rowOf A b)) (rowOf A b).me k * (rowOf A b).gW k := by
  rw [val_main_v17_apply]
  refine Finset.sum_congr rfl fun k _ => ?_
  exact congrArg₂ (· * ·)
    ((congrArg (val_main_v16 (F := Ideal) A.a1 A.a3) (show lidx_main_v17 (ix3 b (0 : Fin 1) (0 : Fin 1)) k = ix3 b (0 : Fin 1) k by idx_eq)).trans (v16_at A b k))
    (congrArg A.a5 (show ridx_main_v17 (ix3 b (0 : Fin 1) (0 : Fin 1)) k = ix2 (0 : Fin 1) k by idx_eq))

/-- The gate logit: the inner product plus the bias. -/
theorem v20_at (A : Args) (b : Fin 128) :
    val_main_v20 (F := Ideal) A.a1 A.a3 A.a5 A.a6 (ix3 b (0 : Fin 1) (0 : Fin 1))
      = Spec.glogit (rowOf A b) := by
  rw [val_main_v20_apply, v17_at, val_main_v19_apply, val_main_v18_apply]
  exact congrArg (fun t => (∑ k : Fin 512, Spec.cat (Spec.wm (rowOf A b)) (rowOf A b).me k * (rowOf A b).gW k) + A.a6 t)
    (show idx_main_v18 (idx_main_v19 (ix3 b (0 : Fin 1) (0 : Fin 1))) = ix1 (0 : Fin 1) by idx_eq)

/-- The gate: 1 / (1 + exp (-logit)), the two ones being the word 0x3F800000. -/
theorem v26_at (A : Args) (b : Fin 128) :
    val_main_v26 (F := Ideal) A.a1 A.a3 A.a5 A.a6 (ix3 b (0 : Fin 1) (0 : Fin 1))
      = Spec.gate (rowOf A b) := by
  rw [val_main_v26_apply, val_main_v25_apply, val_main_v24_apply, val_main_v23_apply, val_main_v22_apply,
    val_main_v21_apply, v20_at]
  show Ideal.div Spec.one (Spec.one + Ideal.exp (-(Spec.glogit (rowOf A b)))) = _
  rw [Spec.one_eq]
  rfl

end Cert.RefBridge

end
-- ==== Proof.RefBridgeB.lean ====
/-
  The reference program read at an index, second part: the write key max (oW · (g·wm ‖ (1-g)·m_erased) + ob) 0,
  the key and the memory's columns each over its length-plus-ε, their cosine, and the write weights — the softmax
  over the slots of minus the cosine — each at batch row b, as the row functions of `Spec` at `rowOf A b`.
-/
import proofs.«175705_j61950608278069_1_alg».proof.Proof.RefBridgeA

noncomputable section

open scoped BigOperators

namespace Cert.RefBridge

open Idealize.ShloMosaic Idealize.ShloMosaic.ValueIdx Cert.ReferenceIdeal Cert.ReferenceIdeal.Read Cert.Rows

/-! The gated pair g·wm ‖ (1-g)·m_erased. -/

theorem v27_at (A : Args) (b : Fin 128) (w : Fin 256) :
    val_main_v27 (F := Ideal) A.a1 A.a3 A.a5 A.a6 (ix3 b (0 : Fin 1) w)
      = Spec.gate (rowOf A b) := by
  rw [val_main_v27_apply]
  exact (congrArg (val_main_v26 (F := Ideal) A.a1 A.a3 A.a5 A.a6) (show idx_main_v27 (ix3 b (0 : Fin 1) w) = ix3 b (0 : Fin 1) (0 : Fin 1) by idx_eq)).trans (v26_at A b)

theorem v28_at (A : Args) (b : Fin 128) (w : Fin 256) :
    val_main_v28 (F := Ideal) A.a1 A.a3 A.a5 A.a6 (ix3 b (0 : Fin 1) w)
      = Spec.gate (rowOf A b) * Spec.wm (rowOf A b) w := by
  rw [val_main_v28_apply, v27_at, v3_at]
  rfl

theorem v30_at (A : Args) (b : Fin 128) :
    val_main_v30 (F := Ideal) A.a1 A.a3 A.a5 A.a6 (ix3 b (0 : Fin 1) (0 : Fin 1))
      = Spec.one - Spec.gate (rowOf A b) := by
  rw [val_main_v30_apply, val_main_v29_apply, v26_at]
  rfl

theorem v31_at (A : Args) (b : Fin 128) (w : Fin 256) :
    val_main_v31 (F := Ideal) A.a1 A.a3 A.a5 A.a6 (ix3 b (0 : Fin 1) w)
      = Spec.one - Spec.gate (rowOf A b) := by
  rw [val_main_v31_apply]
  exact (congrArg (val_main_v30 (F := Ideal) A.a1 A.a3 A.a5 A.a6) (show idx_main_v31 (ix3 b (0 : Fin 1) w) = ix3 b (0 : Fin 1) (0 : Fin 1) by idx_eq)).trans (v30_at A b)

theorem v32_at (A : Args) (b : Fin 128) (w : Fin 256) :
    val_main_v32 (F := Ideal) A.a1 A.a3 A.a5 A.a6 (ix3 b (0 : Fin 1) w)
      = (Spec.one - Spec.gate (rowOf A b)) * (rowOf A b).me w := by
  rw [val_main_v32_apply, v31_at]
  rfl

theorem v33_at (A : Args) (b : Fin 128) (k : Fin 512) :
    val_main_v33 (F := Ideal) A.a1 A.a3 A.a5 A.a6 (ix3 b (0 : Fin 1) k)
      = Spec.gated (rowOf A b) k := by
  unfold val_main_v33
  refine (concat_apply (val_main_v28 (F := Ideal) A.a1 A.a3 A.a5 A.a6) (val_main_v32 (F := Ideal) A.a1 A.a3 A.a5 A.a6) _ b k).trans ?_
  have h1 : (fun w : Fin 256 => val_main_v28 (F := Ideal) A.a1 A.a3 A.a5 A.a6 (ix3 b (0 : Fin 1) w)) = fun w => Spec.gate (rowOf A b) * Spec.wm (rowOf A b) w :=
    funext fun w => v28_at A b w
  have h2 : (fun w : Fin 256 => val_main_v32 (F := Ideal) A.a1 A.a3 A.a5 A.a6 (ix3 b (0 : Fin 1) w)) = fun w => (Spec.one - Spec.gate (rowOf A b)) * (rowOf A b).me w :=
    funext fun w => v32_at A b w
  rw [h1, h2]
  rfl

/-! The write key. -/

theorem v34_at (A : Args) (b : Fin 128) (o : Fin 256) :
    val_main_v34 (F := Ideal) A.a1 A.a3 A.a5 A.a6 A.a7 (ix3 b (0 : Fin 1) o)
      = ∑ k : Fin 512, Spec.gated (rowOf A b) k * (rowOf A b).oW o k := by
  rw [val_main_v34_apply]
  refine Finset.sum_congr rfl fun k _ => ?_
  exact congrArg₂ (· * ·)
    ((congrArg (val_main_v33 (F := Ideal) A.a1 A.a3 A.a5 A.a6) (show lidx_main_v34 (ix3 b (0 : Fin 1) o) k = ix3 b (0 : Fin 1) k by idx_eq)).trans (v33_at A b k))
    (congrArg A.a7 (show ridx_main_v34 (ix3 b (0 : Fin 1) o) k = ix2 o k by idx_eq))

theorem v36_at (A : Args) (b : Fin 128) (o : Fin 256) :
    val_main_v36 (F := Ideal) A.a8 (ix3 b (0 : Fin 1) o)
      = (rowOf A b).ob o := by
  rw [val_main_v36_apply, val_main_v35_apply]
  exact congrArg A.a8 (show idx_main_v35 (idx_main_v36 (ix3 b (0 : Fin 1) o)) = ix1 o by idx_eq)

theorem v38_at (A : Args) (b : Fin 128) (o : Fin 256) :
    val_main_v38 (F := Ideal) A.a1 A.a3 A.a5 A.a6 A.a7 A.a8 (ix3 b (0 : Fin 1) o)
      = Spec.wkey (rowOf A b) o := by
  rw [val_main_v38_apply, val_main_v37_apply, v34_at, v36_at, val_main_call0_v0_apply]
  rfl

/-! The write key over its length-plus-ε. -/

theorem call1_v0_at (A : Args) (b : Fin 128) (k : Fin 256) :
    val_main_call1_v0 (F := Ideal) A.a1 A.a3 A.a5 A.a6 A.a7 A.a8 (ix3 b (0 : Fin 1) k)
      = Spec.wkey (rowOf A b) k * Spec.wkey (rowOf A b) k := by
  rw [val_main_call1_v0_apply, v38_at]
  rfl

theorem call1_v1_at (A : Args) (b : Fin 128) :
    val_main_call1_v1 (F := Ideal) A.a1 A.a3 A.a5 A.a6 A.a7 A.a8 (ix2 b (0 : Fin 1))
      = Spec.zero + ∑ k : Fin 256, Spec.wkey (rowOf A b) k * Spec.wkey (rowOf A b) k := by
  rw [val_main_call1_v1_apply]
  refine congrArg₂ (· + ·) rfl (Finset.sum_congr rfl fun k _ => ?_)
  exact (congrArg (val_main_call1_v0 (F := Ideal) A.a1 A.a3 A.a5 A.a6 A.a7 A.a8) (show idx_main_call1_v1 (ix2 b (0 : Fin 1)) k = ix3 b (0 : Fin 1) k by idx_eq)).trans (call1_v0_at A b k)

theorem call1_v2_at (A : Args) (b : Fin 128) :
    val_main_call1_v2 (F := Ideal) A.a1 A.a3 A.a5 A.a6 A.a7 A.a8 (ix3 b (0 : Fin 1) (0 : Fin 1))
      = Spec.zero + ∑ k : Fin 256, Spec.wkey (rowOf A b) k * Spec.wkey (rowOf A b) k := by
  rw [val_main_call1_v2_apply]
  exact (congrArg (val_main_call1_v1 (F := Ideal) A.a1 A.a3 A.a5 A.a6 A.a7 A.a8) (show idx_main_call1_v2 (ix3 b (0 : Fin 1) (0 : Fin 1)) = ix2 b (0 : Fin 1) by idx_eq)).trans (call1_v1_at A b)

theorem v41_at (A : Args) (b : Fin 128) :
    val_main_v41 (F := Ideal) A.a1 A.a3 A.a5 A.a6 A.a7 A.a8 (ix3 b (0 : Fin 1) (0 : Fin 1))
      = Spec.len (Spec.wkey (rowOf A b)) := by
  rw [val_main_v41_apply, val_main_v39_apply, val_main_v40_apply, call1_v2_at]
  exact len_of_parts (Spec.wkey (rowOf A b))

theorem v42_at (A : Args) (b : Fin 128) (k : Fin 256) :
    val_main_v42 (F := Ideal) A.a1 A.a3 A.a5 A.a6 A.a7 A.a8 (ix3 b (0 : Fin 1) k)
      = Spec.len (Spec.wkey (rowOf A b)) := by
  rw [val_main_v42_apply]
  exact (congrArg (val_main_v41 (F := Ideal) A.a1 A.a3 A.a5 A.a6 A.a7 A.a8) (show idx_main_v42 (ix3 b (0 : Fin 1) k) = ix3 b (0 : Fin 1) (0 : Fin 1) by idx_eq)).trans (v41_at A b)

theorem v43_at (A : Args) (b : Fin 128) (k : Fin 256) :
    val_main_v43 (F := Ideal) A.a1 A.a3 A.a5 A.a6 A.a7 A.a8 (ix3 b (0 : Fin 1) k)
      = Spec.unitv (Spec.wkey (rowOf A b)) k := by
  rw [val_main_v43_apply, v38_at, v42_at]
  rfl

/-! Each column of the memory over its length-plus-ε. -/

theorem call2_v0_at (A : Args) (b : Fin 128) (w : Fin 256) (n : Fin 2048) :
    val_main_call2_v0 (F := Ideal) A.a4 (ix3 b w n)
      = (rowOf A b).M w n * (rowOf A b).M w n := by
  rw [val_main_call2_v0_apply]
  rfl

theorem call2_v1_at (A : Args) (b : Fin 128) (n : Fin 2048) :
    val_main_call2_v1 (F := Ideal) A.a4 (ix2 b n)
      = Spec.zero + ∑ k : Fin 256, (rowOf A b).M k n * (rowOf A b).M k n := by
  rw [val_main_call2_v1_apply]
  refine congrArg₂ (· + ·) rfl (Finset.sum_congr rfl fun k _ => ?_)
  exact (congrArg (val_main_call2_v0 (F := Ideal) A.a4) (show idx_main_call2_v1 (ix2 b n) k = ix3 b k n by idx_eq)).trans (call2_v0_at A b k n)

theorem call2_v2_at (A : Args) (b : Fin 128) (n : Fin 2048) :
    val_main_call2_v2 (F := Ideal) A.a4 (ix3 b (0 : Fin 1) n)
      = Spec.zero + ∑ k : Fin 256, (rowOf A b).M k n * (rowOf A b).M k n := by
  rw [val_main_call2_v2_apply]
  exact (congrArg (val_main_call2_v1 (F := Ideal) A.a4) (show idx_main_call2_v2 (ix3 b (0 : Fin 1) n) = ix2 b n by idx_eq)).trans (call2_v1_at A b n)

theorem v46_at (A : Args) (b : Fin 128) (n : Fin 2048) :
    val_main_v46 (F := Ideal) A.a4 (ix3 b (0 : Fin 1) n)
      = (Spec.len fun w' => (rowOf A b).M w' n) := by
  rw [val_main_v46_apply, val_main_v44_apply, val_main_v45_apply, call2_v2_at]
  exact len_of_parts fun w' => (rowOf A b).M w' n

theorem v47_at (A : Args) (b : Fin 128) (w : Fin 256) (n : Fin 2048) :
    val_main_v47 (F := Ideal) A.a4 (ix3 b w n)
      = (Spec.len fun w' => (rowOf A b).M w' n) := by
  rw [val_main_v47_apply]
  exact (congrArg (val_main_v46 (F := Ideal) A.a4) (show idx_main_v47 (ix3 b w n) = ix3 b (0 : Fin 1) n by idx_eq)).trans (v46_at A b n)

theorem v48_at (A : Args) (b : Fin 128) (w : Fin 256) (n : Fin 2048) :
    val_main_v48 (F := Ideal) A.a4 (ix3 b w n)
      = Spec.colUnit (rowOf A b).M w n := by
  rw [val_main_v48_apply, v47_at]
  rfl

/-! The cosine of the write key against every column, and its negation. -/

theorem v49_at (A : Args) (b : Fin 128) (n : Fin 2048) :
    val_main_v49 (F := Ideal) A.a1 A.a3 A.a4 A.a5 A.a6 A.a7 A.a8 (ix3 b (0 : Fin 1) n)
      = Spec.cosine (Spec.wkey (rowOf A b)) (rowOf A b).M n := by
  rw [val_main_v49_apply]
  unfold Spec.cosine
  refine Finset.sum_congr rfl fun k _ => ?_
  exact congrArg₂ (· * ·)
    ((congrArg (val_main_v43 (F := Ideal) A.a1 A.a3 A.a5 A.a6 A.a7 A.a8) (show lidx_main_v49 (ix3 b (0 : Fin 1) n) k = ix3 b (0 : Fin 1) k by idx_eq)).trans (v43_at A b k))
    ((congrArg (val_main_v48 (F := Ideal) A.a4) (show ridx_main_v49 (ix3 b (0 : Fin 1) n) k = ix3 b k n by idx_eq)).trans (v48_at A b k n))

theorem v50_at (A : Args) (b : Fin 128) (n : Fin 2048) :
    val_main_v50 (F := Ideal) A.a1 A.a3 A.a4 A.a5 A.a6 A.a7 A.a8 (ix3 b (0 : Fin 1) n)
      = -(Spec.cosine (Spec.wkey (rowOf A b)) (rowOf A b).M n) := by
  rw [val_main_v50_apply, v49_at]
  rfl

/-! The write weights: the softmax over the slots of minus the cosine, stage by stage. -/

theorem v51_at (A : Args) (b : Fin 128) :
    val_main_v51 (F := Ideal) A.a1 A.a3 A.a4 A.a5 A.a6 A.a7 A.a8 (ix2 b (0 : Fin 1))
      = (Finset.univ : Finset (Fin 2048)).fold max Spec.ninf (fun n => -(Spec.cosine (Spec.wkey (rowOf A b)) (rowOf A b).M n)) := by
  unfold val_main_v51
  refine (hostMax_last3 (a := 128) (b := 1) (n := 2048) _ _ _ (by decide) _ b (0 : Fin 1)).trans ?_
  have hf : (fun k : Fin 2048 => val_main_v50 (F := Ideal) A.a1 A.a3 A.a4 A.a5 A.a6 A.a7 A.a8 (ix3 b (0 : Fin 1) k)) = (fun n => -(Spec.cosine (Spec.wkey (rowOf A b)) (rowOf A b).M n)) := funext fun k => v50_at A b k
  exact congrArg (fun f => Finset.fold max Spec.ninf f (Finset.univ : Finset (Fin 2048))) hf

theorem v53_at (A : Args) (b : Fin 128) :
    val_main_v53 (F := Ideal) A.a1 A.a3 A.a4 A.a5 A.a6 A.a7 A.a8 (ix2 b (0 : Fin 1))
      = Spec.rowMax (fun n => -(Spec.cosine (Spec.wkey (rowOf A b)) (rowOf A b).M n)) := by
  rw [val_main_v53_apply, val_main_v52_apply, v51_at]
  rfl

theorem v55_at (A : Args) (b : Fin 128) (k : Fin 2048) :
    val_main_v55 (F := Ideal) A.a1 A.a3 A.a4 A.a5 A.a6 A.a7 A.a8 (ix3 b (0 : Fin 1) k)
      = Spec.rowMax (fun n => -(Spec.cosine (Spec.wkey (rowOf A b)) (rowOf A b).M n)) := by
  rw [val_main_v55_apply, val_main_v54_apply]
  exact (congrArg (val_main_v53 (F := Ideal) A.a1 A.a3 A.a4 A.a5 A.a6 A.a7 A.a8) (show idx_main_v54 (idx_main_v55 (ix3 b (0 : Fin 1) k)) = ix2 b (0 : Fin 1) by idx_eq)).trans (v53_at A b)

theorem v56_at (A : Args) (b : Fin 128) (k : Fin 2048) :
    val_main_v56 (F := Ideal) A.a1 A.a3 A.a4 A.a5 A.a6 A.a7 A.a8 (ix3 b (0 : Fin 1) k)
      = -(Spec.cosine (Spec.wkey (rowOf A b)) (rowOf A b).M k) - Spec.rowMax (fun n => -(Spec.cosine (Spec.wkey (rowOf A b)) (rowOf A b).M n)) := by
  rw [val_main_v56_apply, v50_at, v55_at]
  rfl

theorem v57_at (A : Args) (b : Fin 128) (k : Fin 2048) :
    val_main_v57 (F := Ideal) A.a1 A.a3 A.a4 A.a5 A.a6 A.a7 A.a8 (ix3 b (0 : Fin 1) k)
      = Ideal.exp (-(Spec.cosine (Spec.wkey (rowOf A b)) (rowOf A b).M k) - Spec.rowMax (fun n => -(Spec.cosine (Spec.wkey (rowOf A b)) (rowOf A b).M n))) := by
  rw [val_main_v57_apply, v56_at]
  rfl

theorem v58_at (A : Args) (b : Fin 128) :
    val_main_v58 (F := Ideal) A.a1 A.a3 A.a4 A.a5 A.a6 A.a7 A.a8 (ix2 b (0 : Fin 1))
      = Spec.zero + ∑ k : Fin 2048, Ideal.exp (-(Spec.cosine (Spec.wkey (rowOf A b)) (rowOf A b).M k) - Spec.rowMax (fun n => -(Spec.cosine (Spec.wkey (rowOf A b)) (rowOf A b).M n))) := by
  rw [val_main_v58_apply]
  refine congrArg₂ (· + ·) rfl (Finset.sum_congr rfl fun k _ => ?_)
  exact (congrArg (val_main_v57 (F := Ideal) A.a1 A.a3 A.a4 A.a5 A.a6 A.a7 A.a8) (show idx_main_v58 (ix2 b (0 : Fin 1)) k = ix3 b (0 : Fin 1) k by idx_eq)).trans (v57_at A b k)

theorem v60_at (A : Args) (b : Fin 128) (k : Fin 2048) :
    val_main_v60 (F := Ideal) A.a1 A.a3 A.a4 A.a5 A.a6 A.a7 A.a8 (ix3 b (0 : Fin 1) k)
      = Spec.zero + ∑ k : Fin 2048, Ideal.exp (-(Spec.cosine (Spec.wkey (rowOf A b)) (rowOf A b).M k) - Spec.rowMax (fun n => -(Spec.cosine (Spec.wkey (rowOf A b)) (rowOf A b).M n))) := by
  rw [val_main_v60_apply, val_main_v59_apply]
  exact (congrArg (val_main_v58 (F := Ideal) A.a1 A.a3 A.a4 A.a5 A.a6 A.a7 A.a8) (show idx_main_v59 (idx_main_v60 (ix3 b (0 : Fin 1) k)) = ix2 b (0 : Fin 1) by idx_eq)).trans (v58_at A b)

theorem v61_at (A : Args) (b : Fin 128) (k : Fin 2048) :
    val_main_v61 (F := Ideal) A.a1 A.a3 A.a4 A.a5 A.a6 A.a7 A.a8 (ix3 b (0 : Fin 1) k)
      = Spec.softmax (fun n => -(Spec.cosine (Spec.wkey (rowOf A b)) (rowOf A b).M n)) k := by
  rw [val_main_v61_apply, v57_at, v60_at]
  exact softmax_of_parts (fun n => -(Spec.cosine (Spec.wkey (rowOf A b)) (rowOf A b).M n)) (fun k => Ideal.exp (-(Spec.cosine (Spec.wkey (rowOf A b)) (rowOf A b).M k) - Spec.rowMax (fun n => -(Spec.cosine (Spec.wkey (rowOf A b)) (rowOf A b).M n)))) (Spec.rowMax (fun n => -(Spec.cosine (Spec.wkey (rowOf A b)) (rowOf A b).M n))) _ rfl (fun _ => rfl) rfl k

/-- The write weights. -/
theorem wwt_at (A : Args) (b : Fin 128) (n : Fin 2048) :
    val_main_v61 (F := Ideal) A.a1 A.a3 A.a4 A.a5 A.a6 A.a7 A.a8 (ix3 b (0 : Fin 1) n)
      = Spec.wwt (rowOf A b) n := by
  exact v61_at A b n

end Cert.RefBridge

end
-- ==== Proof.RefBridgeC.lean ====
/-
  The reference program read at an index, third part: the new memory M · (1 - ev ⊗ ww) + wm ⊗ ww at batch row b,
  feature w, slot n, as `Spec.Mnew` at `rowOf A b`; and the second result array as a whole.  The two outer
  products are contractions over an axis of one entry: a sum of one term.
-/
import proofs.«175705_j61950608278069_1_alg».proof.Proof.RefBridgeB

noncomputable section

open scoped BigOperators

namespace Cert.RefBridge

open Idealize.ShloMosaic Idealize.ShloMosaic.ValueIdx Cert.ReferenceIdeal Cert.ReferenceIdeal.Read Cert.Rows

theorem v62_at (A : Args) (b : Fin 128) (w : Fin 256) (n : Fin 2048) :
    val_main_v62 (F := Ideal) A.a1 A.a2 A.a3 A.a4 A.a5 A.a6 A.a7 A.a8 (ix3 b w n)
      = Spec.ev (rowOf A b) w * Spec.wwt (rowOf A b) n := by
  rw [val_main_v62_apply, Fin.sum_univ_one]
  exact congrArg₂ (· * ·)
    ((congrArg (val_main_v15 (F := Ideal) A.a2) (show lidx_main_v62 (ix3 b w n) 0 = ix3 b (0 : Fin 1) w by idx_eq)).trans (v15_at A b w))
    ((congrArg (val_main_v61 (F := Ideal) A.a1 A.a3 A.a4 A.a5 A.a6 A.a7 A.a8) (show ridx_main_v62 (ix3 b w n) 0 = ix3 b (0 : Fin 1) n by idx_eq)).trans (v61_at A b n))

theorem v64_at (A : Args) (b : Fin 128) (w : Fin 256) (n : Fin 2048) :
    val_main_v64 (F := Ideal) A.a1 A.a2 A.a3 A.a4 A.a5 A.a6 A.a7 A.a8 (ix3 b w n)
      = Spec.one - Spec.ev (rowOf A b) w * Spec.wwt (rowOf A b) n := by
  rw [val_main_v64_apply, val_main_v63_apply, v62_at]
  rfl

theorem v65_at (A : Args) (b : Fin 128) (w : Fin 256) (n : Fin 2048) :
    val_main_v65 (F := Ideal) A.a1 A.a2 A.a3 A.a4 A.a5 A.a6 A.a7 A.a8 (ix3 b w n)
      = (rowOf A b).M w n * (Spec.one - Spec.ev (rowOf A b) w * Spec.wwt (rowOf A b) n) := by
  rw [val_main_v65_apply, v64_at]
  rfl

theorem v66_at (A : Args) (b : Fin 128) (w : Fin 256) (n : Fin 2048) :
    val_main_v66 (F := Ideal) A.a1 A.a3 A.a4 A.a5 A.a6 A.a7 A.a8 (ix3 b w n)
      = Spec.wm (rowOf A b) w * Spec.wwt (rowOf A b) n := by
  rw [val_main_v66_apply, Fin.sum_univ_one]
  exact congrArg₂ (· * ·)
    ((congrArg (val_main_v3 (F := Ideal) A.a1) (show lidx_main_v66 (ix3 b w n) 0 = ix3 b (0 : Fin 1) w by idx_eq)).trans (v3_at A b w))
    ((congrArg (val_main_v61 (F := Ideal) A.a1 A.a3 A.a4 A.a5 A.a6 A.a7 A.a8) (show ridx_main_v66 (ix3 b w n) 0 = ix3 b (0 : Fin 1) n by idx_eq)).trans (v61_at A b n))

/-- The new memory. -/
theorem v67_at (A : Args) (b : Fin 128) (w : Fin 256) (n : Fin 2048) :
    val_main_v67 (F := Ideal) A.a1 A.a2 A.a3 A.a4 A.a5 A.a6 A.a7 A.a8 (ix3 b w n)
      = Spec.Mnew (rowOf A b) w n := by
  rw [val_main_v67_apply, v65_at, v66_at]
  rfl

/-- The second result, the new memory [128, 256, 2048], as a whole array. -/
theorem memOut_eq (A : Args) :
    val_main_v67 (F := Ideal) A.a1 A.a2 A.a3 A.a4 A.a5 A.a6 A.a7 A.a8 = memOut A := by
  funext i
  obtain ⟨b, w, n, rfl⟩ : ∃ (b : Fin 128) (w : Fin 256) (n : Fin 2048), i = ix3 b w n := ⟨i 0, i 1, i 2, eq_ix3 i⟩
  exact v67_at A b w n

end Cert.RefBridge

end
-- ==== Proof.RefBridgeD.lean ====
/-
  The reference program read at an index, last part: the read keys tanh k_r over their length-plus-ε, the new
  memory's columns over theirs, their cosine, the read weights — the softmax of the cosine over the slots — and the
  read vectors rw · M'ᵀ, each at batch row b and read head r, as the row functions of `Spec` at `rowOf A b`; and the
  first and third result arrays as wholes.  Read key r of row b is entries r·256 … r·256+255 of row b of k_r.
-/
import proofs.«175705_j61950608278069_1_alg».proof.Proof.RefBridgeC

noncomputable section

open scoped BigOperators

namespace Cert.RefBridge

open Idealize.ShloMosaic Idealize.ShloMosaic.ValueIdx Cert.ReferenceIdeal Cert.ReferenceIdeal.Read Cert.Rows

/-- Entry (b, r, w) of the [128, 4, 256] reshape of k_r is entry r·256 + w of its row b. -/
theorem idx_v0_at (b : Fin 128) (r : Fin 4) (w : Fin 256) :
    idx_main_v0 (ix3 b r w) = ix2 b (⟨r.val * 256 + w.val, by have := r.isLt; have := w.isLt; omega⟩ : Fin 1024) := by
  have hb := b.isLt; have hr := r.isLt; have hw := w.isLt
  funext a; apply Fin.ext
  match a with
  | ⟨0, _⟩ => show ((b.val * 4 + r.val) * 256 + w.val) / 1024 = b.val; omega
  | ⟨1, _⟩ => show ((b.val * 4 + r.val) * 256 + w.val) % 1024 = r.val * 256 + w.val; omega

/-- The read keys: tanh of k_r. -/
theorem v1_at (A : Args) (b : Fin 128) (r : Fin 4) (w : Fin 256) :
    val_main_v1 (F := Ideal) A.a0 (ix3 b r w)
      = Spec.rkey (rowOf A b) r w := by
  rw [val_main_v1_apply, val_main_v0_apply]
  exact congrArg (fun i => Ideal.tanh (A.a0 i)) (idx_v0_at b r w)

/-! Each read key over its length-plus-ε. -/

theorem call3_v0_at (A : Args) (b : Fin 128) (r : Fin 4) (k : Fin 256) :
    val_main_call3_v0 (F := Ideal) A.a0 (ix3 b r k)
      = Spec.rkey (rowOf A b) r k * Spec.rkey (rowOf A b) r k := by
  rw [val_main_call3_v0_apply, v1_at]
  rfl

theorem call3_v1_at (A : Args) (b : Fin 128) (r : Fin 4) :
    val_main_call3_v1 (F := Ideal) A.a0 (ix2 b r)
      = Spec.zero + ∑ k : Fin 256, Spec.rkey (rowOf A b) r k * Spec.rkey (rowOf A b) r k := by
  rw [val_main_call3_v1_apply]
  refine congrArg₂ (· + ·) rfl (Finset.sum_congr rfl fun k _ => ?_)
  exact (congrArg (val_main_call3_v0 (F := Ideal) A.a0) (show idx_main_call3_v1 (ix2 b r) k = ix3 b r k by idx_eq)).trans (call3_v0_at A b r k)

theorem call3_v2_at (A : Args) (b : Fin 128) (r : Fin 4) :
    val_main_call3_v2 (F := Ideal) A.a0 (ix3 b r (0 : Fin 1))
      = Spec.zero + ∑ k : Fin 256, Spec.rkey (rowOf A b) r k * Spec.rkey (rowOf A b) r k := by
  rw [val_main_call3_v2_apply]
  exact (congrArg (val_main_call3_v1 (F := Ideal) A.a0) (show idx_main_call3_v2 (ix3 b r (0 : Fin 1)) = ix2 b r by idx_eq)).trans (call3_v1_at A b r)

theorem v70_at (A : Args) (b : Fin 128) (r : Fin 4) :
    val_main_v70 (F := Ideal) A.a0 (ix3 b r (0 : Fin 1))
      = Spec.len (Spec.rkey (rowOf A b) r) := by
  rw [val_main_v70_apply, val_main_v68_apply, val_main_v69_apply, call3_v2_at]
  exact len_of_parts (Spec.rkey (rowOf A b) r)

theorem v71_at (A : Args) (b : Fin 128) (r : Fin 4) (k : Fin 256) :
    val_main_v71 (F := Ideal) A.a0 (ix3 b r k)
      = Spec.len (Spec.rkey (rowOf A b) r) := by
  rw [val_main_v71_apply]
  exact (congrArg (val_main_v70 (F := Ideal) A.a0) (show idx_main_v71 (ix3 b r k) = ix3 b r (0 : Fin 1) by idx_eq)).trans (v70_at A b r)

theorem v72_at (A : Args) (b : Fin 128) (r : Fin 4) (k : Fin 256) :
    val_main_v72 (F := Ideal) A.a0 (ix3 b r k)
      = Spec.unitv (Spec.rkey (rowOf A b) r) k := by
  rw [val_main_v72_apply, v1_at, v71_at]
  rfl

/-! Each column of the new memory over its length-plus-ε. -/

theorem call4_v0_at (A : Args) (b : Fin 128) (w : Fin 256) (n : Fin 2048) :
    val_main_call4_v0 (F := Ideal) A.a1 A.a2 A.a3 A.a4 A.a5 A.a6 A.a7 A.a8 (ix3 b w n)
      = (Spec.Mnew (rowOf A b)) w n * (Spec.Mnew (rowOf A b)) w n := by
  rw [val_main_call4_v0_apply, v67_at]
  rfl

theorem call4_v1_at (A : Args) (b : Fin 128) (n : Fin 2048) :
    val_main_call4_v1 (F := Ideal) A.a1 A.a2 A.a3 A.a4 A.a5 A.a6 A.a7 A.a8 (ix2 b n)
      = Spec.zero + ∑ k : Fin 256, (Spec.Mnew (rowOf A b)) k n * (Spec.Mnew (rowOf A b)) k n := by
  rw [val_main_call4_v1_apply]
  refine congrArg₂ (· + ·) rfl (Finset.sum_congr rfl fun k _ => ?_)
  exact (congrArg (val_main_call4_v0 (F := Ideal) A.a1 A.a2 A.a3 A.a4 A.a5 A.a6 A.a7 A.a8) (show idx_main_call4_v1 (ix2 b n) k = ix3 b k n by idx_eq)).trans (call4_v0_at A b k n)

theorem call4_v2_at (A : Args) (b : Fin 128) (n : Fin 2048) :
    val_main_call4_v2 (F := Ideal) A.a1 A.a2 A.a3 A.a4 A.a5 A.a6 A.a7 A.a8 (ix3 b (0 : Fin 1) n)
      = Spec.zero + ∑ k : Fin 256, (Spec.Mnew (rowOf A b)) k n * (Spec.Mnew (rowOf A b)) k n := by
  rw [val_main_call4_v2_apply]
  exact (congrArg (val_main_call4_v1 (F := Ideal) A.a1 A.a2 A.a3 A.a4 A.a5 A.a6 A.a7 A.a8) (show idx_main_call4_v2 (ix3 b (0 : Fin 1) n) = ix2 b n by idx_eq)).trans (call4_v1_at A b n)

theorem v75_at (A : Args) (b : Fin 128) (n : Fin 2048) :
    val_main_v75 (F := Ideal) A.a1 A.a2 A.a3 A.a4 A.a5 A.a6 A.a7 A.a8 (ix3 b (0 : Fin 1) n)
      = (Spec.len fun w' => (Spec.Mnew (rowOf A b)) w' n) := by
  rw [val_main_v75_apply, val_main_v73_apply, val_main_v74_apply, call4_v2_at]
  exact len_of_parts fun w' => (Spec.Mnew (rowOf A b)) w' n

theorem v76_at (A : Args) (b : Fin 128) (w : Fin 256) (n : Fin 2048) :
    val_main_v76 (F := Ideal) A.a1 A.a2 A.a3 A.a4 A.a5 A.a6 A.a7 A.a8 (ix3 b w n)
      = (Spec.len fun w' => (Spec.Mnew (rowOf A b)) w' n) := by
  rw [val_main_v76_apply]
  exact (congrArg (val_main_v75 (F := Ideal) A.a1 A.a2 A.a3 A.a4 A.a5 A.a6 A.a7 A.a8) (show idx_main_v76 (ix3 b w n) = ix3 b (0 : Fin 1) n by idx_eq)).trans (v75_at A b n)

theorem v77_at (A : Args) (b : Fin 128) (w : Fin 256) (n : Fin 2048) :
    val_main_v77 (F := Ideal) A.a1 A.a2 A.a3 A.a4 A.a5 A.a6 A.a7 A.a8 (ix3 b w n)
      = Spec.colUnit (Spec.Mnew (rowOf A b)) w n := by
  rw [val_main_v77_apply, v67_at, v76_at]
  rfl

/-! The cosine of each read key against every column of the new memory. -/

theorem v78_at (A : Args) (b : Fin 128) (r : Fin 4) (n : Fin 2048) :
    val_main_v78 (F := Ideal) A.a0 A.a1 A.a2 A.a3 A.a4 A.a5 A.a6 A.a7 A.a8 (ix3 b r n)
      = Spec.cosine (Spec.rkey (rowOf A b) r) (Spec.Mnew (rowOf A b)) n := by
  rw [val_main_v78_apply]
  unfold Spec.cosine
  refine Finset.sum_congr rfl fun k _ => ?_
  exact congrArg₂ (· * ·)
    ((congrArg (val_main_v72 (F := Ideal) A.a0) (show lidx_main_v78 (ix3 b r n) k = ix3 b r k by idx_eq)).trans (v72_at A b r k))
    ((congrArg (val_main_v77 (F := Ideal) A.a1 A.a2 A.a3 A.a4 A.a5 A.a6 A.a7 A.a8) (show ridx_main_v78 (ix3 b r n) k = ix3 b k n by idx_eq)).trans (v77_at A b k n))

/-! The read weights: the softmax of the cosine over the slots, stage by stage. -/

theorem v79_at (A : Args) (b : Fin 128) (r : Fin 4) :
    val_main_v79 (F := Ideal) A.a0 A.a1 A.a2 A.a3 A.a4 A.a5 A.a6 A.a7 A.a8 (ix2 b r)
      = (Finset.univ : Finset (Fin 2048)).fold max Spec.ninf (fun n => Spec.cosine (Spec.rkey (rowOf A b) r) (Spec.Mnew (rowOf A b)) n) := by
  unfold val_main_v79
  refine (hostMax_last3 (a := 128) (b := 4) (n := 2048) _ _ _ (by decide) _ b r).trans ?_
  have hf : (fun k : Fin 2048 => val_main_v78 (F := Ideal) A.a0 A.a1 A.a2 A.a3 A.a4 A.a5 A.a6 A.a7 A.a8 (ix3 b r k)) = (fun n => Spec.cosine (Spec.rkey (rowOf A b) r) (Spec.Mnew (rowOf A b)) n) := funext fun k => v78_at A b r k
  exact congrArg (fun f => Finset.fold max Spec.ninf f (Finset.univ : Finset (Fin 2048))) hf

theorem v81_at (A : Args) (b : Fin 128) (r : Fin 4) :
    val_main_v81 (F := Ideal) A.a0 A.a1 A.a2 A.a3 A.a4 A.a5 A.a6 A.a7 A.a8 (ix2 b r)
      = Spec.rowMax (fun n => Spec.cosine (Spec.rkey (rowOf A b) r) (Spec.Mnew (rowOf A b)) n) := by
  rw [val_main_v81_apply, val_main_v80_apply, v79_at]
  rfl

theorem v83_at (A : Args) (b : Fin 128) (r : Fin 4) (k : Fin 2048) :
    val_main_v83 (F := Ideal) A.a0 A.a1 A.a2 A.a3 A.a4 A.a5 A.a6 A.a7 A.a8 (ix3 b r k)
      = Spec.rowMax (fun n => Spec.cosine (Spec.rkey (rowOf A b) r) (Spec.Mnew (rowOf A b)) n) := by
  rw [val_main_v83_apply, val_main_v82_apply]
  exact (congrArg (val_main_v81 (F := Ideal) A.a0 A.a1 A.a2 A.a3 A.a4 A.a5 A.a6 A.a7 A.a8) (show idx_main_v82 (idx_main_v83 (ix3 b r k)) = ix2 b r by idx_eq)).trans (v81_at A b r)

theorem v84_at (A : Args) (b : Fin 128) (r : Fin 4) (k : Fin 2048) :
    val_main_v84 (F := Ideal) A.a0 A.a1 A.a2 A.a3 A.a4 A.a5 A.a6 A.a7 A.a8 (ix3 b r k)
      = Spec.cosine (Spec.rkey (rowOf A b) r) (Spec.Mnew (rowOf A b)) k - Spec.rowMax (fun n => Spec.cosine (Spec.rkey (rowOf A b) r) (Spec.Mnew (rowOf A b)) n) := by
  rw [val_main_v84_apply, v78_at, v83_at]
  rfl

theorem v85_at (A : Args) (b : Fin 128) (r : Fin 4) (k : Fin 2048) :
    val_main_v85 (F := Ideal) A.a0 A.a1 A.a2 A.a3 A.a4 A.a5 A.a6 A.a7 A.a8 (ix3 b r k)
      = Ideal.exp (Spec.cosine (Spec.rkey (rowOf A b) r) (Spec.Mnew (rowOf A b)) k - Spec.rowMax (fun n => Spec.cosine (Spec.rkey (rowOf A b) r) (Spec.Mnew (rowOf A b)) n)) := by
  rw [val_main_v85_apply, v84_at]
  rfl

theorem v86_at (A : Args) (b : Fin 128) (r : Fin 4) :
    val_main_v86 (F := Ideal) A.a0 A.a1 A.a2 A.a3 A.a4 A.a5 A.a6 A.a7 A.a8 (ix2 b r)
      = Spec.zero + ∑ k : Fin 2048, Ideal.exp (Spec.cosine (Spec.rkey (rowOf A b) r) (Spec.Mnew (rowOf A b)) k - Spec.rowMax (fun n => Spec.cosine (Spec.rkey (rowOf A b) r) (Spec.Mnew (rowOf A b)) n)) := by
  rw [val_main_v86_apply]
  refine congrArg₂ (· + ·) rfl (Finset.sum_congr rfl fun k _ => ?_)
  exact (congrArg (val_main_v85 (F := Ideal) A.a0 A.a1 A.a2 A.a3 A.a4 A.a5 A.a6 A.a7 A.a8) (show idx_main_v86 (ix2 b r) k = ix3 b r k by idx_eq)).trans (v85_at A b r k)

theorem v88_at (A : Args) (b : Fin 128) (r : Fin 4) (k : Fin 2048) :
    val_main_v88 (F := Ideal) A.a0 A.a1 A.a2 A.a3 A.a4 A.a5 A.a6 A.a7 A.a8 (ix3 b r k)
      = Spec.zero + ∑ k : Fin 2048, Ideal.exp (Spec.cosine (Spec.rkey (rowOf A b) r) (Spec.Mnew (rowOf A b)) k - Spec.rowMax (fun n => Spec.cosine (Spec.rkey (rowOf A b) r) (Spec.Mnew (rowOf A b)) n)) := by
  rw [val_main_v88_apply, val_main_v87_apply]
  exact (congrArg (val_main_v86 (F := Ideal) A.a0 A.a1 A.a2 A.a3 A.a4 A.a5 A.a6 A.a7 A.a8) (show idx_main_v87 (idx_main_v88 (ix3 b r k)) = ix2 b r by idx_eq)).trans (v86_at A b r)

theorem v89_at (A : Args) (b : Fin 128) (r : Fin 4) (k : Fin 2048) :
    val_main_v89 (F := Ideal) A.a0 A.a1 A.a2 A.a3 A.a4 A.a5 A.a6 A.a7 A.a8 (ix3 b r k)
      = Spec.softmax (fun n => Spec.cosine (Spec.rkey (rowOf A b) r) (Spec.Mnew (rowOf A b)) n) k := by
  rw [val_main_v89_apply, v85_at, v88_at]
  exact softmax_of_parts (fun n => Spec.cosine (Spec.rkey (rowOf A b) r) (Spec.Mnew (rowOf A b)) n) (fun k => Ideal.exp (Spec.cosine (Spec.rkey (rowOf A b) r) (Spec.Mnew (rowOf A b)) k - Spec.rowMax (fun n => Spec.cosine (Spec.rkey (rowOf A b) r) (Spec.Mnew (rowOf A b)) n))) (Spec.rowMax (fun n => Spec.cosine (Spec.rkey (rowOf A b) r) (Spec.Mnew (rowOf A b)) n)) _ rfl (fun _ => rfl) rfl k

/-- The read vectors: the read weights against the new memory's rows. -/
theorem v90_at (A : Args) (b : Fin 128) (r : Fin 4) (w : Fin 256) :
    val_main_v90 (F := Ideal) A.a0 A.a1 A.a2 A.a3 A.a4 A.a5 A.a6 A.a7 A.a8 (ix3 b r w)
      = Spec.mread (rowOf A b) r w := by
  rw [val_main_v90_apply]
  unfold Spec.mread
  refine Finset.sum_congr rfl fun k _ => ?_
  exact congrArg₂ (· * ·)
    ((congrArg (val_main_v89 (F := Ideal) A.a0 A.a1 A.a2 A.a3 A.a4 A.a5 A.a6 A.a7 A.a8) (show lidx_main_v90 (ix3 b r w) k = ix3 b r k by idx_eq)).trans (v89_at A b r k))
    ((congrArg (val_main_v67 (F := Ideal) A.a1 A.a2 A.a3 A.a4 A.a5 A.a6 A.a7 A.a8) (show ridx_main_v90 (ix3 b r w) k = ix3 b w k by idx_eq)).trans (v67_at A b w k))

/-- The third result, the read weights [128, 4, 2048], as a whole array. -/
theorem wtOut_eq (A : Args) :
    val_main_v89 (F := Ideal) A.a0 A.a1 A.a2 A.a3 A.a4 A.a5 A.a6 A.a7 A.a8 = wtOut A := by
  funext i
  obtain ⟨b, r, n, rfl⟩ : ∃ (b : Fin 128) (r : Fin 4) (n : Fin 2048), i = ix3 b r n := ⟨i 0, i 1, i 2, eq_ix3 i⟩
  exact v89_at A b r n

/-- The first result, the read vectors [128, 4, 256], as a whole array. -/
theorem readOut_eq (A : Args) :
    val_main_v90 (F := Ideal) A.a0 A.a1 A.a2 A.a3 A.a4 A.a5 A.a6 A.a7 A.a8 = readOut A := by
  funext i
  obtain ⟨b, r, w, rfl⟩ : ∃ (b : Fin 128) (r : Fin 4) (w : Fin 256), i = ix3 b r w := ⟨i 0, i 1, i 2, eq_ix3 i⟩
  exact v90_at A b r w

end Cert.RefBridge

end
-- ==== Proof.lean ====
/-
  The certificate of the memory-update kernel against its jnp reference.

  Per batch row the kernel and the reference both compute, on the extended reals, the read vectors, the new memory and
  the read weights of `Proof/Spec.lean`: a softmax erase vector, a sigmoid gate mixing the tanh'd write candidate with
  the erased memory, a clamped write key, write weights that are the softmax of MINUS the cosine of the key against
  the memory's columns, the memory erased and written by two outer products, and read weights and read vectors
  taken from the new memory by cosine and softmax again.  The two programs differ only in arrangement: the kernel
  handles one batch row per grid point on [1, ·] and [4, ·] blocks with lane and row reductions and matrix-unit
  products into zero; the reference works on the whole [128, ·, ·] arrays with batched contractions.  Read index by
  index, both land on the same terms: no sum is reordered and no product distributed, the only arithmetic being
  that a host sum starts from zero, that zero minus a number is its negative, that a contraction over one entry is
  one product, and that the sigmoid is 1 / (1 + exp (-x)) with the float word 0x3F800000 for one.  So the
  equivalence holds for all extended-real inputs and the finiteness precondition is not used.

  The three frames are the generated frame certificates (the reference's is its run with the results dropped);
  the idealization rewrote nothing, so `preserves` is trivial; `algebraic` sets the kernel's run
  (`Proof/KerValue.lean`) beside the reference's (`Proof/RefRun.lean`, read by `Proof/RefBridge*.lean`).
-/
import proofs.«175705_j61950608278069_1_alg».proof.Defs
import proofs.«175705_j61950608278069_1_alg».proof.Proof.Gen.Kernel
import proofs.«175705_j61950608278069_1_alg».proof.Proof.Gen.Kernel.Skeleton
import proofs.«175705_j61950608278069_1_alg».proof.Proof.Gen.Kernel.Launch
import proofs.«175705_j61950608278069_1_alg».proof.Proof.Gen.Kernel.Points
import proofs.«175705_j61950608278069_1_alg».proof.Proof.Gen.Kernel.Frame
import proofs.«175705_j61950608278069_1_alg».proof.Proof.Gen.KernelIdeal
import proofs.«175705_j61950608278069_1_alg».proof.Proof.Gen.KernelIdeal.Skeleton
import proofs.«175705_j61950608278069_1_alg».proof.Proof.Gen.KernelIdeal.Launch
import proofs.«175705_j61950608278069_1_alg».proof.Proof.Gen.KernelIdeal.Points
import proofs.«175705_j61950608278069_1_alg».proof.Proof.Gen.KernelIdeal.Frame
import proofs.«175705_j61950608278069_1_alg».proof.Proof.Gen.ReferenceIdeal
import proofs.«175705_j61950608278069_1_alg».proof.Proof.Gen.Pre_finite_inputs
import proofs.«175705_j61950608278069_1_alg».proof.Proof.Gen.KernelIdeal.Value
import proofs.«175705_j61950608278069_1_alg».proof.Proof.KerValue
import proofs.«175705_j61950608278069_1_alg».proof.Proof.RefRun
import proofs.«175705_j61950608278069_1_alg».proof.Proof.RefLink
import proofs.«175705_j61950608278069_1_alg».proof.Proof.RefBridgeD
import Idealize.ShloMosaic.Adequacy
import Idealize.ShloMosaic.Init

noncomputable section

namespace Cert.Proof

open Idealize.ShloMosaic Idealize.SL.Sem Cert.Rows

theorem frame_k : Cert.frame_Kernel := fun m ρ _ => Cert.Kernel.Gen.frame m ρ

theorem frame_ki : Cert.frame_KernelIdeal := fun m ρ _ => Cert.KernelIdeal.Gen.frame m ρ

/-- The reference's frame: its run with the three results dropped. -/
theorem frame_ri : Cert.frame_ReferenceIdeal := fun m ρ _ =>
  (θ_run Cert.ReferenceIdeal.defs _ _).mono (fun _ h c => (h c).2.2.2) (Cert.RefRun.run m ρ)

/-- From memories agreeing on the nine arguments both programs end with the read vectors, the new memory and the
    read weights of those arguments: the kernel's three arrays block by block over its grid, the reference's as
    its last three stages read index by index. -/
theorem algebraic : Cert.algebraic_KernelIdeal_ReferenceIdeal := by
  intro m ρ m' ρ' _ hagree
  refine ⟨fun c => readOut (Cert.KerBlocks.argsOf m c), fun c => memOut (Cert.KerBlocks.argsOf m c),
    fun c => wtOut (Cert.KerBlocks.argsOf m c), Cert.KerValue.run m ρ, ?_⟩
  refine (θ_run Cert.ReferenceIdeal.defs _ _).mono (fun _ h c => ?_) (Cert.RefRun.run m' ρ')
  have hA : Cert.RefRun.argsOf m' c = Cert.KerBlocks.argsOf m c := by
    unfold Cert.RefRun.argsOf Cert.KerBlocks.argsOf
    rw [Args.mk.injEq]
    exact ⟨(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2⟩
  refine ⟨(h c).1.trans ?_, (h c).2.1.trans ?_, (h c).2.2.1.trans ?_, (h c).2.2.2⟩
  · exact ((Cert.RefLink.v90_eq _).trans (Cert.RefBridge.readOut_eq _)).trans (congrArg readOut hA)
  · exact ((Cert.RefLink.v67_eq _).trans (Cert.RefBridge.memOut_eq _)).trans (congrArg memOut hA)
  · exact ((Cert.RefLink.v89_eq _).trans (Cert.RefBridge.wtOut_eq _)).trans (congrArg wtOut hA)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
